-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128 .f32) (main_arg5 : FVec F S128x64 .f32) (main_arg6 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : FVec F S128x64 .f32) (main_arg6 : FVec F S64 .f32) (main_arg7 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x128 : Shape := ⟨2, ![5000, 128]⟩
abbrev S5000x1 : Shape := ⟨2, ![5000, 1]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩
abbrev S5000 : Shape := ⟨1, ![5000]⟩

abbrev nBuf : Space → Nat
  | .hbm => 76
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S2x800000, .i32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000x128, .f32⟩
  | .hbm, ⟨40, _⟩ => ⟨S_, .f32⟩
  | .hbm, ⟨41, _⟩ => ⟨S50000x128, .f32⟩
  | .hbm, ⟨42, _⟩ => ⟨S850000x1, .i32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x128, .f32⟩
  | .hbm, ⟨55, _⟩ => ⟨S_, .f32⟩
  | .hbm, ⟨56, _⟩ => ⟨S50000x128, .f32⟩
  | .hbm, ⟨57, _⟩ => ⟨S850000x1, .i32⟩
  | .hbm, ⟨58, _⟩ => ⟨S50000x128, .f32⟩
  | .hbm, ⟨59, _⟩ => ⟨S1x128, .f32⟩
  | .hbm, ⟨60, _⟩ => ⟨S50000x64, .f32⟩
  | .hbm, ⟨61, _⟩ => ⟨S_, .i32⟩
  | .hbm, ⟨62, _⟩ => ⟨S850000, .i32⟩
  | .hbm, ⟨63, _⟩ => ⟨S850000, .i1⟩
  | .hbm, ⟨64, _⟩ => ⟨S_, .i32⟩
  | .hbm, ⟨65, _⟩ => ⟨S850000, .i32⟩
  | .hbm, ⟨66, _⟩ => ⟨S850000, .i32⟩
  | .hbm, ⟨67, _⟩ => ⟨S850000, .i32⟩
  | .hbm, ⟨68, _⟩ => ⟨S850000x1, .i32⟩
  | .hbm, ⟨69, _⟩ => ⟨S850000x64, .f32⟩
  | .hbm, ⟨70, _⟩ => ⟨S_, .f32⟩
  | .hbm, ⟨71, _⟩ => ⟨S50000x64, .f32⟩
  | .hbm, ⟨72, _⟩ => ⟨S850000x1, .i32⟩
  | .hbm, ⟨73, _⟩ => ⟨S50000x64, .f32⟩
  | .hbm, ⟨74, _⟩ => ⟨S1x64, .f32⟩
  | .hbm, ⟨75, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S128x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x1, .f32⟩
  | .local _ .vmem, ⟨26, _⟩ => ⟨S5000x1, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_8 : Ref sig .tc := ⟨.hbm, 61, rfl⟩
abbrev main_v41 : Ref sig .tc := ⟨.hbm, 62, rfl⟩
abbrev main_v42 : Ref sig .tc := ⟨.hbm, 63, rfl⟩
abbrev main_c_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v50) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v51) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S50000x1 : Shape := ⟨2, ![50000, 1]⟩

abbrev nBuf : Space → Nat
  | .hbm => 129
  | .vmem => 0
  | .smem => 0
  | _ => 0

abbrev hbmTy0_0 (i : Nat) : BufTy := match i % 128 with
  | 0 => ⟨S50000x128, .f32⟩
  | 1 => ⟨S128x128, .f32⟩
  | 2 => ⟨S128, .f32⟩
  | 3 => ⟨S128x128, .f32⟩
  | 4 => ⟨S128, .f32⟩
  | 5 => ⟨S128x64, .f32⟩
  | 6 => ⟨S64, .f32⟩
  | 7 => ⟨S2x800000, .i32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S50000x128, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x128, .f32⟩
  | 58 => ⟨S850000x1, .f32⟩
  | 59 => ⟨S850000x128, .f32⟩
  | 60 => ⟨S850000x128, .f32⟩
  | 61 => ⟨S_, .f32⟩
  | 62 => ⟨S50000x128, .f32⟩
  | 63 => ⟨S850000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x128, .f32⟩
  | 72 => ⟨S_, .i32⟩
  | 73 => ⟨S850000, .i32⟩
  | 74 => ⟨S850000, .i1⟩
  | 75 => ⟨S_, .i32⟩
  | 76 => ⟨S850000, .i32⟩
  | 77 => ⟨S850000, .i32⟩
  | 78 => ⟨S850000, .i32⟩
  | 79 => ⟨S850000x1, .i32⟩
  | 80 => ⟨S850000x128, .f32⟩
  | 81 => ⟨S850000x1, .f32⟩
  | 82 => ⟨S850000x128, .f32⟩
  | 83 => ⟨S850000x128, .f32⟩
  | 84 => ⟨S_, .f32⟩
  | 85 => ⟨S50000x128, .f32⟩
  | 86 => ⟨S850000x1, .i32⟩
  | 87 => ⟨S50000x128, .f32⟩
  | 88 => ⟨S1x128, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S50000x64, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000x64, .f32⟩
  | 104 => ⟨S850000x1, .f32⟩
  | 105 => ⟨S850000x64, .f32⟩
  | 106 => ⟨S850000x64, .f32⟩
  | 107 => ⟨S_, .f32⟩
  | 108 => ⟨S50000x64, .f32⟩
  | 109 => ⟨S850000x1, .i32⟩
  | 110 => ⟨S50000x64, .f32⟩
  | 111 => ⟨S1x64, .f32⟩
  | 112 => ⟨S50000x64, .f32⟩
  | 113 => ⟨S50000x64, .f32⟩
  | 114 => ⟨S_, .f32⟩
  | 115 => ⟨S50000, .f32⟩
  | 116 => ⟨S_, .f32⟩
  | 117 => ⟨S50000, .f32⟩
  | 118 => ⟨S50000, .f32⟩
  | 119 => ⟨S50000x1, .f32⟩
  | 120 => ⟨S50000x64, .f32⟩
  | 121 => ⟨S50000x64, .f32⟩
  | 122 => ⟨S50000x64, .f32⟩
  | 123 => ⟨S_, .f32⟩
  | 124 => ⟨S50000, .f32⟩
  | 125 => ⟨S50000x1, .f32⟩
  | 126 => ⟨S50000x1, .f32⟩
  | 127 => ⟨S50000x64, .f32⟩
  | _ => ⟨S50000x128, .f32⟩

abbrev hbmTy0_1 (i : Nat) : BufTy := match i % 128 with
  | 0 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_call3_cst : Ref sig .tc := ⟨.hbm, 114, rfl⟩
abbrev main_call3_v0 : Ref sig .tc := ⟨.hbm, 115, rfl⟩
abbrev main_call3_cst_0 : Ref sig .tc := ⟨.hbm, 116, rfl⟩
abbrev main_call3_v1 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_v6 : Ref sig .tc := ⟨.hbm, 122, rfl⟩
abbrev main_call3_cst_1 : Ref sig .tc := ⟨.hbm, 123, rfl⟩
abbrev main_call3_v7 : Ref sig .tc := ⟨.hbm, 124, rfl⟩
abbrev main_call3_v8 : Ref sig .tc := ⟨.hbm, 125, rfl⟩
abbrev main_call3_v9 : Ref sig .tc := ⟨.hbm, 126, rfl⟩
abbrev main_call3_v10 : Ref sig .tc := ⟨.hbm, 127, rfl⟩
abbrev main_v83 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel program's run with its RESULT array named. @main is ten segments (host stretches and four
  launched regions); after the last region every unscoped buffer holds the last boundary's contents `Gen.W10`, so the
  result buffer holds `Gen.W10 … main_v52`, and the eight argument arrays end as launched. The statement is the frame
  claim with one more conjunct, read off the same final thread state.
-/
import proofs.«157919_j21165598834728_2_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v52) = W10 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v52 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.GcnRun

end
-- ==== Proof.RefRun.lean ====
/-
  The reference program's run, read back. @main is a straight line of 121 host operations; every weakly fair execution
  terminates with each buffer at the fold of the operations over the launch memory. The fold is read in three steps: the
  first seven operations build the two arrays of index words (the source and destination of every edge, the given edges
  followed by one self-loop per node); the next 99 operations (the per-node scale, the edge weights and the three layers)
  are read with those two arrays and the arguments as opaque values; the last 15 operations (the row-wise log-softmax) are
  read one at a time, each at the type of the tensor value it writes, from the third layer's value. Together they give the
  result buffer as the last stage `ReadP.val_main_v83` of the arguments, and the arguments unchanged.
-/
import proofs.«157919_j21165598834728_2_alg».proof.Proof.RefRunP
import proofs.«157919_j21165598834728_2_alg».proof.Proof.RefReadP
import Idealize.ShloMosaic.Lib.StableHlo.Run

noncomputable section

namespace Cert.ReferenceIdeal.RefRun

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- The fold over a list of operations followed by another is the second fold after the first. -/
theorem after_append {τ : Topo} {sig : RefSig} {Val : EltTy → Type} (l1 l2 : List (HloOp τ sig Val)) (V : Valuation τ sig Val) :
    after (l1 ++ l2) V = after l2 (after l1 V) := by
  induction l1 generalizing V with
  | nil => rfl
  | cons op l ih => exact ih _

/-- The first seven operations: the two arrays of index words. -/
abbrev opsHead : List (HloOp τ sig (Elt F)) :=
  [ nullary main_v0 (iotaInDim S50000 32 0),
    unary main_arg7 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg7 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- The next 99 operations: the per-node scale, the edge weights and the three layers. -/
abbrev opsMid : List (HloOp τ sig (Elt F)) :=
  [ nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)),
    binary main_arg0 main_arg1 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v3 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v30 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x128 ![0, 1] bcast_S850000x1_S850000x128_0_1 : (⟨S850000x1, .f32⟩ : BufTy).Contents (Elt F) → (⟨S850000x128, .f32⟩ : BufTy).Contents (Elt F)),
    binary main_v37 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg2 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf,
    binary main_v47 main_arg3 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_9 (constantI S_ 32 0#32),
    unary main_c_9 main_v49 (broadcastInDim S850000 ![] bcast_S_S850000 : (⟨S_, .i32⟩ : BufTy).Contents (Elt F) → (⟨S850000, .i32⟩ : BufTy).Contents (Elt F)),
    binary main_v3 main_v49 main_v50 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v51 (broadcastInDim S850000 ![] bcast_S_S850000 : (⟨S_, .i32⟩ : BufTy).Contents (Elt F) → (⟨S850000, .i32⟩ : BufTy).Contents (Elt F)),
    binary main_v3 main_v51 main_v52 (addi : (⟨S850000, .i32⟩ : BufTy).Contents (Elt F) → (⟨S850000, .i32⟩ : BufTy).Contents (Elt F) → (⟨S850000, .i32⟩ : BufTy).Contents (Elt F)),
    ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v53 main_v54 (broadcastInDim S850000x1 ![0] bcast_S850000_S850000x1_0 : (⟨S850000, .i32⟩ : BufTy).Contents (Elt F) → (⟨S850000x1, .i32⟩ : BufTy).Contents (Elt F)),
    binary main_v48 main_v54 main_v55 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v56 (broadcastInDim S850000x1 ![0] bcast_S850000_S850000x1_0 : (⟨S850000, .f32⟩ : BufTy).Contents (Elt F) → (⟨S850000x1, .f32⟩ : BufTy).Contents (Elt F)),
    unary main_v56 main_v57 (broadcastInDim S850000x128 ![0, 1] bcast_S850000x1_S850000x128_0_1 : (⟨S850000x1, .f32⟩ : BufTy).Contents (Elt F) → (⟨S850000x128, .f32⟩ : BufTy).Contents (Elt F)),
    binary main_v55 main_v57 main_v58 (mulf : (⟨S850000x128, .f32⟩ : BufTy).Contents (Elt F) → (⟨S850000x128, .f32⟩ : BufTy).Contents (Elt F) → (⟨S850000x128, .f32⟩ : BufTy).Contents (Elt F)),
    nullary main_cst_11 (constant S_ .f32 0x00000000#32),
    unary main_cst_11 main_v59 (broadcastInDim S50000x128 ![] bcast_S_S50000x128 : (⟨S_, .f32⟩ : BufTy).Contents (Elt F) → (⟨S50000x128, .f32⟩ : BufTy).Contents (Elt F)),
    unary main_v6 main_v60 (broadcastInDim S850000x1 ![0] bcast_S850000_S850000x1_0 : (⟨S850000, .i32⟩ : BufTy).Contents (Elt F) → (⟨S850000x1, .i32⟩ : BufTy).Contents (Elt F)),
    ternary main_v59 main_v60 main_v58 main_v61 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg4 main_v62 (broadcastInDim S1x128 ![1] bcast_S128_S1x128_1 : (⟨S128, .f32⟩ : BufTy).Contents (Elt F) → (⟨S1x128, .f32⟩ : BufTy).Contents (Elt F)),
    unary main_v62 main_v63 (broadcastInDim S50000x128 ![0, 1] bcast_S1x128_S50000x128_0_1 : (⟨S1x128, .f32⟩ : BufTy).Contents (Elt F) → (⟨S50000x128, .f32⟩ : BufTy).Contents (Elt F)),
    binary main_v61 main_v63 main_v64 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v64) (TRef.of (T := ⟨S50000x128, .f32⟩) main_call2_v0) (TRef.of (T := ⟨S50000x128, .f32⟩) main_v65) maximumf,
    binary main_v65 main_arg5 main_v66 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_c_12 (constantI S_ 32 0#32),
    unary main_c_12 main_v67 (broadcastInDim S850000 ![] bcast_S_S850000 : (⟨S_, .i32⟩ : BufTy).Contents (Elt F) → (⟨S850000, .i32⟩ : BufTy).Contents (Elt F)),
    binary main_v3 main_v67 main_v68 (cmpi .slt : (⟨S850000, .i32⟩ : BufTy).Contents (Elt F) → (⟨S850000, .i32⟩ : BufTy).Contents (Elt F) → (⟨S850000, .i1⟩ : BufTy).Contents (Elt F)),
    nullary main_c_13 (constantI S_ 32 50000#32),
    unary main_c_13 main_v69 (broadcastInDim S850000 ![] bcast_S_S850000 : (⟨S_, .i32⟩ : BufTy).Contents (Elt F) → (⟨S850000, .i32⟩ : BufTy).Contents (Elt F)),
    binary main_v3 main_v69 main_v70 (addi : (⟨S850000, .i32⟩ : BufTy).Contents (Elt F) → (⟨S850000, .i32⟩ : BufTy).Contents (Elt F) → (⟨S850000, .i32⟩ : BufTy).Contents (Elt F)),
    ternary main_v68 main_v70 main_v3 main_v71 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v71 main_v72 (broadcastInDim S850000x1 ![0] bcast_S850000_S850000x1_0 : (⟨S850000, .i32⟩ : BufTy).Contents (Elt F) → (⟨S850000x1, .i32⟩ : BufTy).Contents (Elt F)),
    binary main_v66 main_v72 main_v73 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v29 main_v74 (broadcastInDim S850000x1 ![0] bcast_S850000_S850000x1_0 : (⟨S850000, .f32⟩ : BufTy).Contents (Elt F) → (⟨S850000x1, .f32⟩ : BufTy).Contents (Elt F)),
    unary main_v74 main_v75 (broadcastInDim S850000x64 ![0, 1] bcast_S850000x1_S850000x64_0_1 : (⟨S850000x1, .f32⟩ : BufTy).Contents (Elt F) → (⟨S850000x64, .f32⟩ : BufTy).Contents (Elt F)),
    binary main_v73 main_v75 main_v76 (mulf : (⟨S850000x64, .f32⟩ : BufTy).Contents (Elt F) → (⟨S850000x64, .f32⟩ : BufTy).Contents (Elt F) → (⟨S850000x64, .f32⟩ : BufTy).Contents (Elt F)),
    nullary main_cst_14 (constant S_ .f32 0x00000000#32),
    unary main_cst_14 main_v77 (broadcastInDim S50000x64 ![] bcast_S_S50000x64 : (⟨S_, .f32⟩ : BufTy).Contents (Elt F) → (⟨S50000x64, .f32⟩ : BufTy).Contents (Elt F)),
    unary main_v6 main_v78 (broadcastInDim S850000x1 ![0] bcast_S850000_S850000x1_0 : (⟨S850000, .i32⟩ : BufTy).Contents (Elt F) → (⟨S850000x1, .i32⟩ : BufTy).Contents (Elt F)),
    ternary main_v77 main_v78 main_v76 main_v79 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg6 main_v80 (broadcastInDim S1x64 ![1] bcast_S64_S1x64_1 : (⟨S64, .f32⟩ : BufTy).Contents (Elt F) → (⟨S1x64, .f32⟩ : BufTy).Contents (Elt F)),
    unary main_v80 main_v81 (broadcastInDim S50000x64 ![0, 1] bcast_S1x64_S50000x64_0_1 : (⟨S1x64, .f32⟩ : BufTy).Contents (Elt F) → (⟨S50000x64, .f32⟩ : BufTy).Contents (Elt F)),
    binary main_v79 main_v81 main_v82 (addf : (⟨S50000x64, .f32⟩ : BufTy).Contents (Elt F) → (⟨S50000x64, .f32⟩ : BufTy).Contents (Elt F) → (⟨S50000x64, .f32⟩ : BufTy).Contents (Elt F)) ]

/-- The last 15 operations: the row-wise log-softmax. -/
abbrev opsLsm : List (HloOp τ sig (Elt F)) :=
  [ TRef.nullary (TRef.of (T := ⟨S_, .f32⟩) main_call3_cst) (constant S_ .f32 0xFF800000#32),
    TRef.binary (TRef.of (T := ⟨S50000x64, .f32⟩) main_v82) (TRef.of (T := ⟨S_, .f32⟩) main_call3_cst) (TRef.of (T := ⟨S50000, .f32⟩) main_call3_v0) (fun x v => Host.reduce FloatOps.maximumf x v reducesTo_S50000x64_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x64, .f32⟩) main_call3_v4) (broadcastInDim S50000x64 ![0, 1] bcast_S50000x1_S50000x64_0_1),
    TRef.binary (TRef.of (T := ⟨S50000x64, .f32⟩) main_v82) (TRef.of (T := ⟨S50000x64, .f32⟩) main_call3_v4) (TRef.of (T := ⟨S50000x64, .f32⟩) main_call3_v5) subf,
    TRef.unary (TRef.of (T := ⟨S50000x64, .f32⟩) main_call3_v5) (TRef.of (T := ⟨S50000x64, .f32⟩) main_call3_v6) Host.exp,
    TRef.nullary (TRef.of (T := ⟨S_, .f32⟩) main_call3_cst_1) (constant S_ .f32 0x00000000#32),
    TRef.binary (TRef.of (T := ⟨S50000x64, .f32⟩) main_call3_v6) (TRef.of (T := ⟨S_, .f32⟩) main_call3_cst_1) (TRef.of (T := ⟨S50000, .f32⟩) main_call3_v7) (fun x v => Host.reduceAdd x v reducesTo_S50000x64_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x64, .f32⟩) main_call3_v10) (broadcastInDim S50000x64 ![0, 1] bcast_S50000x1_S50000x64_0_1),
    TRef.binary (TRef.of (T := ⟨S50000x64, .f32⟩) main_call3_v5) (TRef.of (T := ⟨S50000x64, .f32⟩) main_call3_v10) (TRef.of (T := ⟨S50000x64, .f32⟩) main_v83) subf ]

theorem ops_split : (ops : List (HloOp τ sig (Elt F))) = opsHead ++ (opsMid ++ opsLsm) := rfl

section Head
variable (W : Valuation τ sig (Elt F))

/-- After the first seven operations the source words are the stage `val_main_v3` of the edge argument. -/
theorem head_v3 : after opsHead W (Proc.devRef .tc main_v3) = ReadP.val_main_v3 (F := F) (W (Proc.devRef .tc main_arg7)) := by
  after_results
  rfl

/-- After the first seven operations the destination words are the stage `val_main_v6` of the edge argument. -/
theorem head_v6 : after opsHead W (Proc.devRef .tc main_v6) = ReadP.val_main_v6 (F := F) (W (Proc.devRef .tc main_arg7)) := by
  after_results
  rfl

/-- The first seven operations write no argument. -/
theorem head_arg (b : Ref sig .tc) (hb : b = main_arg0 ∨ b = main_arg1 ∨ b = main_arg2 ∨ b = main_arg3 ∨ b = main_arg4 ∨ b = main_arg5 ∨ b = main_arg6 ∨ b = main_arg7) :
    after opsHead W (Proc.devRef .tc b) = W (Proc.devRef .tc b) := by
  rcases hb with rfl | rfl | rfl | rfl | rfl | rfl | rfl | rfl <;> (after_results)

end Head

set_option maxRecDepth 100000 in
set_option maxHeartbeats 48400000 in
/-- The 99 middle operations, from any contents whose source words, destination words and arguments are given values:
    the third layer's buffer ends at the stage `val_main_v82` of those values. -/
theorem mid_v82 (W : Valuation τ sig (Elt F)) (x0 : (⟨S50000x128, .f32⟩ : BufTy).Contents (Elt F)) (x1 : (⟨S128x128, .f32⟩ : BufTy).Contents (Elt F)) (x2 : (⟨S128, .f32⟩ : BufTy).Contents (Elt F)) (x3 : (⟨S128x128, .f32⟩ : BufTy).Contents (Elt F)) (x4 : (⟨S128, .f32⟩ : BufTy).Contents (Elt F)) (x5 : (⟨S128x64, .f32⟩ : BufTy).Contents (Elt F)) (x6 : (⟨S64, .f32⟩ : BufTy).Contents (Elt F)) (x7 : (⟨S2x800000, .i32⟩ : BufTy).Contents (Elt F))
    (h3 : W (Proc.devRef .tc main_v3) = ReadP.val_main_v3 (F := F) x7) (h6 : W (Proc.devRef .tc main_v6) = ReadP.val_main_v6 (F := F) x7)
    (h0 : W (Proc.devRef .tc main_arg0) = x0) (h1 : W (Proc.devRef .tc main_arg1) = x1) (h2 : W (Proc.devRef .tc main_arg2) = x2)
    (h3' : W (Proc.devRef .tc main_arg3) = x3) (h4 : W (Proc.devRef .tc main_arg4) = x4) (h5 : W (Proc.devRef .tc main_arg5) = x5)
    (h6' : W (Proc.devRef .tc main_arg6) = x6) :
    after opsMid W (Proc.devRef .tc main_v82) = ReadP.val_main_v82 (F := F) x0 x1 x2 x3 x4 x5 x6 x7 := by
  after_results_simp
  rw [h3, h6, h0, h1, h2, h3', h4, h5, h6']
  rfl

/-! ## Typed buffers: what a buffer holds, at the type of the tensor value it carries -/

section Typed
variable {τ : Topo} {sig : RefSig} {Val : EltTy → Type} {T Tx Ta Tb Ty : BufTy}

/-- The buffer of the typed reference `x` holds the value `v` (stated at the value's type). -/
def Holds (V : Valuation τ sig Val) (x : TRef sig T) (v : T.Contents Val) : Prop :=
  V (Proc.devRef .tc x.ref) = x.toBuf v

/-- Moving a value to the buffer's own type and back gives it again. -/
theorem ofBuf_toBuf (x : TRef sig T) (v : T.Contents Val) : x.ofBuf (x.toBuf v) = v := by
  obtain ⟨r, rfl, _, _⟩ := x
  rfl

/-- After a constant is written, its buffer holds it. -/
theorem holds_nullary (y : TRef sig Ty) (v : Ty.Contents Val) (V : Valuation τ sig Val) :
    Holds ((TRef.nullary (τ := τ) y v).result V) y v :=
  nullary_result y.ref (y.toBuf v) y.dev V

/-- The same, the contents before named by any fact about them. -/
theorem holds_nullary_at (y : TRef sig Ty) (v : Ty.Contents Val) {z : TRef sig T} {V : Valuation τ sig Val} {vz : T.Contents Val}
    (_hz : Holds V z vz) : Holds ((TRef.nullary (τ := τ) y v).result V) y v :=
  holds_nullary y v V

/-- After a one-operand operation, the result buffer holds the function of what the operand buffer held. -/
theorem holds_unary (x : TRef sig Tx) (y : TRef sig Ty) (f : Tx.Contents Val → Ty.Contents Val)
    {V : Valuation τ sig Val} {vx : Tx.Contents Val} {v : Ty.Contents Val} (hx : Holds V x vx) (hv : v = f vx) :
    Holds ((TRef.unary (τ := τ) x y f).result V) y v := by
  subst hv
  have hx' : V (Proc.devRef .tc x.ref) = x.toBuf vx := hx
  refine (unary_result x.ref y.ref _ x.dev y.dev V).trans ?_
  show y.toBuf (f (x.ofBuf (V (Proc.devRef .tc x.ref)))) = y.toBuf (f vx)
  rw [hx', ofBuf_toBuf]

/-- After a two-operand operation, the result buffer holds the function of what the operand buffers held. -/
theorem holds_binary (a : TRef sig Ta) (b : TRef sig Tb) (y : TRef sig Ty)
    (f : Ta.Contents Val → Tb.Contents Val → Ty.Contents Val)
    {V : Valuation τ sig Val} {va : Ta.Contents Val} {vb : Tb.Contents Val} {v : Ty.Contents Val}
    (ha : Holds V a va) (hb : Holds V b vb) (hv : v = f va vb) :
    Holds ((TRef.binary (τ := τ) a b y f).result V) y v := by
  subst hv
  have ha' : V (Proc.devRef .tc a.ref) = a.toBuf va := ha
  have hb' : V (Proc.devRef .tc b.ref) = b.toBuf vb := hb
  refine (binary_result a.ref b.ref y.ref _ a.dev b.dev y.dev V).trans ?_
  show y.toBuf (f (a.ofBuf (V (Proc.devRef .tc a.ref))) (b.ofBuf (V (Proc.devRef .tc b.ref)))) = y.toBuf (f va vb)
  rw [ha', hb', ofBuf_toBuf, ofBuf_toBuf]

/-- A constant's write leaves every other buffer as it was. -/
theorem frame_nullary (y : TRef sig Ty) (v : Ty.Contents Val) (z : TRef sig T)
    {V : Valuation τ sig Val} {vz : T.Contents Val} (hne : z.ref ≠ y.ref) (hz : Holds V z vz) :
    Holds ((TRef.nullary (τ := τ) y v).result V) z vz :=
  (nullary_result_ne (y := y.ref) (y.toBuf v) y.dev V hne).trans hz

/-- A one-operand operation leaves every buffer but its result as it was. -/
theorem frame_unary (x : TRef sig Tx) (y : TRef sig Ty) (f : Tx.Contents Val → Ty.Contents Val) (z : TRef sig T)
    {V : Valuation τ sig Val} {vz : T.Contents Val} (hne : z.ref ≠ y.ref) (hz : Holds V z vz) :
    Holds ((TRef.unary (τ := τ) x y f).result V) z vz :=
  (unary_result_ne (x := x.ref) (y := y.ref) _ x.dev y.dev V hne).trans hz

/-- A two-operand operation leaves every buffer but its result as it was. -/
theorem frame_binary (a : TRef sig Ta) (b : TRef sig Tb) (y : TRef sig Ty)
    (f : Ta.Contents Val → Tb.Contents Val → Ty.Contents Val) (z : TRef sig T)
    {V : Valuation τ sig Val} {vz : T.Contents Val} (hne : z.ref ≠ y.ref) (hz : Holds V z vz) :
    Holds ((TRef.binary (τ := τ) a b y f).result V) z vz :=
  (binary_result_ne (a := a.ref) (b := b.ref) (y := y.ref) _ a.dev b.dev y.dev V hne).trans hz

end Typed

/-- The log-softmax operations, from any contents whose third-layer buffer holds the stage `val_main_v82`: the result
    buffer ends at the last stage. Each operation is read at the type of the value it writes, one stage at a time. -/
theorem lsm_v83 (W : Valuation τ sig (Elt F)) (x0 : (⟨S50000x128, .f32⟩ : BufTy).Contents (Elt F)) (x1 : (⟨S128x128, .f32⟩ : BufTy).Contents (Elt F)) (x2 : (⟨S128, .f32⟩ : BufTy).Contents (Elt F)) (x3 : (⟨S128x128, .f32⟩ : BufTy).Contents (Elt F)) (x4 : (⟨S128, .f32⟩ : BufTy).Contents (Elt F)) (x5 : (⟨S128x64, .f32⟩ : BufTy).Contents (Elt F)) (x6 : (⟨S64, .f32⟩ : BufTy).Contents (Elt F)) (x7 : (⟨S2x800000, .i32⟩ : BufTy).Contents (Elt F))
    (h82 : W (Proc.devRef .tc main_v82) = ReadP.val_main_v82 (F := F) x0 x1 x2 x3 x4 x5 x6 x7) :
    after opsLsm W (Proc.devRef .tc main_v83) = ReadP.val_main_v83 (F := F) x0 x1 x2 x3 x4 x5 x6 x7 := by
  have k0 : Holds W (TRef.of (T := ⟨S50000x64, .f32⟩) main_v82) (ReadP.val_main_v82 (F := F) x0 x1 x2 x3 x4 x5 x6 x7) := h82.trans (cast_eq _ _).symm
  -- the constant -∞ and the row maxima
  have a1 : Holds _ (TRef.of (T := ⟨S_, .f32⟩) main_call3_cst) (ReadP.val_main_call3_cst (F := F)) := holds_nullary (τ := τ) (TRef.of (T := ⟨S_, .f32⟩) main_call3_cst) (constant S_ .f32 0xFF800000#32) W
  have k1 := frame_nullary (τ := τ) (TRef.of (T := ⟨S_, .f32⟩) main_call3_cst) (constant S_ .f32 0xFF800000#32) (TRef.of (T := ⟨S50000x64, .f32⟩) main_v82) (by decide) k0
  have t2 := holds_binary (τ := τ) (TRef.of (T := ⟨S50000x64, .f32⟩) main_v82) (TRef.of (T := ⟨S_, .f32⟩) main_call3_cst) (TRef.of (T := ⟨S50000, .f32⟩) main_call3_v0) (fun x v => Host.reduce FloatOps.maximumf x v reducesTo_S50000x64_S50000_d1 h_S_) k1 a1 rfl
  have a2 : Holds _ (TRef.of (T := ⟨S50000, .f32⟩) main_call3_v0) (ReadP.val_main_call3_v0 (F := F) x0 x1 x2 x3 x4 x5 x6 x7) := t2
  have k2 := frame_binary (τ := τ) (TRef.of (T := ⟨S50000x64, .f32⟩) main_v82) (TRef.of (T := ⟨S_, .f32⟩) main_call3_cst) (TRef.of (T := ⟨S50000, .f32⟩) main_call3_v0) (fun x v => Host.reduce FloatOps.maximumf x v reducesTo_S50000x64_S50000_d1 h_S_) (TRef.of (T := ⟨S50000x64, .f32⟩) main_v82) (by decide) k1
  -- the second constant -∞, broadcast, and the maximum with it
  have a3 : Holds _ (TRef.of (T := ⟨S_, .f32⟩) main_call3_cst_0) (ReadP.val_main_call3_cst_0 (F := F)) := holds_nullary_at (τ := τ) (TRef.of (T := ⟨S_, .f32⟩) main_call3_cst_0) (constant S_ .f32 0xFF800000#32) k2
  have k3 := frame_nullary (τ := τ) (TRef.of (T := ⟨S_, .f32⟩) main_call3_cst_0) (constant S_ .f32 0xFF800000#32) (TRef.of (T := ⟨S50000x64, .f32⟩) main_v82) (by decide) k2
  have m3 := frame_nullary (τ := τ) (TRef.of (T := ⟨S_, .f32⟩) main_call3_cst_0) (constant S_ .f32 0xFF800000#32) (TRef.of (T := ⟨S50000, .f32⟩) main_call3_v0) (by decide) a2
  have t4 := holds_unary (τ := τ) (TRef.of (T := ⟨S_, .f32⟩) main_call3_cst_0) (TRef.of (T := ⟨S50000, .f32⟩) main_call3_v1) (broadcastInDim S50000 ![] bcast_S_S50000) a3 rfl
  have a4 : Holds _ (TRef.of (T := ⟨S50000, .f32⟩) main_call3_v1) (ReadP.val_main_call3_v1 (F := F)) := t4
  have k4 := frame_unary (τ := τ) (TRef.of (T := ⟨S_, .f32⟩) main_call3_cst_0) (TRef.of (T := ⟨S50000, .f32⟩) main_call3_v1) (broadcastInDim S50000 ![] bcast_S_S50000) (TRef.of (T := ⟨S50000x64, .f32⟩) main_v82) (by decide) k3
  have m4 := frame_unary (τ := τ) (TRef.of (T := ⟨S_, .f32⟩) main_call3_cst_0) (TRef.of (T := ⟨S50000, .f32⟩) main_call3_v1) (broadcastInDim S50000 ![] bcast_S_S50000) (TRef.of (T := ⟨S50000, .f32⟩) main_call3_v0) (by decide) m3
  have t5 := holds_binary (τ := τ) (TRef.of (T := ⟨S50000, .f32⟩) main_call3_v1) (TRef.of (T := ⟨S50000, .f32⟩) main_call3_v0) (TRef.of (T := ⟨S50000, .f32⟩) main_call3_v2) maximumf a4 m4 rfl
  have a5 : Holds _ (TRef.of (T := ⟨S50000, .f32⟩) main_call3_v2) (ReadP.val_main_call3_v2 (F := F) x0 x1 x2 x3 x4 x5 x6 x7) := t5
  have k5 := frame_binary (τ := τ) (TRef.of (T := ⟨S50000, .f32⟩) main_call3_v1) (TRef.of (T := ⟨S50000, .f32⟩) main_call3_v0) (TRef.of (T := ⟨S50000, .f32⟩) main_call3_v2) maximumf (TRef.of (T := ⟨S50000x64, .f32⟩) main_v82) (by decide) k4
  -- the maxima as a column, repeated along the rows; the shifted entries
  have t6 := holds_unary (τ := τ) (TRef.of (T := ⟨S50000, .f32⟩) main_call3_v2) (TRef.of (T := ⟨S50000x1, .f32⟩) main_call3_v3) (broadcastInDim S50000x1 ![0] bcast_S50000_S50000x1_0) a5 rfl
  have a6 : Holds _ (TRef.of (T := ⟨S50000x1, .f32⟩) main_call3_v3) (ReadP.val_main_call3_v3 (F := F) x0 x1 x2 x3 x4 x5 x6 x7) := t6
  have k6 := frame_unary (τ := τ) (TRef.of (T := ⟨S50000, .f32⟩) main_call3_v2) (TRef.of (T := ⟨S50000x1, .f32⟩) main_call3_v3) (broadcastInDim S50000x1 ![0] bcast_S50000_S50000x1_0) (TRef.of (T := ⟨S50000x64, .f32⟩) main_v82) (by decide) k5
  have t7 := holds_unary (τ := τ) (TRef.of (T := ⟨S50000x1, .f32⟩) main_call3_v3) (TRef.of (T := ⟨S50000x64, .f32⟩) main_call3_v4) (broadcastInDim S50000x64 ![0, 1] bcast_S50000x1_S50000x64_0_1) a6 rfl
  have a7 : Holds _ (TRef.of (T := ⟨S50000x64, .f32⟩) main_call3_v4) (ReadP.val_main_call3_v4 (F := F) x0 x1 x2 x3 x4 x5 x6 x7) := t7
  have k7 := frame_unary (τ := τ) (TRef.of (T := ⟨S50000x1, .f32⟩) main_call3_v3) (TRef.of (T := ⟨S50000x64, .f32⟩) main_call3_v4) (broadcastInDim S50000x64 ![0, 1] bcast_S50000x1_S50000x64_0_1) (TRef.of (T := ⟨S50000x64, .f32⟩) main_v82) (by decide) k6
  have t8 := holds_binary (τ := τ) (TRef.of (T := ⟨S50000x64, .f32⟩) main_v82) (TRef.of (T := ⟨S50000x64, .f32⟩) main_call3_v4) (TRef.of (T := ⟨S50000x64, .f32⟩) main_call3_v5) subf k7 a7 rfl
  have a8 : Holds _ (TRef.of (T := ⟨S50000x64, .f32⟩) main_call3_v5) (ReadP.val_main_call3_v5 (F := F) x0 x1 x2 x3 x4 x5 x6 x7) := t8
  -- the exponentials and their row sums
  have t9 := holds_unary (τ := τ) (TRef.of (T := ⟨S50000x64, .f32⟩) main_call3_v5) (TRef.of (T := ⟨S50000x64, .f32⟩) main_call3_v6) Host.exp a8 rfl
  have a9 : Holds _ (TRef.of (T := ⟨S50000x64, .f32⟩) main_call3_v6) (ReadP.val_main_call3_v6 (F := F) x0 x1 x2 x3 x4 x5 x6 x7) := t9
  have s9 := frame_unary (τ := τ) (TRef.of (T := ⟨S50000x64, .f32⟩) main_call3_v5) (TRef.of (T := ⟨S50000x64, .f32⟩) main_call3_v6) Host.exp (TRef.of (T := ⟨S50000x64, .f32⟩) main_call3_v5) (by decide) a8
  have a10 : Holds _ (TRef.of (T := ⟨S_, .f32⟩) main_call3_cst_1) (ReadP.val_main_call3_cst_1 (F := F)) := holds_nullary_at (τ := τ) (TRef.of (T := ⟨S_, .f32⟩) main_call3_cst_1) (constant S_ .f32 0x00000000#32) a9
  have s10 := frame_nullary (τ := τ) (TRef.of (T := ⟨S_, .f32⟩) main_call3_cst_1) (constant S_ .f32 0x00000000#32) (TRef.of (T := ⟨S50000x64, .f32⟩) main_call3_v5) (by decide) s9
  have e10 := frame_nullary (τ := τ) (TRef.of (T := ⟨S_, .f32⟩) main_call3_cst_1) (constant S_ .f32 0x00000000#32) (TRef.of (T := ⟨S50000x64, .f32⟩) main_call3_v6) (by decide) a9
  have t11 := holds_binary (τ := τ) (TRef.of (T := ⟨S50000x64, .f32⟩) main_call3_v6) (TRef.of (T := ⟨S_, .f32⟩) main_call3_cst_1) (TRef.of (T := ⟨S50000, .f32⟩) main_call3_v7) (fun x v => Host.reduceAdd x v reducesTo_S50000x64_S50000_d1 h_S_) e10 a10 rfl
  have a11 : Holds _ (TRef.of (T := ⟨S50000, .f32⟩) main_call3_v7) (ReadP.val_main_call3_v7 (F := F) x0 x1 x2 x3 x4 x5 x6 x7) := t11
  have s11 := frame_binary (τ := τ) (TRef.of (T := ⟨S50000x64, .f32⟩) main_call3_v6) (TRef.of (T := ⟨S_, .f32⟩) main_call3_cst_1) (TRef.of (T := ⟨S50000, .f32⟩) main_call3_v7) (fun x v => Host.reduceAdd x v reducesTo_S50000x64_S50000_d1 h_S_) (TRef.of (T := ⟨S50000x64, .f32⟩) main_call3_v5) (by decide) s10
  -- the logarithm of the sums, as a column, repeated along the rows
  have t12 := holds_unary (τ := τ) (TRef.of (T := ⟨S50000, .f32⟩) main_call3_v7) (TRef.of (T := ⟨S50000x1, .f32⟩) main_call3_v8) (broadcastInDim S50000x1 ![0] bcast_S50000_S50000x1_0) a11 rfl
  have a12 : Holds _ (TRef.of (T := ⟨S50000x1, .f32⟩) main_call3_v8) (ReadP.val_main_call3_v8 (F := F) x0 x1 x2 x3 x4 x5 x6 x7) := t12
  have s12 := frame_unary (τ := τ) (TRef.of (T := ⟨S50000, .f32⟩) main_call3_v7) (TRef.of (T := ⟨S50000x1, .f32⟩) main_call3_v8) (broadcastInDim S50000x1 ![0] bcast_S50000_S50000x1_0) (TRef.of (T := ⟨S50000x64, .f32⟩) main_call3_v5) (by decide) s11
  have t13 := holds_unary (τ := τ) (TRef.of (T := ⟨S50000x1, .f32⟩) main_call3_v8) (TRef.of (T := ⟨S50000x1, .f32⟩) main_call3_v9) Host.log a12 rfl
  have a13 : Holds _ (TRef.of (T := ⟨S50000x1, .f32⟩) main_call3_v9) (ReadP.val_main_call3_v9 (F := F) x0 x1 x2 x3 x4 x5 x6 x7) := t13
  have s13 := frame_unary (τ := τ) (TRef.of (T := ⟨S50000x1, .f32⟩) main_call3_v8) (TRef.of (T := ⟨S50000x1, .f32⟩) main_call3_v9) Host.log (TRef.of (T := ⟨S50000x64, .f32⟩) main_call3_v5) (by decide) s12
  have t14 := holds_unary (τ := τ) (TRef.of (T := ⟨S50000x1, .f32⟩) main_call3_v9) (TRef.of (T := ⟨S50000x64, .f32⟩) main_call3_v10) (broadcastInDim S50000x64 ![0, 1] bcast_S50000x1_S50000x64_0_1) a13 rfl
  have a14 : Holds _ (TRef.of (T := ⟨S50000x64, .f32⟩) main_call3_v10) (ReadP.val_main_call3_v10 (F := F) x0 x1 x2 x3 x4 x5 x6 x7) := t14
  have s14 := frame_unary (τ := τ) (TRef.of (T := ⟨S50000x1, .f32⟩) main_call3_v9) (TRef.of (T := ⟨S50000x64, .f32⟩) main_call3_v10) (broadcastInDim S50000x64 ![0, 1] bcast_S50000x1_S50000x64_0_1) (TRef.of (T := ⟨S50000x64, .f32⟩) main_call3_v5) (by decide) s13
  -- the result
  have t15 := holds_binary (τ := τ) (TRef.of (T := ⟨S50000x64, .f32⟩) main_call3_v5) (TRef.of (T := ⟨S50000x64, .f32⟩) main_call3_v10) (TRef.of (T := ⟨S50000x64, .f32⟩) main_v83) subf s14 a14 rfl
  have a15 : Holds _ (TRef.of (T := ⟨S50000x64, .f32⟩) main_v83) (ReadP.val_main_v83 (F := F) x0 x1 x2 x3 x4 x5 x6 x7) := t15
  exact a15.trans (cast_eq _ _)

/-- The whole fold at the result buffer: the last stage of the launch contents of the eight arguments. -/
theorem after_v83 (W : Valuation τ sig (Elt F)) :
    after ops W (Proc.devRef .tc main_v83)
      = ReadP.val_main_v83 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [ops_split, after_append, after_append]
  exact lsm_v83 _ _ _ _ _ _ _ _ _
    (mid_v82 (after opsHead W) _ _ _ _ _ _ _ _ (head_v3 W) (head_v6 W)
      (head_arg W main_arg0 (Or.inl rfl)) (head_arg W main_arg1 (Or.inr (Or.inl rfl))) (head_arg W main_arg2 (Or.inr (Or.inr (Or.inl rfl))))
      (head_arg W main_arg3 (Or.inr (Or.inr (Or.inr (Or.inl rfl))))) (head_arg W main_arg4 (Or.inr (Or.inr (Or.inr (Or.inr (Or.inl rfl)))))) (head_arg W main_arg5 (Or.inr (Or.inr (Or.inr (Or.inr (Or.inr (Or.inl rfl)))))))
      (head_arg W main_arg6 (Or.inr (Or.inr (Or.inr (Or.inr (Or.inr (Or.inr (Or.inl rfl)))))))))

set_option maxRecDepth 100000 in
set_option maxHeartbeats 48400000 in
/-- On every device, for any float values, from any memory with zero counters: every weakly fair execution of @main
    terminates with the result buffer at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v83)
        = ReadP.val_main_v83 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v83).trans (after_v83 (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.RefRun

end
-- ==== Proof.LibRowGatherScatter.lean ====
/-
  UNTRUSTED. The host's row gather and row scatter-add, read at one index, for arrays of any sizes: a gather of whole
  rows `x[idx]` of a matrix `x : [N, C]` at a column of start indices `idx : [E, 1]`, and the scatter that adds the rows of
  `upd : [E, C]` into the rows of `x : [N, C]` those start indices name. A gather clamps its start index into the operand;
  a scatter does not: an update whose start index falls outside is dropped.
-/
import Idealize.ShloMosaic.Lib.ValueIdx
import Idealize.ShloMosaic.PureOps.Ideal

noncomputable section

open scoped BigOperators

namespace RowGatherScatter

open Idealize.ShloMosaic Idealize.ShloMosaic.ValueIdx

variable {N C E w : Nat}

/-! ## Row scatter-add -/

/-- The row a start index names for a scatter: entry `e` of the column of start indices read as a signed integer and
    NOT clamped; `none` when it falls outside `[0, N)` (such an update is dropped). -/
def rowOf (idx : IVec ⟨2, ![E, 1]⟩ w) (e : Fin E) : Option (Fin N) :=
  if h : 0 ≤ (idx (ix2 e 0)).toInt ∧ (idx (ix2 e 0)).toInt < N then some ⟨(idx (ix2 e 0)).toInt.toNat, by omega⟩ else none

/-- The dimension numbers of a scatter of whole rows: operand `[N, C]`, start indices `[E, 1]`, updates `[E, C]`; the
    updates' axis 1 is the window, operand axis 0 is the inserted one and the one the start index addresses. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section ScatterLiteral
variable (wf : ScatterDims.WF ⟨2, ![N, C]⟩ ⟨2, ![E, 1]⟩ ⟨2, ![E, C]⟩ [1] [0] [0] 1)

/-- On the row axis the window of update `(e, c)` starts at start index `e`, read signed. -/
theorem start0 (e : Fin E) (c : Fin C) (idx : IVec ⟨2, ![E, 1]⟩ w) :
    (rowScatterDims N C E wf).start (ix2 e c) idx 0 = (idx (ix2 e 0)).toInt := by
  unfold ScatterDims.start
  rw [dif_pos (show (0 : Fin 2) ∈ (rowScatterDims N C E wf).scatterDimsToOperandDims from List.mem_singleton.mpr rfl)]
  have hsi : (rowScatterDims N C E wf).siIdx (ix2 e c) ⟨List.idxOf (0 : Fin 2) (rowScatterDims N C E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window starts at 0. -/
theorem start1 (e : Fin E) (c : Fin C) (idx : IVec ⟨2, ![E, 1]⟩ w) :
    (rowScatterDims N C E wf).start (ix2 e c) idx 1 = 0 := by
  unfold ScatterDims.start
  rw [dif_neg (show (1 : Fin 2) ∉ (rowScatterDims N C E wf).scatterDimsToOperandDims from
    (by decide : (1 : Fin 2) ∉ ([0] : List (Fin 2))))]

/-- The row axis is inserted: no window coordinate there. -/
theorem window0 (e : Fin E) (c : Fin C) : (rowScatterDims N C E wf).window (ix2 e c) 0 = 0 := by
  unfold ScatterDims.window
  rw [dif_neg (show (0 : Fin 2) ∉ (rowScatterDims N C E wf).sKept from
    (by decide : (0 : Fin 2) ∉ (List.finRange 2).filter (fun a => a ∉ ([0] : List (Fin 2)))))]

/-- On the column axis the window coordinate of update `(e, c)` is `c`. -/
theorem window1 (e : Fin E) (c : Fin C) : (rowScatterDims N C E wf).window (ix2 e c) 1 = c.val := by
  unfold ScatterDims.window
  rw [dif_pos (show (1 : Fin 2) ∈ (rowScatterDims N C E wf).sKept from
    (by decide : (1 : Fin 2) ∈ (List.finRange 2).filter (fun a => a ∉ ([0] : List (Fin 2)))))]
  rfl

/-- WHERE AN UPDATE LANDS: update `(e, c)` lands at `(n, c)` when start index `e` names row `n`, and nowhere when it
    names no row. -/
theorem resultIdx?_row (e : Fin E) (c : Fin C) (idx : IVec ⟨2, ![E, 1]⟩ w) :
    (rowScatterDims N C E wf).resultIdx? (ix2 e c) idx = (rowOf (N := N) idx e).map (fun n => ix2 n c) := by
  have hs0 := start0 wf e c idx
  have hs1 := start1 wf e c idx
  have hw0 := window0 wf e c
  have hw1 := window1 wf e c
  unfold ScatterDims.resultIdx?
  by_cases h : 0 ≤ (idx (ix2 e 0)).toInt ∧ (idx (ix2 e 0)).toInt < (N : ℤ)
  · have hr : rowOf (N := N) idx e = some ⟨(idx (ix2 e 0)).toInt.toNat, by omega⟩ := by
      unfold rowOf; exact dif_pos h
    rw [hr]
    split_ifs with hall
    · show some _ = some _
      refine congrArg some ?_
      funext a
      refine Fin.ext ?_
      match a with
      | ⟨0, _⟩ =>
        show ((rowScatterDims N C E wf).start (ix2 e c) idx 0 + ((rowScatterDims N C E wf).window (ix2 e c) 0 : ℤ)).toNat
          = (idx (ix2 e 0)).toInt.toNat
        rw [hs0, hw0]; simp
      | ⟨1, _⟩ =>
        show ((rowScatterDims N C E wf).start (ix2 e c) idx 1 + ((rowScatterDims N C E wf).window (ix2 e c) 1 : ℤ)).toNat
          = c.val
        rw [hs1, hw1]; simp
    · refine absurd (fun a => ?_) hall
      match a with
      | ⟨0, _⟩ =>
        show 0 ≤ (rowScatterDims N C E wf).start (ix2 e c) idx 0 + ((rowScatterDims N C E wf).window (ix2 e c) 0 : ℤ)
          ∧ (rowScatterDims N C E wf).start (ix2 e c) idx 0 + ((rowScatterDims N C E wf).window (ix2 e c) 0 : ℤ) < (N : ℤ)
        rw [hs0, hw0]; simpa using h
      | ⟨1, _⟩ =>
        show 0 ≤ (rowScatterDims N C E wf).start (ix2 e c) idx 1 + ((rowScatterDims N C E wf).window (ix2 e c) 1 : ℤ)
          ∧ (rowScatterDims N C E wf).start (ix2 e c) idx 1 + ((rowScatterDims N C E wf).window (ix2 e c) 1 : ℤ) < (C : ℤ)
        rw [hs1, hw1]
        have := c.isLt
        omega
  · have hr : rowOf (N := N) idx e = none := by
      unfold rowOf; exact dif_neg h
    rw [hr]
    split_ifs with hall
    · exfalso
      apply h
      have h0 : 0 ≤ (rowScatterDims N C E wf).start (ix2 e c) idx 0 + ((rowScatterDims N C E wf).window (ix2 e c) 0 : ℤ)
          ∧ (rowScatterDims N C E wf).start (ix2 e c) idx 0 + ((rowScatterDims N C E wf).window (ix2 e c) 0 : ℤ) < (N : ℤ) := hall 0
      rw [hs0, hw0] at h0
      simpa using h0
    · rfl

/-- THE ROW SCATTER-ADD READ AT `(n, c)`, for the literal dimension numbers, with the index given by its coordinates:
    the operand's entry plus the updates `upd (e, c)` over the start indices `e` that name row `n`. -/
theorem scatterAdd_rowDims_ix2 {φ : FTy} (x : FVec Ideal ⟨2, ![N, C]⟩ φ) (idx : IVec ⟨2, ![E, 1]⟩ w)
    (upd : FVec Ideal ⟨2, ![E, C]⟩ φ) (n : Fin N) (c : Fin C) :
    Host.scatterAdd (F := Ideal) (rowScatterDims N C E wf) x idx upd (ix2 n c)
      = x (ix2 n c) + ∑ e : Fin E, if rowOf idx e = some n then upd (ix2 e c) else 0 := by
  unfold Host.scatterAdd
  rw [Ideal.hostScatterAdd_def]
  unfold Ideal.hostScatterAdd
  refine congrArg (x (ix2 n c) + ·) ?_
  rw [Finset.sum_filter, sum_idx2]
  refine Finset.sum_congr rfl (fun e _ => ?_)
  have key : ∀ c' : Fin C, (rowScatterDims N C E wf).resultIdx? (ix2 e c') idx = (rowOf (N := N) idx e).map (fun m => ix2 m c') :=
    fun c' => resultIdx?_row wf e c' idx
  by_cases hr : rowOf idx e = some n
  · rw [if_pos hr, Finset.sum_eq_single c]
    · rw [if_pos]
      rw [key, hr]
      rfl
    · intro c' _ hc
      rw [if_neg]
      rw [key, hr]
      intro hEq
      apply hc
      have h1 : ix2 n c' = ix2 n c := Option.some.inj hEq
      exact congrFun h1 1
    · intro hn
      exact absurd (Finset.mem_univ _) hn
  · rw [if_neg hr]
    refine Finset.sum_eq_zero (fun c' _ => ?_)
    rw [if_neg]
    rw [key]
    intro hEq
    apply hr
    cases hro : rowOf (N := N) idx e with
    | none => rw [hro] at hEq; exact absurd hEq (by simp)
    | some m =>
      rw [hro] at hEq
      have h1 : ix2 m c' = ix2 n c := Option.some.inj hEq
      exact congrArg some (congrFun h1 0)

/-- The same at an index `i`. -/
theorem scatterAdd_rowDims {φ : FTy} (x : FVec Ideal ⟨2, ![N, C]⟩ φ) (idx : IVec ⟨2, ![E, 1]⟩ w)
    (upd : FVec Ideal ⟨2, ![E, C]⟩ φ) (i : (⟨2, ![N, C]⟩ : Shape).Idx) :
    Host.scatterAdd (F := Ideal) (rowScatterDims N C E wf) x idx upd i
      = x i + ∑ e : Fin E, if rowOf idx e = (some (i 0) : Option (Fin N)) then upd (ix2 e (i 1)) else 0 := by
  obtain ⟨n, c, rfl⟩ : ∃ (n : Fin N) (c : Fin C), i = ix2 n c := ⟨i 0, i 1, eq_ix2 i⟩
  exact scatterAdd_rowDims_ix2 wf x idx upd n c

end ScatterLiteral

/-- THE ROW SCATTER-ADD READ AT `(n, c)`, for ANY dimension numbers with the row scatter's fields (a record given by its
    fields: the four hypotheses then hold by `rfl`). The start index is read signed and not clamped (`rowOf`). -/
theorem scatterAdd_rows {φ : FTy} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![E, 1]⟩ w)
    (upd : FVec Ideal ⟨2, ![E, C]⟩ φ) (i : (⟨2, ![N, C]⟩ : Shape).Idx) :
    Host.scatterAdd (F := Ideal) d x idx upd i
      = x i + ∑ e : Fin E, if rowOf idx e = (some (i 0) : Option (Fin N)) then upd (ix2 e (i 1)) else 0 := by
  obtain ⟨uw, iw, sd, iv, wf⟩ := d
  simp only at h1 h2 h3 h4
  subst h1 h2 h3 h4
  exact scatterAdd_rowDims wf x idx upd i

/-- The same with the index given by its coordinates. -/
theorem scatterAdd_rows_ix2 {φ : FTy} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![E, 1]⟩ w)
    (upd : FVec Ideal ⟨2, ![E, C]⟩ φ) (n : Fin N) (c : Fin C) :
    Host.scatterAdd (F := Ideal) d x idx upd (ix2 n c)
      = x (ix2 n c) + ∑ e : Fin E, if rowOf idx e = some n then upd (ix2 e c) else 0 :=
  scatterAdd_rows d h1 h2 h3 h4 x idx upd (ix2 n c)

/-! ## Row gather -/

/-- The dimension numbers of a gather of whole rows: operand `[N, C]`, start indices `[E, 1]`, result `[E, C]`; the
    result's axis 1 is the offset axis, operand axis 0 is collapsed and is the one the start index addresses; a slice is
    one whole row. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section GatherLiteral
variable (wf : GatherDims.WF ⟨2, ![N, C]⟩ ⟨2, ![E, 1]⟩ ⟨2, ![E, C]⟩ [1] [0] [] [0] [] 1 ![1, C])

/-- THE ROW GATHER READ AT `(e, c)`, for the literal dimension numbers: the operand at row `idx[e, 0]`, read signed and
    clamped into `[0, N − 1]`, column `c`. -/
theorem gather_rowDims {α : Type} (hN : 0 < N) (x : (⟨2, ![N, C]⟩ : Shape).Idx → α) (idx : IVec ⟨2, ![E, 1]⟩ w)
    (j : (⟨2, ![E, C]⟩ : Shape).Idx) :
    Host.gather (rowGatherDims N C E wf) x idx j
      = x (ix2 ⟨min (idx (ix2 (j 0) 0)).toInt.toNat (N - 1), by omega⟩ (j 1)) := by
  unfold Host.gather
  congr 1
  funext a
  refine Fin.ext ?_
  match a with
  | ⟨0, _⟩ =>
    show (rowGatherDims N C E wf).start j idx 0 + (rowGatherDims N C E wf).batchCoord j 0
      + (rowGatherDims N C E wf).offCoord j 0 = min (idx (ix2 (j 0) 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx j ⟨List.idxOf (0 : Fin 2) (rowGatherDims N C E wf).startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    show (rowGatherDims N C E wf).start j idx 1 + (rowGatherDims N C E wf).batchCoord j 1
      + (rowGatherDims N C E wf).offCoord j 1 = (j 1).val
    rw [GatherDims.batchCoord_eq_zero _ _ _ List.not_mem_nil]
    have hst : (rowGatherDims N C E wf).start j idx 1 = 0 := by
      unfold GatherDims.start
      rw [dif_neg (show (1 : Fin 2) ∉ (rowGatherDims N C E wf).startIndexMap from
        (by decide : (1 : Fin 2) ∉ ([0] : List (Fin 2))))]
    have hoff : (rowGatherDims N C E wf).offCoord j 1 = (j 1).val := by
      unfold GatherDims.offCoord
      rw [dif_pos (show (1 : Fin 2) ∈ (rowGatherDims N C E wf).sKept from
        (by decide : (1 : Fin 2) ∈ (List.finRange 2).filter (fun a => a ∉ ([0] ++ [] : List (Fin 2)))))]
      rfl
    rw [hst, hoff]
    simp only [Nat.zero_add, Nat.add_zero]

end GatherLiteral

/-- THE ROW GATHER READ AT `(e, c)`, for ANY dimension numbers with the row gather's fields (a record given by its fields: the seven
    hypotheses then hold by `rfl`). The start index is read signed and clamped into `[0, N − 1]`. -/
theorem gather_rows {α : Type} (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (hN : 0 < N) (x : (⟨2, ![N, C]⟩ : Shape).Idx → α) (idx : IVec ⟨2, ![E, 1]⟩ w)
    (j : (⟨2, ![E, C]⟩ : Shape).Idx) :
    Host.gather d x idx j = x (ix2 ⟨min (idx (ix2 (j 0) 0)).toInt.toNat (N - 1), by omega⟩ (j 1)) := by
  obtain ⟨od, cs, ob, sb, sm, iv, ss, wf⟩ := d
  simp only at h1 h2 h3 h4 h5 h6 h7
  subst h1 h2 h3 h4 h5 h6 h7
  exact gather_rowDims wf hN x idx j

end RowGatherScatter

end
-- ==== Proof.LibChebAlgebra.lean ====
/-
  UNTRUSTED. General algebra of a Chebyshev graph-convolution layer over the extended reals, independent of any
  particular program: (1) arrays all of whose entries are real numbers (`IsReal`) and the operations that preserve this;
  (2) node-axis propagation along weighted edges (`prop`) and the feature-axis matrix product (`mm`), both as sums;
  (3) the two commute (`prop_mm`); (4) the degree-2 Chebyshev layer written "product first, then propagate" equals
  the layer written "propagate first, then product" (`cheb_layer`).
  Extended-real arithmetic is not a ring (⊤ + ⊥, 0 * ⊤), so every identity here is proved by moving to ℝ, where the
  arrays live once they are known to be real.
-/
import Idealize.ShloMosaic.Lib.ValueIdx

noncomputable section

open scoped BigOperators

namespace ChebAlgebra

open Idealize.ShloMosaic Idealize.ShloMosaic.ValueIdx

/-! ## (1) Arrays of real numbers -/

/-- Every entry of the extended-real array `v` is a real number (equivalently: none is ⊤ or ⊥). -/
def IsReal {ι : Type*} (v : ι → EReal) : Prop := ∀ i, ∃ r : ℝ, v i = (r : EReal)

/-- The coercion ℝ → EReal commutes with finite sums. -/
theorem coe_finset_sum {κ : Type*} (s : Finset κ) (f : κ → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The coercion ℝ → EReal commutes with `if … then … else 0`. -/
theorem coe_ite_zero (p : Prop) [Decidable p] (a : ℝ) :
    (((if p then a else 0 : ℝ)) : EReal) = if p then (a : EReal) else 0 := by
  split_ifs <;> simp

/-- The coercion ℝ → EReal commutes with `max`. -/
theorem coe_max (x y : ℝ) : ((max x y : ℝ) : EReal) = max (x : EReal) (y : EReal) :=
  Monotone.map_max EReal.coe_strictMono.monotone

/-- A real array is the coercion of an array of reals. -/
theorem IsReal.lift {ι : Type*} {v : ι → EReal} (h : IsReal v) : ∃ v' : ι → ℝ, v = fun i => ((v' i : ℝ) : EReal) := by
  choose v' hv using h
  exact ⟨v', funext hv⟩

/-- The coercion of an array of reals is a real array. -/
theorem isReal_coe {ι : Type*} (v : ι → ℝ) : IsReal (fun i => ((v i : ℝ) : EReal)) := fun i => ⟨v i, rfl⟩

/-- A constant array with a real value is real. -/
theorem isReal_const {ι : Type*} (r : ℝ) : IsReal (fun _ : ι => (r : EReal)) := fun _ => ⟨r, rfl⟩

/-- A constant array whose value is known to be real is real. -/
theorem isReal_const' {ι : Type*} {c : EReal} (h : ∃ r : ℝ, c = (r : EReal)) : IsReal (fun _ : ι => c) := fun _ => h

/-- Re-indexing (by any map) keeps an array real. -/
theorem IsReal.comp {ι κ : Type*} {v : ι → EReal} (h : IsReal v) (g : κ → ι) : IsReal (fun i => v (g i)) :=
  fun i => h (g i)

/-- A pointwise sum of real arrays is real. -/
theorem IsReal.add {ι : Type*} {a b : ι → EReal} (ha : IsReal a) (hb : IsReal b) : IsReal (fun i => a i + b i) := fun i => by
  obtain ⟨x, hx⟩ := ha i; obtain ⟨y, hy⟩ := hb i
  exact ⟨x + y, by show a i + b i = _; rw [hx, hy, EReal.coe_add]⟩

/-- A pointwise difference of real arrays is real. -/
theorem IsReal.sub {ι : Type*} {a b : ι → EReal} (ha : IsReal a) (hb : IsReal b) : IsReal (fun i => a i - b i) := fun i => by
  obtain ⟨x, hx⟩ := ha i; obtain ⟨y, hy⟩ := hb i
  exact ⟨x - y, by show a i - b i = _; rw [hx, hy, EReal.coe_sub]⟩

/-- A pointwise product of real arrays is real. -/
theorem IsReal.mul {ι : Type*} {a b : ι → EReal} (ha : IsReal a) (hb : IsReal b) : IsReal (fun i => a i * b i) := fun i => by
  obtain ⟨x, hx⟩ := ha i; obtain ⟨y, hy⟩ := hb i
  exact ⟨x * y, by show a i * b i = _; rw [hx, hy, EReal.coe_mul]⟩

/-- The pointwise negation of a real array is real. -/
theorem IsReal.neg {ι : Type*} {a : ι → EReal} (ha : IsReal a) : IsReal (fun i => - a i) := fun i => by
  obtain ⟨x, hx⟩ := ha i
  exact ⟨-x, by show - a i = _; rw [hx, EReal.coe_neg]⟩

/-- A pointwise maximum of real arrays is real. -/
theorem IsReal.max {ι : Type*} {a b : ι → EReal} (ha : IsReal a) (hb : IsReal b) : IsReal (fun i => max (a i) (b i)) := fun i => by
  obtain ⟨x, hx⟩ := ha i; obtain ⟨y, hy⟩ := hb i
  exact ⟨Max.max x y, by show Max.max (a i) (b i) = _; rw [hx, hy, coe_max]⟩

/-- A finite sum of real entries is real; only the summands over `s` need be real. -/
theorem isReal_sum' {ι κ : Type*} (s : Finset κ) (f : ι → κ → EReal) (h : ∀ i, ∀ k ∈ s, ∃ r : ℝ, f i k = (r : EReal)) :
    IsReal (fun i => ∑ k ∈ s, f i k) := by
  classical
  intro i
  show ∃ r : ℝ, ∑ k ∈ s, f i k = (r : EReal)
  induction s using Finset.induction_on with
  | empty => exact ⟨0, by simp⟩
  | insert a s ha ih =>
    obtain ⟨x, hx⟩ := h i a (Finset.mem_insert_self a s)
    obtain ⟨y, hy⟩ := ih (fun i k hk => h i k (Finset.mem_insert_of_mem hk))
    exact ⟨x + y, by rw [Finset.sum_insert ha, hx, hy, EReal.coe_add]⟩

/-- A finite sum of real entries is real. -/
theorem isReal_sum {ι κ : Type*} (s : Finset κ) (f : ι → κ → EReal) (h : ∀ i k, ∃ r : ℝ, f i k = (r : EReal)) :
    IsReal (fun i => ∑ k ∈ s, f i k) :=
  isReal_sum' s f (fun i k _ => h i k)

/-- A finite sum of `if p then (a real entry) else 0` is real. -/
theorem isReal_sum_ite {ι κ : Type*} (s : Finset κ) (p : ι → κ → Prop) [∀ i k, Decidable (p i k)] (f : ι → κ → EReal)
    (h : ∀ i k, ∃ r : ℝ, f i k = (r : EReal)) : IsReal (fun i => ∑ k ∈ s, if p i k then f i k else 0) :=
  isReal_sum s _ (fun i k => by
    split_ifs
    · exact h i k
    · exact ⟨0, rfl⟩)

/-! ## (2) Propagation along edges and the matrix product, as sums -/

section Operators
variable {N C E A B : Nat}

/-- Node-axis propagation: entry `(n, c)` of the result adds `nu e * Y (g e, c)` over the edges `e` that land on node `n`.
    `row e` is the node edge `e` lands on (`none`: the edge is dropped), `g e` the node it reads from, `nu e` its weight. -/
def prop (row : Fin E → Option (Fin N)) (g : Fin E → Fin N) (nu : Fin E → EReal)
    (Y : (⟨2, ![N, C]⟩ : Shape).Idx → EReal) : (⟨2, ![N, C]⟩ : Shape).Idx → EReal :=
  fun i => ∑ e : Fin E, if row e = (some (i 0) : Option (Fin N)) then nu e * Y (ix2 (g e) (i 1)) else 0

/-- The matrix product on the feature axis. -/
def mm (X : (⟨2, ![N, A]⟩ : Shape).Idx → EReal) (W : (⟨2, ![A, B]⟩ : Shape).Idx → EReal) :
    (⟨2, ![N, B]⟩ : Shape).Idx → EReal :=
  fun i => ∑ k : Fin A, X (ix2 (i 0) k) * W (ix2 k (i 1))

/-- Propagation over ℝ. -/
def propR (row : Fin E → Option (Fin N)) (g : Fin E → Fin N) (nu : Fin E → ℝ)
    (Y : (⟨2, ![N, C]⟩ : Shape).Idx → ℝ) : (⟨2, ![N, C]⟩ : Shape).Idx → ℝ :=
  fun i => ∑ e : Fin E, if row e = (some (i 0) : Option (Fin N)) then nu e * Y (ix2 (g e) (i 1)) else 0

/-- The matrix product over ℝ. -/
def mmR (X : (⟨2, ![N, A]⟩ : Shape).Idx → ℝ) (W : (⟨2, ![A, B]⟩ : Shape).Idx → ℝ) :
    (⟨2, ![N, B]⟩ : Shape).Idx → ℝ :=
  fun i => ∑ k : Fin A, X (ix2 (i 0) k) * W (ix2 k (i 1))

/-- Propagation of coerced real data is the coercion of the real propagation. -/
theorem prop_coe (row : Fin E → Option (Fin N)) (g : Fin E → Fin N) (nu : Fin E → ℝ)
    (Y : (⟨2, ![N, C]⟩ : Shape).Idx → ℝ) :
    prop row g (fun e => ((nu e : ℝ) : EReal)) (fun j => ((Y j : ℝ) : EReal)) = fun i => ((propR row g nu Y i : ℝ) : EReal) := by
  funext i
  show (∑ e : Fin E, if row e = (some (i 0) : Option (Fin N)) then ((nu e : ℝ) : EReal) * ((Y (ix2 (g e) (i 1)) : ℝ) : EReal) else 0)
    = ((∑ e : Fin E, if row e = (some (i 0) : Option (Fin N)) then nu e * Y (ix2 (g e) (i 1)) else 0 : ℝ) : EReal)
  rw [coe_finset_sum]
  refine Finset.sum_congr rfl (fun e _ => ?_)
  rw [coe_ite_zero, EReal.coe_mul]

/-- The product of coerced real matrices is the coercion of the real product. -/
theorem mm_coe (X : (⟨2, ![N, A]⟩ : Shape).Idx → ℝ) (W : (⟨2, ![A, B]⟩ : Shape).Idx → ℝ) :
    mm (fun j => ((X j : ℝ) : EReal)) (fun j => ((W j : ℝ) : EReal)) = fun i => ((mmR X W i : ℝ) : EReal) := by
  funext i
  show (∑ k : Fin A, ((X (ix2 (i 0) k) : ℝ) : EReal) * ((W (ix2 k (i 1)) : ℝ) : EReal))
    = ((∑ k : Fin A, X (ix2 (i 0) k) * W (ix2 k (i 1)) : ℝ) : EReal)
  rw [coe_finset_sum]
  refine Finset.sum_congr rfl (fun k _ => ?_)
  rw [EReal.coe_mul]

/-- Propagating real data along real weights gives a real array. -/
theorem isReal_prop (row : Fin E → Option (Fin N)) (g : Fin E → Fin N) {nu : Fin E → EReal}
    {Y : (⟨2, ![N, C]⟩ : Shape).Idx → EReal} (hnu : IsReal nu) (hY : IsReal Y) : IsReal (prop row g nu Y) := by
  obtain ⟨nu', rfl⟩ := hnu.lift
  obtain ⟨Y', rfl⟩ := hY.lift
  rw [prop_coe]
  exact isReal_coe _

/-- The product of real matrices is real. -/
theorem isReal_mm {X : (⟨2, ![N, A]⟩ : Shape).Idx → EReal} {W : (⟨2, ![A, B]⟩ : Shape).Idx → EReal}
    (hX : IsReal X) (hW : IsReal W) : IsReal (mm X W) := by
  obtain ⟨X', rfl⟩ := hX.lift
  obtain ⟨W', rfl⟩ := hW.lift
  rw [mm_coe]
  exact isReal_coe _

/-! ## (3) Propagation commutes with the matrix product -/

/-- Over ℝ: propagating a product along the node axis is the product of the propagated left factor. -/
theorem propR_mmR (row : Fin E → Option (Fin N)) (g : Fin E → Fin N) (nu : Fin E → ℝ)
    (X : (⟨2, ![N, A]⟩ : Shape).Idx → ℝ) (W : (⟨2, ![A, B]⟩ : Shape).Idx → ℝ) :
    propR row g nu (mmR X W) = mmR (propR row g nu X) W := by
  funext i
  show (∑ e : Fin E, if row e = (some (i 0) : Option (Fin N)) then nu e * ∑ k : Fin A, X (ix2 (g e) k) * W (ix2 k (i 1)) else 0)
    = ∑ k : Fin A, (∑ e : Fin E, if row e = (some (i 0) : Option (Fin N)) then nu e * X (ix2 (g e) k) else 0) * W (ix2 k (i 1))
  simp only [Finset.sum_mul]
  rw [Finset.sum_comm]
  refine Finset.sum_congr rfl (fun e _ => ?_)
  by_cases h : row e = (some (i 0) : Option (Fin N))
  · simp only [if_pos h, Finset.mul_sum]
    exact Finset.sum_congr rfl (fun k _ => by ring)
  · simp only [if_neg h, zero_mul, Finset.sum_const_zero]

/-- THE LAW: for real weights and real matrices, propagation along the node axis commutes with a matrix product on
    the feature axis. -/
theorem prop_mm (row : Fin E → Option (Fin N)) (g : Fin E → Fin N) {nu : Fin E → EReal}
    {X : (⟨2, ![N, A]⟩ : Shape).Idx → EReal} {W : (⟨2, ![A, B]⟩ : Shape).Idx → EReal}
    (hnu : IsReal nu) (hX : IsReal X) (hW : IsReal W) :
    prop row g nu (mm X W) = mm (prop row g nu X) W := by
  obtain ⟨nu', rfl⟩ := hnu.lift
  obtain ⟨X', rfl⟩ := hX.lift
  obtain ⟨W', rfl⟩ := hW.lift
  rw [mm_coe, prop_coe, prop_coe, mm_coe, propR_mmR]

/-! ## (4) The degree-2 Chebyshev layer, two ways -/

/-- Over ℝ the matrix product is linear in its left factor: the combination `a * P - X`. -/
theorem mmR_lin (a : ℝ) (P X : (⟨2, ![N, A]⟩ : Shape).Idx → ℝ) (W : (⟨2, ![A, B]⟩ : Shape).Idx → ℝ)
    (i : (⟨2, ![N, B]⟩ : Shape).Idx) :
    mmR (fun j => a * P j - X j) W i = a * mmR P W i - mmR X W i := by
  show (∑ k : Fin A, (a * P (ix2 (i 0) k) - X (ix2 (i 0) k)) * W (ix2 k (i 1)))
    = a * (∑ k : Fin A, P (ix2 (i 0) k) * W (ix2 k (i 1))) - ∑ k : Fin A, X (ix2 (i 0) k) * W (ix2 k (i 1))
  rw [Finset.mul_sum, ← Finset.sum_sub_distrib]
  exact Finset.sum_congr rfl (fun k _ => by ring)

/-- THE LAYER IDENTITY. With `T0 = X`, `T1 = L X`, `T2 = 2 L (L X) - X` (`L` the propagation), the layer
    `T0 W0 + T1 W1 + T2 W2 + b` may be computed product-first: `X W0 + L (X W1) + 2 L (L (X W2)) - X W2 + b`.
    Left side: products first, then propagation; right side: propagation first, then products. All data real;
    `two` is the real number 2. -/
theorem cheb_layer (row : Fin E → Option (Fin N)) (g : Fin E → Fin N) {nu : Fin E → EReal}
    {X : (⟨2, ![N, A]⟩ : Shape).Idx → EReal} {W0 W1 W2 : (⟨2, ![A, B]⟩ : Shape).Idx → EReal}
    {bb : (⟨2, ![N, B]⟩ : Shape).Idx → EReal} {two : EReal}
    (hnu : IsReal nu) (hX : IsReal X) (hW0 : IsReal W0) (hW1 : IsReal W1) (hW2 : IsReal W2) (hbb : IsReal bb)
    (htwo : two = ((2 : ℝ) : EReal)) :
    (fun i => ((((mm X W0 i + prop row g nu (mm X W1) i) + two * prop row g nu (prop row g nu (mm X W2)) i)
        - mm X W2 i) + bb i))
      = fun i => (((mm X W0 i + mm (prop row g nu X) W1 i)
        + mm (fun j => two * prop row g nu (prop row g nu X) j - X j) W2 i) + bb i) := by
  obtain ⟨nu', rfl⟩ := hnu.lift
  obtain ⟨X', rfl⟩ := hX.lift
  obtain ⟨W0', rfl⟩ := hW0.lift
  obtain ⟨W1', rfl⟩ := hW1.lift
  obtain ⟨W2', rfl⟩ := hW2.lift
  obtain ⟨bb', rfl⟩ := hbb.lift
  subst htwo
  -- every operator on coerced real data is the coercion of the real operator
  simp only [mm_coe, prop_coe]
  -- the right side's third left factor is itself a coerced real array
  have h3 : (fun j => ((2 : ℝ) : EReal) * ((propR row g nu' (propR row g nu' X') j : ℝ) : EReal) - ((X' j : ℝ) : EReal))
      = fun j => ((2 * propR row g nu' (propR row g nu' X') j - X' j : ℝ) : EReal) := by
    funext j
    rw [EReal.coe_sub, EReal.coe_mul]
  rw [h3, mm_coe]
  funext i
  simp only [← EReal.coe_mul, ← EReal.coe_add, ← EReal.coe_sub]
  rw [EReal.coe_eq_coe_iff]
  -- in ℝ: commute propagation with the products, then linearity
  simp only [propR_mmR, mmR_lin]
  ring

end Operators

end ChebAlgebra

end
-- ==== Proof.GcnSpec.lean ====
/-
  A three-layer graph convolution with symmetric degree normalisation followed by a row-wise log-softmax, written on the
  extended reals for matrices of any sizes, in the two arrangements the two programs use.

  An edge `e` reads node `g e` and lands on node `row e` (`none`: the edge is dropped). With `H = X W` and a per-node
  scale `dis`:
  * `layR`: every edge carries the weight `dis (g e) * dis (gd e)`; a node sums the weighted rows of its edges, then the bias.
  * `layK`: the rows of `H` are scaled by `dis` BEFORE they travel (`pre`), a node sums the rows of its edges (`gs`), the
    sum is scaled by the node's own `dis`, then the bias.
  When `gd e` is the node edge `e` lands on, and every entry is a real number, the two agree: the node's own scale is a
  common factor of its edges' weights (`layK_eq_layR`). The law needs real entries: a product does not distribute over a
  sum at the infinities.
-/
import Idealize.ShloMosaic.Lib.ValueIdx
import Idealize.ShloMosaic.PureOps.Ideal
import proofs.«157919_j21165598834728_2_alg».proof.Proof.LibChebAlgebra

noncomputable section

open scoped BigOperators

namespace GcnSpec

open Idealize.ShloMosaic Idealize.ShloMosaic.ValueIdx ChebAlgebra

/-- A matrix of extended reals with `n` rows and `m` columns. -/
abbrev Mat (n m : Nat) := (⟨2, ![n, m]⟩ : Shape).Idx → EReal

section Layer
variable {N E A B : Nat}

/-- Gather then scatter-add: entry `(n, c)` sums `Y (g e, c)` over the edges `e` that land on node `n`. -/
def gs (row : Fin E → Option (Fin N)) (g : Fin E → Fin N) (Y : Mat N B) : Mat N B :=
  fun i => ∑ e : Fin E, if row e = (some (i 0) : Option (Fin N)) then Y (ix2 (g e) (i 1)) else 0

/-- The hidden features `X W` with row `n` scaled by `dis n`. -/
def pre (dis : Fin N → EReal) (X : Mat N A) (W : Mat A B) : Mat N B :=
  fun j => mm X W j * dis (j 0)

/-- One layer, scale-first arrangement: `(Σ_{e → n} (X W)(g e, c) · dis (g e)) · dis n + b c`. -/
def layK (row : Fin E → Option (Fin N)) (g : Fin E → Fin N) (dis : Fin N → EReal) (X : Mat N A) (W : Mat A B)
    (b : Fin B → EReal) : Mat N B :=
  fun i => gs row g (pre dis X W) i * dis (i 0) + b (i 1)

/-- One layer, edge-weight arrangement: `Σ_{e → n} (X W)(g e, c) · (dis (g e) · dis (gd e)) + b c`. -/
def layR (row : Fin E → Option (Fin N)) (g gd : Fin E → Fin N) (dis : Fin N → EReal) (X : Mat N A) (W : Mat A B)
    (b : Fin B → EReal) : Mat N B :=
  fun i => (∑ e : Fin E, if row e = (some (i 0) : Option (Fin N))
      then mm X W (ix2 (g e) (i 1)) * (dis (g e) * dis (gd e)) else 0) + b (i 1)

/-- The positive part, entry by entry. -/
def posPart (Z : Mat N B) : Mat N B := fun i => max (Z i) 0

/-- The largest entry of row `r`, as the fold of `max` from `ninf` over the row's columns. -/
def rowMax (ninf : EReal) (v : Mat N B) (r : Fin N) : EReal :=
  (Finset.univ : Finset (Fin B)).fold max ninf (fun c => v (ix2 r c))

/-- Row-wise log-softmax with the row's maximum subtracted first:
    `(v - M) - log Σ_c exp (v(r, c) - M)`, `M` the row's maximum. -/
def logSoftmax (ninf : EReal) (v : Mat N B) : Mat N B :=
  fun i => (v i - rowMax ninf v (i 0))
    - Ideal.log (∑ c : Fin B, Ideal.exp (v (ix2 (i 0) c) - rowMax ninf v (i 0)))

/-! ## The two arrangements of one layer agree on real entries -/

/-- Scaling a real matrix's rows by a real per-node scale keeps it real. -/
theorem isReal_pre {dis : Fin N → EReal} {X : Mat N A} {W : Mat A B} (hdis : IsReal dis) (hX : IsReal X) (hW : IsReal W) :
    IsReal (pre dis X W) :=
  IsReal.mul (isReal_mm hX hW) (hdis.comp fun j : (⟨2, ![N, B]⟩ : Shape).Idx => j 0)

/-- Gathering and scatter-adding a real matrix gives a real matrix. -/
theorem isReal_gs (row : Fin E → Option (Fin N)) (g : Fin E → Fin N) {Y : Mat N B} (hY : IsReal Y) : IsReal (gs row g Y) :=
  isReal_sum_ite Finset.univ (fun (i : (⟨2, ![N, B]⟩ : Shape).Idx) e => row e = (some (i 0) : Option (Fin N)))
    (fun i e => Y (ix2 (g e) (i 1))) (fun i e => hY _)

/-- A layer of real data is real. -/
theorem isReal_layK (row : Fin E → Option (Fin N)) (g : Fin E → Fin N) {dis : Fin N → EReal} {X : Mat N A} {W : Mat A B}
    {b : Fin B → EReal} (hdis : IsReal dis) (hX : IsReal X) (hW : IsReal W) (hb : IsReal b) :
    IsReal (layK row g dis X W b) :=
  IsReal.add (IsReal.mul (isReal_gs row g (isReal_pre hdis hX hW)) (hdis.comp fun j : (⟨2, ![N, B]⟩ : Shape).Idx => j 0))
    (hb.comp fun j : (⟨2, ![N, B]⟩ : Shape).Idx => j 1)

/-- The positive part of a real matrix is real. -/
theorem isReal_posPart {Z : Mat N B} (hZ : IsReal Z) : IsReal (posPart Z) :=
  IsReal.max hZ (isReal_const 0)

/-- THE LAW. When `gd e` is the node edge `e` lands on, the scale-first layer is the edge-weight layer, on real entries:
    `(Σ_e h_e · d_e) · d_n = Σ_e h_e · (d_e · d_n)`. -/
theorem layK_eq_layR (row : Fin E → Option (Fin N)) (g gd : Fin E → Fin N) {dis : Fin N → EReal} {X : Mat N A} {W : Mat A B}
    (b : Fin B → EReal) (hrow : ∀ e n, row e = some n → gd e = n) (hdis : IsReal dis) (hX : IsReal X) (hW : IsReal W) :
    layK row g dis X W b = layR row g gd dis X W b := by
  funext i
  obtain ⟨H, hH⟩ := (isReal_mm hX hW).lift
  obtain ⟨d, hd⟩ := hdis.lift
  unfold layK layR gs pre
  rw [hH, hd]
  refine congrArg (· + b (i 1)) ?_
  have hL : (∑ e : Fin E, if row e = (some (i 0) : Option (Fin N)) then ((H (ix2 (g e) (i 1)) : ℝ) : EReal) * ((d (g e) : ℝ) : EReal) else 0)
      = ((∑ e : Fin E, if row e = (some (i 0) : Option (Fin N)) then H (ix2 (g e) (i 1)) * d (g e) else 0 : ℝ) : EReal) := by
    rw [coe_finset_sum]
    refine Finset.sum_congr rfl fun e _ => ?_
    rw [coe_ite_zero, EReal.coe_mul]
  have hR : (∑ e : Fin E, if row e = (some (i 0) : Option (Fin N)) then ((H (ix2 (g e) (i 1)) : ℝ) : EReal) * (((d (g e) : ℝ) : EReal) * ((d (gd e) : ℝ) : EReal)) else 0)
      = ((∑ e : Fin E, if row e = (some (i 0) : Option (Fin N)) then H (ix2 (g e) (i 1)) * (d (g e) * d (gd e)) else 0 : ℝ) : EReal) := by
    rw [coe_finset_sum]
    refine Finset.sum_congr rfl fun e _ => ?_
    rw [coe_ite_zero, EReal.coe_mul, EReal.coe_mul]
  show (∑ e : Fin E, if row e = (some (i 0) : Option (Fin N)) then ((H (ix2 (g e) (i 1)) : ℝ) : EReal) * ((d (g e) : ℝ) : EReal) else 0) * ((d (i 0) : ℝ) : EReal)
      = ∑ e : Fin E, if row e = (some (i 0) : Option (Fin N)) then ((H (ix2 (g e) (i 1)) : ℝ) : EReal) * (((d (g e) : ℝ) : EReal) * ((d (gd e) : ℝ) : EReal)) else 0
  rw [hL, hR, ← EReal.coe_mul]
  refine congrArg (fun r : ℝ => (r : EReal)) ?_
  rw [Finset.sum_mul]
  refine Finset.sum_congr rfl fun e _ => ?_
  by_cases h : row e = (some (i 0) : Option (Fin N))
  · rw [if_pos h, if_pos h, hrow e (i 0) h]; ring
  · rw [if_neg h, if_neg h, zero_mul]

end Layer

/-! ## The whole network, both arrangements -/

section Net
variable {N E A0 A1 A2 A3 : Nat}

/-- Three scale-first layers, positive parts between them, then the log-softmax. -/
def outK (ninf : EReal) (row : Fin E → Option (Fin N)) (g : Fin E → Fin N) (dis : Fin N → EReal) (x : Mat N A0)
    (W1 : Mat A0 A1) (b1 : Fin A1 → EReal) (W2 : Mat A1 A2) (b2 : Fin A2 → EReal) (W3 : Mat A2 A3) (b3 : Fin A3 → EReal) :
    Mat N A3 :=
  logSoftmax ninf (layK row g dis (posPart (layK row g dis (posPart (layK row g dis x W1 b1)) W2 b2)) W3 b3)

/-- Three edge-weight layers, positive parts between them, then the log-softmax. -/
def outR (ninf : EReal) (row : Fin E → Option (Fin N)) (g gd : Fin E → Fin N) (dis : Fin N → EReal) (x : Mat N A0)
    (W1 : Mat A0 A1) (b1 : Fin A1 → EReal) (W2 : Mat A1 A2) (b2 : Fin A2 → EReal) (W3 : Mat A2 A3) (b3 : Fin A3 → EReal) :
    Mat N A3 :=
  logSoftmax ninf (layR row g gd dis (posPart (layR row g gd dis (posPart (layR row g gd dis x W1 b1)) W2 b2)) W3 b3)

/-- On real data the two networks compute one function. -/
theorem outK_eq_outR (ninf : EReal) (row : Fin E → Option (Fin N)) (g gd : Fin E → Fin N) {dis : Fin N → EReal} {x : Mat N A0}
    {W1 : Mat A0 A1} {b1 : Fin A1 → EReal} {W2 : Mat A1 A2} {b2 : Fin A2 → EReal} {W3 : Mat A2 A3} (b3 : Fin A3 → EReal)
    (hrow : ∀ e n, row e = some n → gd e = n) (hdis : IsReal dis) (hx : IsReal x) (hW1 : IsReal W1) (hb1 : IsReal b1)
    (hW2 : IsReal W2) (hb2 : IsReal b2) (hW3 : IsReal W3) :
    outK ninf row g dis x W1 b1 W2 b2 W3 b3 = outR ninf row g gd dis x W1 b1 W2 b2 W3 b3 := by
  unfold outK outR
  have h1 := isReal_posPart (isReal_layK row g hdis hx hW1 hb1)
  have h2 := isReal_posPart (isReal_layK row g hdis h1 hW2 hb2)
  rw [layK_eq_layR row g gd b3 hrow hdis h2 hW3, layK_eq_layR row g gd b2 hrow hdis h1 hW2,
    layK_eq_layR row g gd b1 hrow hdis hx hW1]

end Net

end GcnSpec

end
-- ==== Proof.GcnEdges.lean ====
/-
  Edges given as 32-bit index words. An edge's destination word names the node it lands on when, read as a signed
  integer, it lies in `[0, N)`; otherwise the edge is dropped (a scatter does not clamp). A gather reads node
  `nodeW w`: the word with `N` added when it is negative (the negative-index wrap), read signed and clamped into
  `[0, N - 1]`. For a word that names a node both readings agree (`nodeW_of_rowW`).
-/
import Idealize.ShloMosaic.Lib.ValueIdx
import Idealize.ShloMosaic.PureOps.Ideal

noncomputable section

namespace GcnEdges

open Idealize.ShloMosaic Idealize.ShloMosaic.ValueIdx

variable {N : Nat}

/-- The node a scatter's index word names: the word read signed, when in `[0, N)`. -/
def rowW (N : Nat) (w : BitVec 32) : Option (Fin N) :=
  if h : 0 ≤ w.toInt ∧ w.toInt < N then some ⟨w.toInt.toNat, by omega⟩ else none

/-- The negative-index wrap: `w + n` when `w` is negative (signed), else `w`. -/
def wrapW (n w : BitVec 32) : BitVec 32 :=
  Scalar.select (IntOp.cmpi .slt w 0#32) (IntOp.addi w n) w

/-- The node a gather's index word reads: wrapped, read signed, clamped into `[0, N - 1]`. -/
def nodeW (hN : 0 < N) (n w : BitVec 32) : Fin N :=
  ⟨min (wrapW n w).toInt.toNat (N - 1), by omega⟩

/-- A word that is not negative is kept by the wrap. -/
theorem wrapW_of_nonneg (n w : BitVec 32) (h : 0 ≤ w.toInt) : wrapW n w = w := by
  have hs : w.slt 0#32 = false := by
    rw [BitVec.slt]
    simp only [BitVec.toInt_zero, decide_eq_false_iff_not, not_lt]
    exact h
  have hc : IntOp.cmpi .slt w 0#32 = 0#1 := by
    show BitVec.ofBool (w.slt 0#32) = 0#1
    rw [hs]; rfl
  unfold wrapW
  rw [hc]
  rfl

/-- For a word that names node `k` (signed, in range) the gather reads node `k` too. -/
theorem nodeW_of_rowW (hN : 0 < N) (n w : BitVec 32) (k : Fin N) (h : rowW N w = some k) : nodeW hN n w = k := by
  unfold rowW at h
  split at h
  · rename_i hr
    have hk : (⟨w.toInt.toNat, by omega⟩ : Fin N) = k := Option.some.inj h
    refine Fin.ext ?_
    rw [← hk]
    show min (wrapW n w).toInt.toNat (N - 1) = w.toInt.toNat
    rw [wrapW_of_nonneg n w hr.1]
    omega
  · exact absurd h (by simp)

end GcnEdges

end
-- ==== Proof.GcnHost.lean ====
/-
  Host-side forms of the graph aggregation, read as whole arrays at the ideal values, for arrays of any sizes.

  * `gatherScatter_eq_gs`: rows of `Y : [N, C]` gathered at the (wrapped, clamped) source words and scatter-added, into
    zeros, at the destination words, is the aggregation `GcnSpec.gs`: entry `(n, c)` sums `Y (g e, c)` over the edges
    whose destination word names node `n`.
  * the index column of a scatter names the node `GcnEdges.rowW` of its word, and the wrapped column of a gather reads
    the node `GcnEdges.nodeW` of its word.
-/
import Idealize.ShloMosaic.Lib.ValueIdx
import Idealize.ShloMosaic.Lib.Pipeline.Value
import Idealize.ShloMosaic.PureOps.Ideal
import Idealize.ShloMosaic.PureOps.Ideal.Laws
import proofs.«157919_j21165598834728_2_alg».proof.Proof.LibRowGatherScatter
import proofs.«157919_j21165598834728_2_alg».proof.Proof.GcnSpec
import proofs.«157919_j21165598834728_2_alg».proof.Proof.GcnEdges

noncomputable section

open scoped BigOperators

namespace GcnHost

open Idealize.ShloMosaic Idealize.ShloMosaic.ValueIdx

variable {N C E : Nat}

/-- A vector `[E]` made a column `[E, 1]` by a broadcast, read at `(e, 0)`. -/
theorem bcast_col_apply {α : Type} (d : (⟨1, ![E]⟩ : Shape).Idx → α)
    (hc : (⟨1, ![E]⟩ : Shape).BroadcastsInDim ⟨2, ![E, 1]⟩ ![0]) (hE : E ≠ 1) (e : Fin E) (u : Fin 1) :
    broadcastInDim ⟨2, ![E, 1]⟩ ![0] hc d (ix2 e u) = d (ix1 e) := by
  refine broadcastInDim_apply _ hc d _ (ix1 e) (fun a => ?_)
  match a with
  | ⟨0, _⟩ =>
    show e.val = if E = 1 then 0 else e.val
    rw [if_neg hE]

/-- The node a scatter's index column names at edge `e` is the node its word names. -/
theorem rowOf_bcast_col (d : IVec ⟨1, ![E]⟩ 32) (hc : (⟨1, ![E]⟩ : Shape).BroadcastsInDim ⟨2, ![E, 1]⟩ ![0]) (hE : E ≠ 1)
    (e : Fin E) :
    RowGatherScatter.rowOf (N := N) (broadcastInDim ⟨2, ![E, 1]⟩ ![0] hc d) e = GcnEdges.rowW N (d (ix1 e)) := by
  exact (show RowGatherScatter.rowOf (N := N) (broadcastInDim ⟨2, ![E, 1]⟩ ![0] hc d) e
      = GcnEdges.rowW N (broadcastInDim ⟨2, ![E, 1]⟩ ![0] hc d (ix2 e 0)) from rfl).trans
    (congrArg (GcnEdges.rowW N) (bcast_col_apply d hc hE e 0))

/-- The negative-index wrap of a vector of words, made a column, read at `(e, 0)`. -/
theorem wrap_col_apply (s : IVec ⟨1, ![E]⟩ 32) (n32 : BitVec 32)
    (hc : (⟨1, ![E]⟩ : Shape).BroadcastsInDim ⟨2, ![E, 1]⟩ ![0]) (h1 : (⟨0, ![]⟩ : Shape).BroadcastsInDim ⟨1, ![E]⟩ ![])
    (hE : E ≠ 1) (e : Fin E) (u : Fin 1) :
    broadcastInDim ⟨2, ![E, 1]⟩ ![0] hc
        (select (cmpi .slt s (broadcastInDim ⟨1, ![E]⟩ ![] h1 (constantI ⟨0, ![]⟩ 32 0#32)))
          (addi s (broadcastInDim ⟨1, ![E]⟩ ![] h1 (constantI ⟨0, ![]⟩ 32 n32))) s) (ix2 e u)
      = GcnEdges.wrapW n32 (s (ix1 e)) := by
  rw [bcast_col_apply _ hc hE e u]
  rfl

/-- Gathering the rows of `Y` at the wrapped source words and scatter-adding them into zeros at the destination words
    is the aggregation over the edges landing on each node. -/
theorem gatherScatter_eq_gs (hN : 0 < N) (hE : E ≠ 1)
    (ds : ScatterDims ⟨2, ![N, C]⟩ ⟨2, ![E, 1]⟩ ⟨2, ![E, C]⟩)
    (hs1 : ds.updateWindowDims = [1]) (hs2 : ds.insertedWindowDims = [0]) (hs3 : ds.scatterDimsToOperandDims = [0])
    (hs4 : ds.indexVectorDim = 1)
    (dg : GatherDims ⟨2, ![N, C]⟩ ⟨2, ![E, 1]⟩ ⟨2, ![E, C]⟩)
    (hg1 : dg.offsetDims = [1]) (hg2 : dg.collapsedSliceDims = [0]) (hg3 : dg.operandBatchingDims = [])
    (hg4 : dg.startIndicesBatchingDims = []) (hg5 : dg.startIndexMap = [0]) (hg6 : dg.indexVectorDim = 1)
    (hg7 : dg.sliceSizes = ![1, C])
    (hz : (⟨0, ![]⟩ : Shape).BroadcastsInDim ⟨2, ![N, C]⟩ ![])
    (hc : (⟨1, ![E]⟩ : Shape).BroadcastsInDim ⟨2, ![E, 1]⟩ ![0]) (h1 : (⟨0, ![]⟩ : Shape).BroadcastsInDim ⟨1, ![E]⟩ ![])
    (Y : FVec Ideal ⟨2, ![N, C]⟩ .f32) (s d : IVec ⟨1, ![E]⟩ 32) (n32 : BitVec 32) :
    Host.scatterAdd (F := Ideal) ds
        (broadcastInDim ⟨2, ![N, C]⟩ ![] hz (constant (F := Ideal) ⟨0, ![]⟩ .f32 0x00000000#32))
        (broadcastInDim ⟨2, ![E, 1]⟩ ![0] hc d)
        (Host.gather dg Y (broadcastInDim ⟨2, ![E, 1]⟩ ![0] hc
          (select (cmpi .slt s (broadcastInDim ⟨1, ![E]⟩ ![] h1 (constantI ⟨0, ![]⟩ 32 0#32)))
            (addi s (broadcastInDim ⟨1, ![E]⟩ ![] h1 (constantI ⟨0, ![]⟩ 32 n32))) s)))
      = GcnSpec.gs (fun e : Fin E => GcnEdges.rowW N (d (ix1 e))) (fun e : Fin E => GcnEdges.nodeW hN n32 (s (ix1 e))) Y := by
  funext i
  obtain ⟨n, c, rfl⟩ : ∃ (n : Fin N) (c : Fin C), i = ix2 n c := ⟨i 0, i 1, eq_ix2 i⟩
  rw [RowGatherScatter.scatterAdd_rows_ix2 ds hs1 hs2 hs3 hs4]
  have hzero : broadcastInDim ⟨2, ![N, C]⟩ ![] hz (constant (F := Ideal) ⟨0, ![]⟩ .f32 0x00000000#32) (ix2 n c) = 0 := by
    show Ideal.ofBits .f32 0x00000000#32 = 0
    exact Ideal.ofBits_zero_f32
  rw [hzero, zero_add]
  unfold GcnSpec.gs
  refine Finset.sum_congr rfl fun e _ => ?_
  rw [rowOf_bcast_col d hc hE e]
  refine if_congr Iff.rfl ?_ rfl
  rw [RowGatherScatter.gather_rows dg hg1 hg2 hg3 hg4 hg5 hg6 hg7 hN]
  refine congrArg Y ?_
  refine congrArg (fun r : Fin N => ix2 r c) (Fin.ext ?_)
  exact congrArg (fun w : BitVec 32 => min w.toInt.toNat (N - 1)) (wrap_col_apply s n32 hc h1 hE e 0)

end GcnHost

end
-- ==== Proof.KernelValue.lean ====
/-
  The idealized kernel program between its regions. Each boundary of @main has its buffer contents `Gen.Wk` (a fold
  through the host operations and the regions' write-backs). This file reads what each region is entered with:
  * the arguments, the two arrays of index words and the per-node scale are never rewritten once made, so they reach every
    later boundary unchanged;
  * the stretch of host operations before regions 1, 2, 3 gathers the rows the previous region wrote at the source words
    and scatter-adds them at the destination words — the aggregation `GcnSpec.gs` — and views the layer's bias as a row.
-/
import proofs.«157919_j21165598834728_2_alg».proof.Proof.Gen.KernelIdeal.Frame
import proofs.«157919_j21165598834728_2_alg».proof.Proof.GcnHost
import Idealize.ShloMosaic.Lib.StableHlo.Run
import Idealize.ShloMosaic.PureOps.Ideal

set_option maxRecDepth 16384

noncomputable section

namespace Cert.KernelIdeal.GcnValue

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx

variable (m : (ℓ : Loc nD τ sig) → Buf (Elt Ideal) ℓ) (ρ : Dev nD → PrngReg)

/-! ## What is never rewritten -/

/-- The node features reach the first region as launched: no operation before it writes them. -/
theorem keep_main_arg0_3_0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- The first weight matrix reaches the first region as launched. -/
theorem keep_main_arg1_3_0 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- The first bias reaches the stretch after the first region as launched. -/
theorem keep_main_arg2_4_0 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The second weight matrix reaches the second region as launched. -/
theorem keep_main_arg3_5_0 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The second bias reaches the stretch after the second region as launched. -/
theorem keep_main_arg4_6_0 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The third weight matrix reaches the third region as launched. -/
theorem keep_main_arg5_7_0 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- The third bias reaches the stretch after the third region as launched. -/
theorem keep_main_arg6_8_0 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- The source words are not written after the first stretch of host operations. -/
theorem keep_main_v3_4_1 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := StableHlo.after_of_forall_not_mem (b := Proc.devRef .tc main_v3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The source words pass the second stretch and region unchanged. -/
theorem keep_main_v3_6_4 (c : Dev nD) : W6 m ρ c (Proc.devRef .tc main_v3) = W4 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The source words pass the third stretch and region unchanged. -/
theorem keep_main_v3_8_6 (c : Dev nD) : W8 m ρ c (Proc.devRef .tc main_v3) = W6 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The destination words are not written after the first stretch of host operations. -/
theorem keep_main_v6_4_1 (c : Dev nD) : W4 m ρ c (Proc.devRef .tc main_v6) = W1 m ρ c (Proc.devRef .tc main_v6) :=
  calc W4 m ρ c (Proc.devRef .tc main_v6)
    _ = W3 m ρ c (Proc.devRef .tc main_v6) := W4_of_ne m ρ c main_v6 (by decide)
    _ = W2 m ρ c (Proc.devRef .tc main_v6) := StableHlo.after_of_forall_not_mem (b := Proc.devRef .tc main_v6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := StableHlo.after_of_forall_not_mem (b := Proc.devRef .tc main_v6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The destination words pass the second stretch and region unchanged. -/
theorem keep_main_v6_6_4 (c : Dev nD) : W6 m ρ c (Proc.devRef .tc main_v6) = W4 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The destination words pass the third stretch and region unchanged. -/
theorem keep_main_v6_8_6 (c : Dev nD) : W8 m ρ c (Proc.devRef .tc main_v6) = W6 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := StableHlo.after_of_forall_not_mem (b := Proc.devRef .tc main_v6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The per-node scale, an input window of the first region, leaves it and the next stretch unchanged. -/
theorem keep_main_v15_5_3 (c : Dev nD) : W5 m ρ c (Proc.devRef .tc main_v15) = W3 m ρ c (Proc.devRef .tc main_v15) :=
  calc W5 m ρ c (Proc.devRef .tc main_v15)
    _ = W4 m ρ c (Proc.devRef .tc main_v15) := StableHlo.after_of_forall_not_mem (b := Proc.devRef .tc main_v15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v15) := (W4_arr m ρ c 2).trans (((dat0 (V3 m ρ) c).arrAt_in 2 rfl _).trans (A_eq0 (V3 m ρ) c 2))

/-- The per-node scale passes the second region and the next stretch unchanged. -/
theorem keep_main_v15_7_5 (c : Dev nD) : W7 m ρ c (Proc.devRef .tc main_v15) = W5 m ρ c (Proc.devRef .tc main_v15) :=
  calc W7 m ρ c (Proc.devRef .tc main_v15)
    _ = W6 m ρ c (Proc.devRef .tc main_v15) := StableHlo.after_of_forall_not_mem (b := Proc.devRef .tc main_v15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v15) := (W6_arr m ρ c 1).trans (((dat1 (V5 m ρ) c).arrAt_in 1 rfl _).trans (A_eq1 (V5 m ρ) c 1))

/-- The per-node scale passes the third region and the next stretch unchanged. -/
theorem keep_main_v15_9_7 (c : Dev nD) : W9 m ρ c (Proc.devRef .tc main_v15) = W7 m ρ c (Proc.devRef .tc main_v15) :=
  calc W9 m ρ c (Proc.devRef .tc main_v15)
    _ = W8 m ρ c (Proc.devRef .tc main_v15) := StableHlo.after_of_forall_not_mem (b := Proc.devRef .tc main_v15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v15) := (W8_arr m ρ c 1).trans (((dat2 (V7 m ρ) c).arrAt_in 1 rfl _).trans (A_eq2 (V7 m ρ) c 1))

/-! ## The stretches of host operations between the regions -/

/-- The stretch of host operations before region 1: the rows the previous region wrote are gathered at the wrapped source
    words and scatter-added at the destination words, which is the aggregation over the edges landing on each node. -/
theorem stretch1_agg (c : Dev nD) (s d : S850000.Idx → BitVec 32) (Y : S50000x128.Idx → EReal)
    (hs : (W4 m ρ c (Proc.devRef .tc main_v3) : S850000.Idx → BitVec 32) = s)
    (hd : (W4 m ρ c (Proc.devRef .tc main_v6) : S850000.Idx → BitVec 32) = d)
    (hY : (W4 m ρ c (Proc.devRef .tc main_v16) : S50000x128.Idx → EReal) = Y) :
    (W5 m ρ c (Proc.devRef .tc main_v26) : S50000x128.Idx → EReal)
      = GcnSpec.gs (N := 50000) (E := 850000) (B := 128) (fun e : Fin 850000 => GcnEdges.rowW 50000 (d (ix1 e)))
          (fun e : Fin 850000 => GcnEdges.nodeW (N := 50000) (by decide) 50000#32 (s (ix1 e))) Y := by
  subst hs hd hY
  show StableHlo.after hostOps1 (W4 m ρ c) (Proc.devRef .tc main_v26) = _
  after_results
  exact GcnHost.gatherScatter_eq_gs (N := 50000) (C := 128) (E := 850000) (by decide) (by decide)
    scatter_S50000x128_S850000x1_S850000x128_1_0_0_1 rfl rfl rfl rfl
    gather_S50000x128_S850000x1_S850000x128_1_0_n_n_0_1_1128 rfl rfl rfl rfl rfl rfl rfl
    bcast_S_S50000x128 bcast_S850000_S850000x1_0 bcast_S_S850000 _ _ _ 50000#32

/-- The same stretch views the bias vector as a row. -/
theorem stretch1_bias (c : Dev nD) (b : S128.Idx → EReal)
    (hb : (W4 m ρ c (Proc.devRef .tc main_arg2) : S128.Idx → EReal) = b) :
    (W5 m ρ c (Proc.devRef .tc main_v27) : S1x128.Idx → EReal) = shapeCast S1x128 b shapeCasts_S128_S1x128 := by
  subst hb
  show StableHlo.after hostOps1 (W4 m ρ c) (Proc.devRef .tc main_v27) = _
  after_results
  rfl

/-- The stretch of host operations before region 2: the rows the previous region wrote are gathered at the wrapped source
    words and scatter-added at the destination words, which is the aggregation over the edges landing on each node. -/
theorem stretch2_agg (c : Dev nD) (s d : S850000.Idx → BitVec 32) (Y : S50000x128.Idx → EReal)
    (hs : (W6 m ρ c (Proc.devRef .tc main_v3) : S850000.Idx → BitVec 32) = s)
    (hd : (W6 m ρ c (Proc.devRef .tc main_v6) : S850000.Idx → BitVec 32) = d)
    (hY : (W6 m ρ c (Proc.devRef .tc main_v28) : S50000x128.Idx → EReal) = Y) :
    (W7 m ρ c (Proc.devRef .tc main_v38) : S50000x128.Idx → EReal)
      = GcnSpec.gs (N := 50000) (E := 850000) (B := 128) (fun e : Fin 850000 => GcnEdges.rowW 50000 (d (ix1 e)))
          (fun e : Fin 850000 => GcnEdges.nodeW (N := 50000) (by decide) 50000#32 (s (ix1 e))) Y := by
  subst hs hd hY
  show StableHlo.after hostOps2 (W6 m ρ c) (Proc.devRef .tc main_v38) = _
  after_results
  exact GcnHost.gatherScatter_eq_gs (N := 50000) (C := 128) (E := 850000) (by decide) (by decide)
    scatter_S50000x128_S850000x1_S850000x128_1_0_0_1 rfl rfl rfl rfl
    gather_S50000x128_S850000x1_S850000x128_1_0_n_n_0_1_1128 rfl rfl rfl rfl rfl rfl rfl
    bcast_S_S50000x128 bcast_S850000_S850000x1_0 bcast_S_S850000 _ _ _ 50000#32

/-- The same stretch views the bias vector as a row. -/
theorem stretch2_bias (c : Dev nD) (b : S128.Idx → EReal)
    (hb : (W6 m ρ c (Proc.devRef .tc main_arg4) : S128.Idx → EReal) = b) :
    (W7 m ρ c (Proc.devRef .tc main_v39) : S1x128.Idx → EReal) = shapeCast S1x128 b shapeCasts_S128_S1x128 := by
  subst hb
  show StableHlo.after hostOps2 (W6 m ρ c) (Proc.devRef .tc main_v39) = _
  after_results
  rfl

/-- The stretch of host operations before region 3: the rows the previous region wrote are gathered at the wrapped source
    words and scatter-added at the destination words, which is the aggregation over the edges landing on each node. -/
theorem stretch3_agg (c : Dev nD) (s d : S850000.Idx → BitVec 32) (Y : S50000x64.Idx → EReal)
    (hs : (W8 m ρ c (Proc.devRef .tc main_v3) : S850000.Idx → BitVec 32) = s)
    (hd : (W8 m ρ c (Proc.devRef .tc main_v6) : S850000.Idx → BitVec 32) = d)
    (hY : (W8 m ρ c (Proc.devRef .tc main_v40) : S50000x64.Idx → EReal) = Y) :
    (W9 m ρ c (Proc.devRef .tc main_v50) : S50000x64.Idx → EReal)
      = GcnSpec.gs (N := 50000) (E := 850000) (B := 64) (fun e : Fin 850000 => GcnEdges.rowW 50000 (d (ix1 e)))
          (fun e : Fin 850000 => GcnEdges.nodeW (N := 50000) (by decide) 50000#32 (s (ix1 e))) Y := by
  subst hs hd hY
  show StableHlo.after hostOps3 (W8 m ρ c) (Proc.devRef .tc main_v50) = _
  after_results
  exact GcnHost.gatherScatter_eq_gs (N := 50000) (C := 64) (E := 850000) (by decide) (by decide)
    scatter_S50000x64_S850000x1_S850000x64_1_0_0_1 rfl rfl rfl rfl
    gather_S50000x64_S850000x1_S850000x64_1_0_n_n_0_1_164 rfl rfl rfl rfl rfl rfl rfl
    bcast_S_S50000x64 bcast_S850000_S850000x1_0 bcast_S_S850000 _ _ _ 50000#32

/-- The same stretch views the bias vector as a row. -/
theorem stretch3_bias (c : Dev nD) (b : S64.Idx → EReal)
    (hb : (W8 m ρ c (Proc.devRef .tc main_arg6) : S64.Idx → EReal) = b) :
    (W9 m ρ c (Proc.devRef .tc main_v51) : S1x64.Idx → EReal) = shapeCast S1x64 b shapeCasts_S64_S1x64 := by
  subst hb
  show StableHlo.after hostOps3 (W8 m ρ c) (Proc.devRef .tc main_v51) = _
  after_results
  rfl

end Cert.KernelIdeal.GcnValue

end
-- ==== Proof.LibHostForms.lean ====
/-
  UNTRUSTED. Host operations read as WHOLE-ARRAY equations at the ideal values, for arrays of any sizes: a plain matrix
  product `[N, A] × [A, B]` written as a `dot_general` is the sum over the inner coordinate; a slice `W[κ]` of a stack
  of matrices; a bias row broadcast over the rows of a matrix; a broadcast scalar constant; and the pointwise arithmetic.
-/
import Idealize.ShloMosaic.Lib.ValueIdx
import Idealize.ShloMosaic.Lib.Pipeline.Value
import Idealize.ShloMosaic.Lib.ValueLayout
import Idealize.ShloMosaic.PureOps.Ideal.Laws
import proofs.«157919_j21165598834728_2_alg».proof.Proof.LibChebAlgebra

noncomputable section

open scoped BigOperators

namespace HostForms

open Idealize.ShloMosaic Idealize.ShloMosaic.ValueIdx

variable {N A B : Nat}

/-! ## (L1) A plain `dot_general` is the matrix-product sum -/

/-- The dimension numbers of a plain product `[N, A] × [A, B] → [N, B]`: the left operand's axis 1 is contracted with the
    right operand's axis 0; no batch axes. -/
abbrev plainDotDims (N A B : Nat)
    (wf : DotDims.WF ⟨2, ![N, A]⟩ ⟨2, ![A, B]⟩ ⟨2, ![N, B]⟩ [1] [0] [0] [1] [] []) :
    DotDims ⟨2, ![N, A]⟩ ⟨2, ![A, B]⟩ ⟨2, ![N, B]⟩ where
  lhsContracting := [1]
  rhsContracting := [0]
  lhsNonContracting := [0]
  rhsNonContracting := [1]
  lhsBatch := []
  rhsBatch := []
  wf := wf

section DotLiteral
variable (wf : DotDims.WF ⟨2, ![N, A]⟩ ⟨2, ![A, B]⟩ ⟨2, ![N, B]⟩ [1] [0] [0] [1] [] [])

/-- The left operand's row coordinate is the output's row. -/
theorem lhs_row (i : (⟨2, ![N, B]⟩ : Shape).Idx) (q : (plainDotDims N A B wf).contr.Idx) :
    ((plainDotDims N A B wf).lhsIdx i q 0).val = (i 0).val := by
  unfold DotDims.lhsIdx
  rw [dif_neg (show (0 : Fin 2) ∉ (plainDotDims N A B wf).lhsBatch from List.not_mem_nil),
    dif_pos (show (0 : Fin 2) ∈ (plainDotDims N A B wf).lhsNonContracting from List.mem_singleton.mpr rfl)]
  rfl

/-- The right operand's column coordinate is the output's column. -/
theorem rhs_col (i : (⟨2, ![N, B]⟩ : Shape).Idx) (q : (plainDotDims N A B wf).contr.Idx) :
    ((plainDotDims N A B wf).rhsIdx i q 1).val = (i 1).val := by
  unfold DotDims.rhsIdx
  rw [dif_neg (show (1 : Fin 2) ∉ (plainDotDims N A B wf).rhsBatch from List.not_mem_nil),
    dif_pos (show (1 : Fin 2) ∈ (plainDotDims N A B wf).rhsNonContracting from List.mem_singleton.mpr rfl)]
  rfl

/-- THE PRODUCT AT ROW `r`, COLUMN `f`, for the literal dimension numbers: the sum over the inner coordinate. -/
theorem dotGeneral_plainDims_apply {φ₁ φ₂ : FTy} (prec : Option ContractPrecision) (X : FVec Ideal ⟨2, ![N, A]⟩ φ₁)
    (W : FVec Ideal ⟨2, ![A, B]⟩ φ₂) (r : Fin N) (f : Fin B) :
    Host.dotGeneral (F := Ideal) (plainDotDims N A B wf) prec X W (ix2 r f) = ∑ k : Fin A, X (ix2 r k) * W (ix2 k f) := by
  show FloatOps.dotGeneral (plainDotDims N A B wf) prec .single X W (ix2 r f) = _
  rw [Ideal.dotGeneral_apply, ← Equiv.sum_comp (contrEquiv1 (plainDotDims N A B wf) A rfl rfl).symm]
  refine Finset.sum_congr rfl fun k _ => ?_
  have hk := contrEquiv1_symm_val (plainDotDims N A B wf) A rfl rfl k
  have el : (plainDotDims N A B wf).lhsIdx (ix2 r f) ((contrEquiv1 (plainDotDims N A B wf) A rfl rfl).symm k) = ix2 r k :=
    funext fun a => Fin.ext (by
      match a with
      | ⟨0, _⟩ => exact lhs_row wf _ _
      | ⟨1, _⟩ => exact (DotDims.lhsIdx_val_of_single (plainDotDims N A B wf) rfl _ _).trans hk)
  have er : (plainDotDims N A B wf).rhsIdx (ix2 r f) ((contrEquiv1 (plainDotDims N A B wf) A rfl rfl).symm k) = ix2 k f :=
    funext fun a => Fin.ext (by
      match a with
      | ⟨0, _⟩ => exact (DotDims.rhsIdx_val_of_single (plainDotDims N A B wf) rfl _ _).trans hk
      | ⟨1, _⟩ => exact rhs_col wf _ _)
  rw [el, er]

/-- The whole product, for the literal dimension numbers. -/
theorem dotGeneral_plainDims {φ₁ φ₂ : FTy} (prec : Option ContractPrecision) (X : FVec Ideal ⟨2, ![N, A]⟩ φ₁)
    (W : FVec Ideal ⟨2, ![A, B]⟩ φ₂) :
    Host.dotGeneral (F := Ideal) (plainDotDims N A B wf) prec X W
      = fun i => ∑ k : Fin A, X (ix2 (i 0) k) * W (ix2 k (i 1)) := by
  funext i
  obtain ⟨r, f, rfl⟩ : ∃ (r : Fin N) (f : Fin B), i = ix2 r f := ⟨i 0, i 1, eq_ix2 i⟩
  exact dotGeneral_plainDims_apply wf prec X W r f

end DotLiteral

/-- THE WHOLE PRODUCT, for ANY dimension numbers with the plain product's fields (a record given by its fields: the six
    hypotheses then hold by `rfl`): entry `(r, f)` is the sum over the inner coordinate `k` of `X (r, k) * W (k, f)`. -/
theorem dotGeneral_mm {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂) :
    Host.dotGeneral (F := Ideal) d prec X W = fun i => ∑ k : Fin A, X (ix2 (i 0) k) * W (ix2 k (i 1)) := by
  obtain ⟨lc, rc, ln, rn, lb, rb, wf⟩ := d
  simp only at h1 h2 h3 h4 h5 h6
  subst h1 h2 h3 h4 h5 h6
  exact dotGeneral_plainDims wf prec X W

/-- The same at row `r`, column `f`. -/
theorem dotGeneral_mm_apply {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂)
    (r : Fin N) (f : Fin B) :
    Host.dotGeneral (F := Ideal) d prec X W (ix2 r f) = ∑ k : Fin A, X (ix2 r k) * W (ix2 k f) :=
  congrFun (dotGeneral_mm d h1 h2 h3 h4 h5 h6 prec X W) (ix2 r f)

/-- The whole product as the matrix-product operator `ChebAlgebra.mm`. -/
theorem dotGeneral_eq_mm {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂) :
    Host.dotGeneral (F := Ideal) d prec X W = ChebAlgebra.mm X W :=
  dotGeneral_mm d h1 h2 h3 h4 h5 h6 prec X W

/-! ## (L2) One matrix of a stack: `W[κ]` -/

section Stack
variable {α : Type} {K : Nat}

/-- Slice `κ` of a stack `[K, A, B]` of matrices, cut out as `[1, A, B]` and viewed as `[A, B]`, is the matrix
    `(a, b) ↦ W (κ, a, b)`. -/
theorem slice_stack (κ : Fin K) (W : (⟨3, ![K, A, B]⟩ : Shape).Idx → α)
    (hs : (⟨3, ![K, A, B]⟩ : Shape).Slices ![κ.val, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![κ.val, 0, 0] W hs) hc
      = fun j => W (ix3 κ (j 0) (j 1)) := by
  funext j
  obtain ⟨a, b, rfl⟩ : ∃ (a : Fin A) (b : Fin B), j = ix2 a b := ⟨j 0, j 1, eq_ix2 j⟩
  rw [shapeCast_1ab_ab_apply]
  refine extractStridedSlice_apply _ W hs _ (ix3 κ a b) (fun c => ?_)
  match c with
  | ⟨0, _⟩ => show κ.val = κ.val + 0; rfl
  | ⟨1, _⟩ => show a.val = 0 + a.val; exact (Nat.zero_add _).symm
  | ⟨2, _⟩ => show b.val = 0 + b.val; exact (Nat.zero_add _).symm

/-- The first matrix of a stack of three. -/
theorem slice_stack3_0 (W : (⟨3, ![3, A, B]⟩ : Shape).Idx → α)
    (hs : (⟨3, ![3, A, B]⟩ : Shape).Slices ![0, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![0, 0, 0] W hs) hc
      = fun j => W (ix3 (0 : Fin 3) (j 0) (j 1)) :=
  slice_stack (0 : Fin 3) W hs hc

/-- The second matrix of a stack of three. -/
theorem slice_stack3_1 (W : (⟨3, ![3, A, B]⟩ : Shape).Idx → α)
    (hs : (⟨3, ![3, A, B]⟩ : Shape).Slices ![1, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![1, 0, 0] W hs) hc
      = fun j => W (ix3 (1 : Fin 3) (j 0) (j 1)) :=
  slice_stack (1 : Fin 3) W hs hc

/-- The third matrix of a stack of three. -/
theorem slice_stack3_2 (W : (⟨3, ![3, A, B]⟩ : Shape).Idx → α)
    (hs : (⟨3, ![3, A, B]⟩ : Shape).Slices ![2, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![2, 0, 0] W hs) hc
      = fun j => W (ix3 (2 : Fin 3) (j 0) (j 1)) :=
  slice_stack (2 : Fin 3) W hs hc

end Stack

/-! ## (L3) A bias row broadcast over the rows of a matrix -/

section Bias
variable {α : Type}

/-- A vector `[B]` made a row `[1, B]` by a broadcast, read at `(0, f)`. -/
theorem bcast_row_apply (b : (⟨1, ![B]⟩ : Shape).Idx → α)
    (h1 : (⟨1, ![B]⟩ : Shape).BroadcastsInDim ⟨2, ![1, B]⟩ ![1]) (u : Fin 1) (f : Fin B) :
    broadcastInDim ⟨2, ![1, B]⟩ ![1] h1 b (ix2 u f) = b (ix1 f) := by
  refine broadcastInDim_apply _ h1 b _ (ix1 f) (fun c => ?_)
  match c with
  | ⟨0, _⟩ =>
    show f.val = if B = 1 then 0 else f.val
    split_ifs with hB
    · have := f.isLt; omega
    · rfl

/-- A row `[1, B]` repeated down the `N` rows of a matrix, read at `(n, f)`. -/
theorem bcast_rows_apply (v : (⟨2, ![1, B]⟩ : Shape).Idx → α)
    (h2 : (⟨2, ![1, B]⟩ : Shape).BroadcastsInDim ⟨2, ![N, B]⟩ ![0, 1]) (n : Fin N) (f : Fin B) :
    broadcastInDim ⟨2, ![N, B]⟩ ![0, 1] h2 v (ix2 n f) = v (ix2 (0 : Fin 1) f) := by
  refine broadcastInDim_apply _ h2 v _ (ix2 (0 : Fin 1) f) (fun c => ?_)
  match c with
  | ⟨0, _⟩ =>
    show (0 : ℕ) = if (1 : ℕ) = 1 then 0 else n.val
    rw [if_pos rfl]
  | ⟨1, _⟩ =>
    show f.val = if B = 1 then 0 else f.val
    split_ifs with hB
    · have := f.isLt; omega
    · rfl

/-- (a) THE BIAS, two broadcasts: a vector `[B]` made a row and repeated down the rows is `(n, f) ↦ b f`. -/
theorem bias_bcast_bcast (b : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![N, B]⟩ ![0, 1]) :
    broadcastInDim ⟨2, ![N, B]⟩ ![0, 1] h2 (broadcastInDim ⟨2, ![1, B]⟩ ![1] h1 b) = fun i => b (ix1 (i 1)) := by
  funext i
  obtain ⟨n, f, rfl⟩ : ∃ (n : Fin N) (f : Fin B), i = ix2 n f := ⟨i 0, i 1, eq_ix2 i⟩
  rw [bcast_rows_apply, bcast_row_apply]
  rfl

/-- (b) THE BIAS, a shape cast then a broadcast: a vector `[B]` viewed as a row and repeated down the rows is
    `(n, f) ↦ b f`. -/
theorem bias_cast_bcast (b : (⟨1, ![B]⟩ : Shape).Idx → α)
    (hc : (⟨1, ![B]⟩ : Shape).ShapeCasts ⟨2, ![1, B]⟩)
    (h2 : (⟨2, ![1, B]⟩ : Shape).BroadcastsInDim ⟨2, ![N, B]⟩ ![0, 1]) :
    broadcastInDim ⟨2, ![N, B]⟩ ![0, 1] h2 (shapeCast ⟨2, ![1, B]⟩ b hc) = fun i => b (ix1 (i 1)) := by
  funext i
  obtain ⟨n, f, rfl⟩ : ∃ (n : Fin N) (f : Fin B), i = ix2 n f := ⟨i 0, i 1, eq_ix2 i⟩
  rw [bcast_rows_apply, shapeCast_a_1a_apply]
  rfl

/-- (c) A vector `[B]` viewed as a row, read at `(0, f)`. -/
theorem cast_row_apply (b : (⟨1, ![B]⟩ : Shape).Idx → α) (hc : (⟨1, ![B]⟩ : Shape).ShapeCasts ⟨2, ![1, B]⟩)
    (f : Fin B) : (shapeCast ⟨2, ![1, B]⟩ b hc) (ix2 (0 : Fin 1) f) = b (ix1 f) :=
  shapeCast_a_1a_apply b hc 0 f

end Bias

/-! ## (L4) A broadcast scalar -/

/-- A scalar array broadcast to any shape is constant. -/
theorem bcast_scalar {α : Type} (s : Shape) (c : (⟨0, ![]⟩ : Shape).Idx → α)
    (h : (⟨0, ![]⟩ : Shape).BroadcastsInDim s ![]) : broadcastInDim s ![] h c = fun _ => c ix0 := by
  funext j
  exact broadcastInDim_apply _ h c j ix0 (fun a => a.elim0)

/-- A scalar float constant broadcast to any shape is the extended real its word encodes, everywhere. -/
theorem bcast_constant {φ : FTy} (s : Shape) (w : BitVec φ.bits) (h : (⟨0, ![]⟩ : Shape).BroadcastsInDim s ![]) :
    broadcastInDim s ![] h (constant (F := Ideal) ⟨0, ![]⟩ φ w) = fun _ => Ideal.ofBits φ w := by
  rw [bcast_scalar]
  rfl

/-- The `f32` word `0x40000000` is the real number 2. -/
theorem ofBits_two_f32 : Ideal.ofBits .f32 0x40000000#32 = ((2 : ℝ) : EReal) := by
  simp [Ideal.ofBits, Ideal.ieee]
  norm_cast
  norm_num

/-! ## (L5) Pointwise arithmetic on whole arrays -/

section Pointwise
variable {s : Shape} {φ : FTy}

/-- A sum of arrays is the pointwise sum. -/
theorem addf_fun (a b : FVec Ideal s φ) : addf a b = fun i => a i + b i := rfl
/-- A difference of arrays is the pointwise difference. -/
theorem subf_fun (a b : FVec Ideal s φ) : subf a b = fun i => a i - b i := rfl
/-- A product of arrays is the pointwise product. -/
theorem mulf_fun (a b : FVec Ideal s φ) : mulf a b = fun i => a i * b i := rfl
/-- A maximum of arrays is the pointwise maximum. -/
theorem maximumf_fun (a b : FVec Ideal s φ) : maximumf a b = fun i => max (a i) (b i) := rfl
/-- A negated array is the pointwise negation. -/
theorem negf_fun (a : FVec Ideal s φ) : negf a = fun i => - a i := rfl
/-- A narrowing change of float format is the identity on extended reals. -/
theorem truncf_fun {ψ : FTy} (a : FVec Ideal s φ) (h : ψ.bits < φ.bits) : (truncf ψ a h : FVec Ideal s ψ) = a := rfl
/-- A widening change of float format is the identity on extended reals. -/
theorem extf_fun {ψ : FTy} (a : FVec Ideal s φ) (h : φ.bits < ψ.bits) : (extf ψ a h : FVec Ideal s ψ) = a := rfl

end Pointwise

end HostForms

end
-- ==== Proof.LibMatmulForms.lean ====
/-
  A kernel matrix product `[N, A] × [A, B]` accumulated into `acc`, at the ideal instance, read at row `r` and column
  `f`: the accumulator's entry plus the sum over the inner coordinate `k` of `X (r, k) · W (k, f)` — for any dimension
  numbers whose fields are the plain product's (contract the left operand's axis 1 with the right operand's axis 0,
  no batch axes). The host's `dot_general` with the same dimension numbers is the same sum without the accumulator, so
  the statement is read off that one.
-/
import proofs.«157919_j21165598834728_2_alg».proof.Proof.LibHostForms

noncomputable section

open scoped BigOperators

namespace MatmulForms

open Idealize.ShloMosaic Idealize.ShloMosaic.ValueIdx

variable {N A B : Nat}

/-- The kernel's product at `(r, f)`: the accumulator there plus the inner sum. -/
theorem matmul_mm_apply {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂)
    (acc : FVec Ideal ⟨2, ![N, B]⟩ .f32) (r : Fin N) (f : Fin B) :
    FloatOps.matmul d prec X W acc (ix2 r f) = acc (ix2 r f) + ∑ k : Fin A, X (ix2 r k) * W (ix2 k f) := by
  have e := HostForms.dotGeneral_mm_apply d h1 h2 h3 h4 h5 h6 prec X W r f
  rw [show Host.dotGeneral (F := Ideal) d prec X W (ix2 r f) = FloatOps.dotGeneral d prec .single X W (ix2 r f) from rfl,
    Ideal.dotGeneral_apply] at e
  rw [Ideal.matmul_apply, e]

/-- Into the zero accumulator: the inner sum alone. -/
theorem matmul_zero_mm_apply {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂) (r : Fin N) (f : Fin B) :
    FloatOps.matmul d prec X W (constant ⟨2, ![N, B]⟩ .f32 0x00000000#32) (ix2 r f) = ∑ k : Fin A, X (ix2 r k) * W (ix2 k f) := by
  rw [matmul_mm_apply d h1 h2 h3 h4 h5 h6]
  show Ideal.ofBits .f32 0x00000000#32 + _ = _
  rw [Ideal.ofBits_zero_f32, zero_add]

end MatmulForms

end
-- ==== Proof.LibDenseBody.lean ====
/-
  Kernel-body forms of a dense layer read at an index, at the ideal values, for matrices of any sizes:

  * a bias row `[1, b]` (through an identity shape cast) broadcast down the rows and added to a matrix, at (p, q):
    the matrix's entry plus the row's entry of column q;
  * the same followed by the maximum with a broadcast zero scalar: the positive part of that sum.
-/
import Idealize.ShloMosaic.Lib.ValueIdx
import Idealize.ShloMosaic.Lib.Pipeline.Value
import Idealize.ShloMosaic.Lib.ValueLayout
import Idealize.ShloMosaic.PureOps.Ideal.Laws

noncomputable section

namespace Cert.DenseBody

open Idealize.ShloMosaic Idealize.ShloMosaic.ValueIdx

variable {a b : ℕ}

/-- A bias row broadcast down the rows and added, at (p, q). -/
theorem add_bias_row_apply (Z : FVec Ideal ⟨2, ![a, b]⟩ .f32) (x : FVec Ideal ⟨2, ![1, b]⟩ .f32)
    (hc : (⟨2, ![1, b]⟩ : Shape).ShapeCasts ⟨2, ![1, b]⟩) (hb : (⟨2, ![1, b]⟩ : Shape).Broadcasts ⟨2, ![a, b]⟩)
    (p : Fin a) (q : Fin b) :
    addf Z (broadcastTo ⟨2, ![a, b]⟩ (shapeCast ⟨2, ![1, b]⟩ x hc) hb) (ix2 p q)
      = Z (ix2 p q) + x (ix2 (0 : Fin 1) q) := by
  show Z (ix2 p q) + broadcastTo ⟨2, ![a, b]⟩ (shapeCast ⟨2, ![1, b]⟩ x hc) hb (ix2 p q) = _
  rw [shapeCast_self, broadcastTo_1b_ab_apply]

/-- The positive part of a matrix plus a bias row, at (p, q). -/
theorem relu_bias_row_apply (Z : FVec Ideal ⟨2, ![a, b]⟩ .f32) (x : FVec Ideal ⟨2, ![1, b]⟩ .f32)
    (hc : (⟨2, ![1, b]⟩ : Shape).ShapeCasts ⟨2, ![1, b]⟩) (hb : (⟨2, ![1, b]⟩ : Shape).Broadcasts ⟨2, ![a, b]⟩)
    (p : Fin a) (q : Fin b) :
    maximumf (addf Z (broadcastTo ⟨2, ![a, b]⟩ (shapeCast ⟨2, ![1, b]⟩ x hc) hb))
        (broadcast ⟨2, ![a, b]⟩ (FloatOps.ofBits (F := Ideal) .f32 0x00000000#32)) (ix2 p q)
      = max (Z (ix2 p q) + x (ix2 (0 : Fin 1) q)) 0 := by
  show max (addf Z (broadcastTo ⟨2, ![a, b]⟩ (shapeCast ⟨2, ![1, b]⟩ x hc) hb) (ix2 p q))
      (Ideal.ofBits .f32 0x00000000#32) = _
  rw [add_bias_row_apply, Ideal.ofBits_zero_f32]

end Cert.DenseBody

end
-- ==== Proof.Region0.lean ====
/-
  Region 0 of the kernel program: the node features times the first layer's weights, each row scaled by its node's
  scale. The body's stored value at an index, each window's block as rows of its array, the block every grid point
  writes back as a block of one function of the operand arrays, and the cover of the output array by those blocks.
-/
import proofs.«157919_j21165598834728_2_alg».proof.Proof.Gen.KernelIdeal.Frame
import proofs.«157919_j21165598834728_2_alg».proof.Proof.GcnSpec
import proofs.«157919_j21165598834728_2_alg».proof.Proof.LibMatmulForms
import proofs.«157919_j21165598834728_2_alg».proof.Proof.LibDenseBody
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

namespace R0

/-- A column `[a, 1]` broadcast along the rows to `[a, b]` reads, at `(p, q)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's stored value at `(p, q)`: row `p` of the left block times column `q` of the weights, scaled by the
    row's entry of the scale column. -/
theorem pay_apply (x0 : Vec Ideal S5000x128 .f32) (x1 : Vec Ideal S128x128 .f32) (x2 : Vec Ideal S5000x1 .f32)
    (p : Fin 5000) (q : Fin 128) :
    k0_pay1 x0 x1 x2 (ix2 p q) = (∑ k : Fin 128, x0 (ix2 p k) * x1 (ix2 k q)) * x2 (ix2 p (0 : Fin 1)) := by
  unfold k0_pay1
  have hmm := MatmulForms.matmul_zero_mm_apply (N := 5000) (A := 128) (B := 128)
    dot_S5000x128_S128x128_S5000x128_1_0_0_1_n_n rfl rfl rfl rfl rfl rfl none
    (truncf .bf16 x0 bitsLt_bf16_f32 : FVec Ideal S5000x128 .bf16) (truncf .bf16 x1 bitsLt_bf16_f32 : FVec Ideal S128x128 .bf16) p q
  have hb := broadcastTo_a1_ab_apply (a := 5000) (b := 128) (shapeCast S5000x1 x2 shapeCasts_S5000x1_S5000x1) broadcasts_S5000x1_S5000x128 p q
  refine (congrArg₂ (fun (u w : EReal) => u * w) hmm hb).trans ?_
  rw [shapeCast_self]
  rfl

theorem hz : (![0, 0] : Fin 2 → Nat) = fun _ => 0 := funext fun a => by fin_cases a <;> rfl

/-- The index maps over the grid: the node-axis windows sit at block `(t, 0)`, the weights at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The node features, the weights and the per-node scale column, as the region finds them. -/
abbrev feat (c : Dev nD) : S50000x128.Idx → EReal := V c main_arg0
abbrev wts (c : Dev nD) : S128x128.Idx → EReal := V c main_arg1
abbrev scale (c : Dev nD) : S50000x1.Idx → EReal := V c main_v15

/-- The region's result as one function of its operand arrays: `(X W)(n, f) · d(n)`. -/
abbrev G (c : Dev nD) : S50000x128.Idx → EReal :=
  GcnSpec.pre (N := 50000) (A := 128) (B := 128) (fun n : Fin 50000 => scale V c (ix2 n (0 : Fin 1))) (feat V c) (wts V c)

/-- Row `p` of the feature block at point `t` is row `5000 t + p` of the feature array. -/
theorem blk_feat (c : Dev nD) (t : Fin cfg0.N) (p : Fin 5000) (k : Fin 128) (r : Fin 50000) (hr : r.val = t.val * 5000 + p.val) :
    (iblk0 V c 0 t : Vec Ideal S5000x128 .f32) (ix2 p k) = feat V c (ix2 r k) := by
  obtain ⟨e0, e1, -⟩ := idx_facts t
  show feat V c (((cfg0.win 0).blk t).view.emb (ix2 p k)) = _
  refine congrArg _ (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The weight block at any point is the weight array. -/
theorem blk_wt (c : Dev nD) (t : Fin cfg0.N) (k : Fin 128) (q : Fin 128) :
    (iblk0 V c 1 t : Vec Ideal S128x128 .f32) (ix2 k q) = wts V c (ix2 k q) := by
  obtain ⟨-, -, e0, e1, -⟩ := idx_facts t
  show wts V c (((cfg0.win 1).blk t).view.emb (ix2 k q)) = _
  refine congrArg _ (funext fun a => Fin.ext ?_)
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- Row `p` of the scale block at point `t` is row `5000 t + p` of the scale column. -/
theorem blk_scale (c : Dev nD) (t : Fin cfg0.N) (p : Fin 5000) (r : Fin 50000) (hr : r.val = t.val * 5000 + p.val) :
    (iblk0 V c 2 t : Vec Ideal S5000x1 .f32) (ix2 p (0 : Fin 1)) = scale V c (ix2 r (0 : Fin 1)) := by
  obtain ⟨-, -, -, -, e0, e1, -⟩ := idx_facts t
  show scale V c (((cfg0.win 2).blk t).view.emb (ix2 p (0 : Fin 1))) = _
  refine congrArg _ (funext fun a => Fin.ext ?_)
  match a with
  | ⟨0, _⟩ => show win0_2.index t (0 : Fin 2) * 5000 + 1 * p.val = r.val; rw [e0, hr]; omega
  | ⟨1, _⟩ => show win0_2.index t (1 : Fin 2) * 1 + 1 * 0 = 0; rw [e1]

/-- What point `t` writes back is block `t` of `G`. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨-, -, -, -, -, -, e0, e1⟩ := idx_facts t
  have hN : cfg0.N = 10 := N_0
  have ht : t.val < 10 := hN ▸ t.isLt
  refine funext fun (y : S5000x128.Idx) => ?_
  obtain ⟨p, q, rfl⟩ : ∃ (p : Fin 5000) (q : Fin 128), y = ix2 p q := ⟨y 0, y 1, eq_ix2 y⟩
  have hr : t.val * 5000 + p.val < 50000 := by have := p.isLt; omega
  have hemb : ((cfg0.win 3).blk t).view.emb (ix2 p q) = (ix2 (⟨t.val * 5000 + p.val, hr⟩ : Fin 50000) q : S50000x128.Idx) := by
    refine funext fun a => Fin.ext ?_
    match a with
    | ⟨0, _⟩ => show win0_3.index t (0 : Fin 2) * 5000 + 1 * p.val = t.val * 5000 + p.val; rw [e0]; omega
    | ⟨1, _⟩ => show win0_3.index t (1 : Fin 2) * 128 + 1 * q.val = q.val; rw [e1]; omega
  show k0_pay1 (iblk0 V c 0 t) (iblk0 V c 1 t) (iblk0 V c 2 t) (ix2 p q) = G V c (((cfg0.win 3).blk t).view.emb (ix2 p q))
  refine (pay_apply _ _ _ p q).trans ?_
  refine Eq.trans ?_ (congrArg (G V c) hemb).symm
  show _ = (∑ k : Fin 128, feat V c (ix2 (⟨t.val * 5000 + p.val, hr⟩ : Fin 50000) k) * wts V c (ix2 k q))
      * scale V c (ix2 (⟨t.val * 5000 + p.val, hr⟩ : Fin 50000) (0 : Fin 1))
  refine congrArg₂ (fun (u w : EReal) => u * w) (Finset.sum_congr rfl fun k _ => ?_) (blk_scale V c t p _ rfl)
  exact congrArg₂ (fun (u w : EReal) => u * w) (blk_feat V c t p k _ rfl) (blk_wt V c t k q)

/-- An index of the array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

/-- Every index of the array is in the block of the point its row falls in. -/
theorem cover (i : S50000x128.Idx) : ∃ t : Fin cfg0.N, (cfg0.win 3).flush t = true ∧ i ∈ ((cfg0.win 3).blk t).view.set := by
  have hN : cfg0.N = 10 := N_0
  have hi0 : (i 0).val < 50000 := (i 0).isLt
  have hi1 : (i 1).val < 128 := (i 1).isLt
  have ht : (i 0).val / 5000 < cfg0.N := by rw [hN]; omega
  obtain ⟨-, -, -, -, -, -, e0, e1⟩ := idx_facts ⟨(i 0).val / 5000, ht⟩
  refine ⟨⟨(i 0).val / 5000, ht⟩, flush0_3 _, ?_⟩
  rw [mem_blk]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    rw [e1]; omega

end R0

variable (V : (c : Dev nD) → (b : Ref sig .tc) → Buf (Elt Ideal) ((c : Thread nD τ).loc b))

/-- REGION 0: the output array after the region is the features times the weights, each row scaled by its node's scale. -/
theorem out0 (c : Dev nD) :
    ((dat0 V c).arrAt 3 cfg0.N : S50000x128.Idx → EReal)
      = GcnSpec.pre (N := 50000) (A := 128) (B := 128) (fun n : Fin 50000 => (V c main_v15 : S50000x1.Idx → EReal) (ix2 n (0 : Fin 1)))
          (V c main_arg0 : S50000x128.Idx → EReal) (V c main_arg1 : S128x128.Idx → EReal) :=
  (dat0 V c).arrAt_eq_of_cover 3 (R0.G V c) (fun t _ => R0.flushed_eq V c t) R0.cover

/-- The same, with the three operand arrays named by what they are known to hold when the region is entered. -/
theorem out0_of (c : Dev nD) (X : S50000x128.Idx → EReal) (W : S128x128.Idx → EReal) (d : S50000x1.Idx → EReal)
    (hX : (V c main_arg0 : S50000x128.Idx → EReal) = X) (hW : (V c main_arg1 : S128x128.Idx → EReal) = W)
    (hd : (V c main_v15 : S50000x1.Idx → EReal) = d) :
    ((dat0 V c).arrAt 3 cfg0.N : S50000x128.Idx → EReal)
      = GcnSpec.pre (N := 50000) (A := 128) (B := 128) (fun n : Fin 50000 => d (ix2 n (0 : Fin 1))) X W := by
  subst hX hW hd
  exact out0 V c

end Cert.KernelIdeal.RegionValue

end
-- ==== Proof.Region1.lean ====
/-
  Region 1 of the kernel program: a fused dense layer. The aggregated features are scaled row by row by the node's scale,
  the bias row is added, the positive part is taken, the result is multiplied by the layer's weights, and each row is
  scaled again. The body's stored value at an index, each window's block as rows of its array, the block every grid
  point writes back as a block of one function of the operand arrays, and the cover of the output array by those blocks.
-/
import proofs.«157919_j21165598834728_2_alg».proof.Proof.Gen.KernelIdeal.Frame
import proofs.«157919_j21165598834728_2_alg».proof.Proof.GcnSpec
import proofs.«157919_j21165598834728_2_alg».proof.Proof.LibMatmulForms
import proofs.«157919_j21165598834728_2_alg».proof.Proof.LibDenseBody
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

namespace R1

/-- A column `[a, 1]` broadcast along the rows to `[a, b]` reads, at `(p, q)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The hidden activation at `(p, k)`: the aggregated entry scaled by its row's scale, plus the bias of column `k`,
    positive part. -/
theorem hidden_apply {a b : ℕ} (X : FVec Ideal ⟨2, ![a, b]⟩ .f32) (d : FVec Ideal ⟨2, ![a, 1]⟩ .f32) (bias : FVec Ideal ⟨2, ![1, b]⟩ .f32)
    (hX : (⟨2, ![a, b]⟩ : Shape).ShapeCasts ⟨2, ![a, b]⟩) (hd : (⟨2, ![a, 1]⟩ : Shape).ShapeCasts ⟨2, ![a, 1]⟩)
    (hdb : (⟨2, ![a, 1]⟩ : Shape).Broadcasts ⟨2, ![a, b]⟩)
    (hc : (⟨2, ![1, b]⟩ : Shape).ShapeCasts ⟨2, ![1, b]⟩) (hb : (⟨2, ![1, b]⟩ : Shape).Broadcasts ⟨2, ![a, b]⟩)
    (p : Fin a) (k : Fin b) :
    maximumf (addf (mulf (shapeCast ⟨2, ![a, b]⟩ X hX) (broadcastTo ⟨2, ![a, b]⟩ (shapeCast ⟨2, ![a, 1]⟩ d hd) hdb))
          (broadcastTo ⟨2, ![a, b]⟩ (shapeCast ⟨2, ![1, b]⟩ bias hc) hb))
        (broadcast ⟨2, ![a, b]⟩ (FloatOps.ofBits (F := Ideal) .f32 0x00000000#32)) (ix2 p k)
      = max (X (ix2 p k) * d (ix2 p (0 : Fin 1)) + bias (ix2 (0 : Fin 1) k)) 0 := by
  refine (Cert.DenseBody.relu_bias_row_apply _ bias hc hb p k).trans ?_
  show max ((shapeCast ⟨2, ![a, b]⟩ X hX) (ix2 p k) * (broadcastTo ⟨2, ![a, b]⟩ (shapeCast ⟨2, ![a, 1]⟩ d hd) hdb) (ix2 p k)
      + bias (ix2 (0 : Fin 1) k)) 0 = _
  rw [shapeCast_self, broadcastTo_a1_ab_apply, shapeCast_self]

/-- The body's stored value at `(p, q)`: row `p` of the hidden activations times column `q` of the weights, scaled by
    the row's entry of the scale column. -/
theorem pay_apply (x0 : Vec Ideal S5000x128 .f32) (x1 : Vec Ideal S5000x1 .f32) (x2 : Vec Ideal S1x128 .f32)
    (x3 : Vec Ideal S128x128 .f32) (x4 : Vec Ideal S5000x1 .f32) (p : Fin 5000) (q : Fin 128) :
    k1_pay1 x0 x1 x2 x3 x4 (ix2 p q)
      = (∑ k : Fin 128, max (x0 (ix2 p k) * x1 (ix2 p (0 : Fin 1)) + x2 (ix2 (0 : Fin 1) k)) 0 * x3 (ix2 k q))
          * x4 (ix2 p (0 : Fin 1)) := by
  unfold k1_pay1
  refine (congrArg₂ (fun (u w : EReal) => u * w)
    (MatmulForms.matmul_zero_mm_apply (N := 5000) (A := 128) (B := 128) dot_S5000x128_S128x128_S5000x128_1_0_0_1_n_n rfl rfl rfl rfl rfl rfl none _ _ p q)
    ((broadcastTo_a1_ab_apply (a := 5000) (b := 128) (shapeCast S5000x1 x4 shapeCasts_S5000x1_S5000x1) broadcasts_S5000x1_S5000x128 p q).trans
      (congrFun (shapeCast_self x4 shapeCasts_S5000x1_S5000x1) (ix2 p (0 : Fin 1))))).trans ?_
  refine congrArg (fun u : EReal => u * x4 (ix2 p (0 : Fin 1))) (Finset.sum_congr rfl fun k _ => ?_)
  refine congrArg₂ (fun (u w : EReal) => u * w) ?_ rfl
  exact hidden_apply (a := 5000) (b := 128) x0 x1 x2 _ _ _ _ _ p k

theorem hz : (![0, 0] : Fin 2 → Nat) = fun _ => 0 := funext fun a => by fin_cases a <;> rfl

/-- The index maps over the grid: the node-axis windows sit at block `(t, 0)`, the bias and the weights at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- The aggregated features, the per-node scale column, the bias row and the weights, as the region finds them. -/
abbrev agg (c : Dev nD) : S50000x128.Idx → EReal := V c main_v26
abbrev scale (c : Dev nD) : S50000x1.Idx → EReal := V c main_v15
abbrev bias (c : Dev nD) : S1x128.Idx → EReal := V c main_v27
abbrev wts (c : Dev nD) : S128x128.Idx → EReal := V c main_arg3

/-- The region's result as one function of its operand arrays: `(relu(agg · d + b) W)(n, f) · d(n)`. -/
abbrev G (c : Dev nD) : S50000x128.Idx → EReal :=
  GcnSpec.pre (N := 50000) (A := 128) (B := 128) (fun n : Fin 50000 => scale V c (ix2 n (0 : Fin 1)))
    (GcnSpec.posPart (N := 50000) (B := 128) (fun j => agg V c j * scale V c (ix2 (j 0) (0 : Fin 1)) + bias V c (ix2 (0 : Fin 1) (j 1))))
    (wts V c)

/-- Row `p` of the aggregated block at point `t` is row `5000 t + p` of the aggregated array. -/
theorem blk_agg (c : Dev nD) (t : Fin cfg1.N) (p : Fin 5000) (k : Fin 128) (r : Fin 50000) (hr : r.val = t.val * 5000 + p.val) :
    (iblk1 V c 0 t : Vec Ideal S5000x128 .f32) (ix2 p k) = agg V c (ix2 r k) := by
  obtain ⟨e0, e1, -⟩ := idx_facts t
  show agg V c (((cfg1.win 0).blk t).view.emb (ix2 p k)) = _
  refine congrArg _ (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- Row `p` of the scale block at point `t` is row `5000 t + p` of the scale column. -/
theorem blk_scale (c : Dev nD) (t : Fin cfg1.N) (p : Fin 5000) (r : Fin 50000) (hr : r.val = t.val * 5000 + p.val) :
    (iblk1 V c 1 t : Vec Ideal S5000x1 .f32) (ix2 p (0 : Fin 1)) = scale V c (ix2 r (0 : Fin 1)) := by
  obtain ⟨-, -, e0, e1, -⟩ := idx_facts t
  show scale V c (((cfg1.win 1).blk t).view.emb (ix2 p (0 : Fin 1))) = _
  refine congrArg _ (funext fun a => Fin.ext ?_)
  match a with
  | ⟨0, _⟩ => show win1_1.index t (0 : Fin 2) * 5000 + 1 * p.val = r.val; rw [e0, hr]; omega
  | ⟨1, _⟩ => show win1_1.index t (1 : Fin 2) * 1 + 1 * 0 = 0; rw [e1]

/-- The bias block at any point is the bias row. -/
theorem blk_bias (c : Dev nD) (t : Fin cfg1.N) (k : Fin 128) :
    (iblk1 V c 2 t : Vec Ideal S1x128 .f32) (ix2 (0 : Fin 1) k) = bias V c (ix2 (0 : Fin 1) k) := by
  obtain ⟨-, -, -, -, e0, e1, -⟩ := idx_facts t
  show bias V c (((cfg1.win 2).blk t).view.emb (ix2 (0 : Fin 1) k)) = _
  refine congrArg _ (funext fun a => Fin.ext ?_)
  match a with
  | ⟨0, _⟩ => show win1_2.index t (0 : Fin 2) * 1 + 1 * 0 = 0; rw [e0]
  | ⟨1, _⟩ => show win1_2.index t (1 : Fin 2) * 128 + 1 * k.val = k.val; rw [e1]; omega

/-- The weight block at any point is the weight array. -/
theorem blk_wt (c : Dev nD) (t : Fin cfg1.N) (k : Fin 128) (q : Fin 128) :
    (iblk1 V c 3 t : Vec Ideal S128x128 .f32) (ix2 k q) = wts V c (ix2 k q) := by
  obtain ⟨-, -, -, -, -, -, e0, e1, -⟩ := idx_facts t
  show wts V c (((cfg1.win 3).blk t).view.emb (ix2 k q)) = _
  refine congrArg _ (funext fun a => Fin.ext ?_)
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- What point `t` writes back is block `t` of `G`. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz, View.ld_unit_zero (S := S5000x1) hz,
    View.ld_unit_zero (S := S1x128) hz]
  obtain ⟨-, -, -, -, -, -, -, -, e0, e1⟩ := idx_facts t
  have hN : cfg1.N = 10 := N_1
  have ht : t.val < 10 := hN ▸ t.isLt
  refine funext fun (y : S5000x128.Idx) => ?_
  obtain ⟨p, q, rfl⟩ : ∃ (p : Fin 5000) (q : Fin 128), y = ix2 p q := ⟨y 0, y 1, eq_ix2 y⟩
  have hr : t.val * 5000 + p.val < 50000 := by have := p.isLt; omega
  have hemb : ((cfg1.win 4).blk t).view.emb (ix2 p q) = (ix2 (⟨t.val * 5000 + p.val, hr⟩ : Fin 50000) q : S50000x128.Idx) := by
    refine funext fun a => Fin.ext ?_
    match a with
    | ⟨0, _⟩ => show win1_4.index t (0 : Fin 2) * 5000 + 1 * p.val = t.val * 5000 + p.val; rw [e0]; omega
    | ⟨1, _⟩ => show win1_4.index t (1 : Fin 2) * 128 + 1 * q.val = q.val; rw [e1]; omega
  show k1_pay1 (iblk1 V c 0 t) (iblk1 V c 1 t) (iblk1 V c 2 t) (iblk1 V c 3 t) (iblk1 V c 1 t) (ix2 p q)
      = G V c (((cfg1.win 4).blk t).view.emb (ix2 p q))
  refine (pay_apply _ _ _ _ _ p q).trans ?_
  refine Eq.trans ?_ (congrArg (G V c) hemb).symm
  show _ = (∑ k : Fin 128, max (agg V c (ix2 (⟨t.val * 5000 + p.val, hr⟩ : Fin 50000) k)
        * scale V c (ix2 (⟨t.val * 5000 + p.val, hr⟩ : Fin 50000) (0 : Fin 1)) + bias V c (ix2 (0 : Fin 1) k)) 0 * wts V c (ix2 k q))
      * scale V c (ix2 (⟨t.val * 5000 + p.val, hr⟩ : Fin 50000) (0 : Fin 1))
  refine congrArg₂ (fun (u w : EReal) => u * w) (Finset.sum_congr rfl fun k _ => ?_) (blk_scale V c t p _ rfl)
  refine congrArg₂ (fun (u w : EReal) => u * w) ?_ (blk_wt V c t k q)
  refine congrArg (fun u : EReal => max u 0) ?_
  exact congrArg₂ (fun (u w : EReal) => u + w)
    (congrArg₂ (fun (u w : EReal) => u * w) (blk_agg V c t p k _ rfl) (blk_scale V c t p _ rfl)) (blk_bias V c t k)

/-- An index of the array is in point `t`'s block iff each coordinate is in the block's range on its axis. -/
theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v28).slice (win1_4.rect t)).set ↔ _
  rw [View.set_slice_whole, Rect.mem_set_unit]
  exact Iff.rfl

/-- Every index of the array is in the block of the point its row falls in. -/
theorem cover (i : S50000x128.Idx) : ∃ t : Fin cfg1.N, (cfg1.win 4).flush t = true ∧ i ∈ ((cfg1.win 4).blk t).view.set := by
  have hN : cfg1.N = 10 := N_1
  have hi0 : (i 0).val < 50000 := (i 0).isLt
  have hi1 : (i 1).val < 128 := (i 1).isLt
  have ht : (i 0).val / 5000 < cfg1.N := by rw [hN]; omega
  obtain ⟨-, -, -, -, -, -, -, -, e0, e1⟩ := idx_facts ⟨(i 0).val / 5000, ht⟩
  refine ⟨⟨(i 0).val / 5000, ht⟩, flush1_4 _, ?_⟩
  rw [mem_blk]
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_4.index ⟨(i 0).val / 5000, ht⟩ (1 : Fin 2) * 128 ≤ (i 1).val ∧ (i 1).val < win1_4.index ⟨(i 0).val / 5000, ht⟩ (1 : Fin 2) * 128 + 128
    rw [e1]; omega

end R1

variable (V : (c : Dev nD) → (b : Ref sig .tc) → Buf (Elt Ideal) ((c : Thread nD τ).loc b))

/-- REGION 1: the output array after the region is the hidden activations (the aggregated features scaled by the node's
    scale, plus the bias, positive part) times the weights, each row scaled by its node's scale. -/
theorem out1 (c : Dev nD) :
    ((dat1 V c).arrAt 4 cfg1.N : S50000x128.Idx → EReal)
      = GcnSpec.pre (N := 50000) (A := 128) (B := 128) (fun n : Fin 50000 => R1.scale V c (ix2 n (0 : Fin 1)))
          (GcnSpec.posPart (N := 50000) (B := 128)
            (fun j => R1.agg V c j * R1.scale V c (ix2 (j 0) (0 : Fin 1)) + R1.bias V c (ix2 (0 : Fin 1) (j 1))))
          (R1.wts V c) :=
  (dat1 V c).arrAt_eq_of_cover 4 (R1.G V c) (fun t _ => R1.flushed_eq V c t) R1.cover

/-- The same, with the four operand arrays named by what they are known to hold when the region is entered. -/
theorem out1_of (c : Dev nD) (X : S50000x128.Idx → EReal) (d : S50000x1.Idx → EReal) (b : S1x128.Idx → EReal) (W : S128x128.Idx → EReal)
    (hX : (V c main_v26 : S50000x128.Idx → EReal) = X) (hd : (V c main_v15 : S50000x1.Idx → EReal) = d)
    (hb : (V c main_v27 : S1x128.Idx → EReal) = b) (hW : (V c main_arg3 : S128x128.Idx → EReal) = W) :
    ((dat1 V c).arrAt 4 cfg1.N : S50000x128.Idx → EReal)
      = GcnSpec.pre (N := 50000) (A := 128) (B := 128) (fun n : Fin 50000 => d (ix2 n (0 : Fin 1)))
          (GcnSpec.posPart (N := 50000) (B := 128) (fun j => X j * d (ix2 (j 0) (0 : Fin 1)) + b (ix2 (0 : Fin 1) (j 1)))) W := by
  subst hX hd hb hW
  exact out1 V c

end Cert.KernelIdeal.RegionValue

end
-- ==== Proof.Region2.lean ====
/-
  Region 2 of the kernel program: a fused dense layer. The aggregated features are scaled row by row by the node's scale,
  the bias row is added, the positive part is taken, the result is multiplied by the layer's weights, and each row is
  scaled again. The body's stored value at an index, each window's block as rows of its array, the block every grid
  point writes back as a block of one function of the operand arrays, and the cover of the output array by those blocks.
-/
import proofs.«157919_j21165598834728_2_alg».proof.Proof.Gen.KernelIdeal.Frame
import proofs.«157919_j21165598834728_2_alg».proof.Proof.GcnSpec
import proofs.«157919_j21165598834728_2_alg».proof.Proof.LibMatmulForms
import proofs.«157919_j21165598834728_2_alg».proof.Proof.LibDenseBody
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

namespace R2

/-- A column `[a, 1]` broadcast along the rows to `[a, b]` reads, at `(p, q)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The hidden activation at `(p, k)`: the aggregated entry scaled by its row's scale, plus the bias of column `k`,
    positive part. -/
theorem hidden_apply {a b : ℕ} (X : FVec Ideal ⟨2, ![a, b]⟩ .f32) (d : FVec Ideal ⟨2, ![a, 1]⟩ .f32) (bias : FVec Ideal ⟨2, ![1, b]⟩ .f32)
    (hX : (⟨2, ![a, b]⟩ : Shape).ShapeCasts ⟨2, ![a, b]⟩) (hd : (⟨2, ![a, 1]⟩ : Shape).ShapeCasts ⟨2, ![a, 1]⟩)
    (hdb : (⟨2, ![a, 1]⟩ : Shape).Broadcasts ⟨2, ![a, b]⟩)
    (hc : (⟨2, ![1, b]⟩ : Shape).ShapeCasts ⟨2, ![1, b]⟩) (hb : (⟨2, ![1, b]⟩ : Shape).Broadcasts ⟨2, ![a, b]⟩)
    (p : Fin a) (k : Fin b) :
    maximumf (addf (mulf (shapeCast ⟨2, ![a, b]⟩ X hX) (broadcastTo ⟨2, ![a, b]⟩ (shapeCast ⟨2, ![a, 1]⟩ d hd) hdb))
          (broadcastTo ⟨2, ![a, b]⟩ (shapeCast ⟨2, ![1, b]⟩ bias hc) hb))
        (broadcast ⟨2, ![a, b]⟩ (FloatOps.ofBits (F := Ideal) .f32 0x00000000#32)) (ix2 p k)
      = max (X (ix2 p k) * d (ix2 p (0 : Fin 1)) + bias (ix2 (0 : Fin 1) k)) 0 := by
  refine (Cert.DenseBody.relu_bias_row_apply _ bias hc hb p k).trans ?_
  show max ((shapeCast ⟨2, ![a, b]⟩ X hX) (ix2 p k) * (broadcastTo ⟨2, ![a, b]⟩ (shapeCast ⟨2, ![a, 1]⟩ d hd) hdb) (ix2 p k)
      + bias (ix2 (0 : Fin 1) k)) 0 = _
  rw [shapeCast_self, broadcastTo_a1_ab_apply, shapeCast_self]

/-- The body's stored value at `(p, q)`: row `p` of the hidden activations times column `q` of the weights, scaled by
    the row's entry of the scale column. -/
theorem pay_apply (x0 : Vec Ideal S5000x128 .f32) (x1 : Vec Ideal S5000x1 .f32) (x2 : Vec Ideal S1x128 .f32)
    (x3 : Vec Ideal S128x64 .f32) (x4 : Vec Ideal S5000x1 .f32) (p : Fin 5000) (q : Fin 64) :
    k2_pay1 x0 x1 x2 x3 x4 (ix2 p q)
      = (∑ k : Fin 128, max (x0 (ix2 p k) * x1 (ix2 p (0 : Fin 1)) + x2 (ix2 (0 : Fin 1) k)) 0 * x3 (ix2 k q))
          * x4 (ix2 p (0 : Fin 1)) := by
  unfold k2_pay1
  refine (congrArg₂ (fun (u w : EReal) => u * w)
    (MatmulForms.matmul_zero_mm_apply (N := 5000) (A := 128) (B := 64) dot_S5000x128_S128x64_S5000x64_1_0_0_1_n_n rfl rfl rfl rfl rfl rfl none _ _ p q)
    ((broadcastTo_a1_ab_apply (a := 5000) (b := 64) (shapeCast S5000x1 x4 shapeCasts_S5000x1_S5000x1) broadcasts_S5000x1_S5000x64 p q).trans
      (congrFun (shapeCast_self x4 shapeCasts_S5000x1_S5000x1) (ix2 p (0 : Fin 1))))).trans ?_
  refine congrArg (fun u : EReal => u * x4 (ix2 p (0 : Fin 1))) (Finset.sum_congr rfl fun k _ => ?_)
  refine congrArg₂ (fun (u w : EReal) => u * w) ?_ rfl
  exact hidden_apply (a := 5000) (b := 128) x0 x1 x2 _ _ _ _ _ p k

theorem hz : (![0, 0] : Fin 2 → Nat) = fun _ => 0 := funext fun a => by fin_cases a <;> rfl

/-- The index maps over the grid: the node-axis windows sit at block `(t, 0)`, the bias and the weights at block `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

variable (V : (c : Dev nD) → (b : Ref sig .tc) → Buf (Elt Ideal) ((c : Thread nD τ).loc b))

/-- The aggregated features, the per-node scale column, the bias row and the weights, as the region finds them. -/
abbrev agg (c : Dev nD) : S50000x128.Idx → EReal := V c main_v38
abbrev scale (c : Dev nD) : S50000x1.Idx → EReal := V c main_v15
abbrev bias (c : Dev nD) : S1x128.Idx → EReal := V c main_v39
abbrev wts (c : Dev nD) : S128x64.Idx → EReal := V c main_arg5

/-- The region's result as one function of its operand arrays: `(relu(agg · d + b) W)(n, f) · d(n)`. -/
abbrev G (c : Dev nD) : S50000x64.Idx → EReal :=
  GcnSpec.pre (N := 50000) (A := 128) (B := 64) (fun n : Fin 50000 => scale V c (ix2 n (0 : Fin 1)))
    (GcnSpec.posPart (N := 50000) (B := 128) (fun j => agg V c j * scale V c (ix2 (j 0) (0 : Fin 1)) + bias V c (ix2 (0 : Fin 1) (j 1))))
    (wts V c)

/-- Row `p` of the aggregated block at point `t` is row `5000 t + p` of the aggregated array. -/
theorem blk_agg (c : Dev nD) (t : Fin cfg2.N) (p : Fin 5000) (k : Fin 128) (r : Fin 50000) (hr : r.val = t.val * 5000 + p.val) :
    (iblk2 V c 0 t : Vec Ideal S5000x128 .f32) (ix2 p k) = agg V c (ix2 r k) := by
  obtain ⟨e0, e1, -⟩ := idx_facts t
  show agg V c (((cfg2.win 0).blk t).view.emb (ix2 p k)) = _
  refine congrArg _ (funext fun a => Fin.ext ?_)
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- Row `p` of the scale block at point `t` is row `5000 t + p` of the scale column. -/
theorem blk_scale (c : Dev nD) (t : Fin cfg2.N) (p : Fin 5000) (r : Fin 50000) (hr : r.val = t.val * 5000 + p.val) :
    (iblk2 V c 1 t : Vec Ideal S5000x1 .f32) (ix2 p (0 : Fin 1)) = scale V c (ix2 r (0 : Fin 1)) := by
  obtain ⟨-, -, e0, e1, -⟩ := idx_facts t
  show scale V c (((cfg2.win 1).blk t).view.emb (ix2 p (0 : Fin 1))) = _
  refine congrArg _ (funext fun a => Fin.ext ?_)
  match a with
  | ⟨0, _⟩ => show win2_1.index t (0 : Fin 2) * 5000 + 1 * p.val = r.val; rw [e0, hr]; omega
  | ⟨1, _⟩ => show win2_1.index t (1 : Fin 2) * 1 + 1 * 0 = 0; rw [e1]

/-- The bias block at any point is the bias row. -/
theorem blk_bias (c : Dev nD) (t : Fin cfg2.N) (k : Fin 128) :
    (iblk2 V c 2 t : Vec Ideal S1x128 .f32) (ix2 (0 : Fin 1) k) = bias V c (ix2 (0 : Fin 1) k) := by
  obtain ⟨-, -, -, -, e0, e1, -⟩ := idx_facts t
  show bias V c (((cfg2.win 2).blk t).view.emb (ix2 (0 : Fin 1) k)) = _
  refine congrArg _ (funext fun a => Fin.ext ?_)
  match a with
  | ⟨0, _⟩ => show win2_2.index t (0 : Fin 2) * 1 + 1 * 0 = 0; rw [e0]
  | ⟨1, _⟩ => show win2_2.index t (1 : Fin 2) * 128 + 1 * k.val = k.val; rw [e1]; omega

/-- The weight block at any point is the weight array. -/
theorem blk_wt (c : Dev nD) (t : Fin cfg2.N) (k : Fin 128) (q : Fin 64) :
    (iblk2 V c 3 t : Vec Ideal S128x64 .f32) (ix2 k q) = wts V c (ix2 k q) := by
  obtain ⟨-, -, -, -, -, -, e0, e1, -⟩ := idx_facts t
  show wts V c (((cfg2.win 3).blk t).view.emb (ix2 k q)) = _
  refine congrArg _ (funext fun a => Fin.ext ?_)
  match a with
  | ⟨0, _⟩ => show win2_3.index t (0 : Fin 2) * 128 + 1 * k.val = k.val; rw [e0]; omega
  | ⟨1, _⟩ => show win2_3.index t (1 : Fin 2) * 64 + 1 * q.val = q.val; rw [e1]; omega

/-- What point `t` writes back is block `t` of `G`. -/
theorem flushed_eq (c : Dev nD) (t : Fin cfg2.N) :
    (dat2 V c).flushed 4 t = ((cfg2.win 4).blk t).view.read (Elt Ideal) (G V c) := by
  show (cfg2.win 4).cut (grid2.coords t) ((dat2 V c).after 4 t) = _
  rw [after2_4]
  unfold out2_4
  rw [View.canon_unit_zero hz]
  simp only [View.ld_unit_zero (S := S5000x128) hz, View.ld_unit_zero (S := S128x64) hz, View.ld_unit_zero (S := S5000x1) hz,
    View.ld_unit_zero (S := S1x128) hz]
  obtain ⟨-, -, -, -, -, -, -, -, e0, e1⟩ := idx_facts t
  have hN : cfg2.N = 10 := N_2
  have ht : t.val < 10 := hN ▸ t.isLt
  refine funext fun (y : S5000x64.Idx) => ?_
  obtain ⟨p, q, rfl⟩ : ∃ (p : Fin 5000) (q : Fin 64), y = ix2 p q := ⟨y 0, y 1, eq_ix2 y⟩
  have hr : t.val * 5000 + p.val < 50000 := by have := p.isLt; omega
  have hemb : ((cfg2.win 4).blk t).view.emb (ix2 p q) = (ix2 (⟨t.val * 5000 + p.val, hr⟩ : Fin 50000) q : S50000x64.Idx) := by
    refine funext fun a => Fin.ext ?_
    match a with
    | ⟨0, _⟩ => show win2_4.index t (0 : Fin 2) * 5000 + 1 * p.val = t.val * 5000 + p.val; rw [e0]; omega
    | ⟨1, _⟩ => show win2_4.index t (1 : Fin 2) * 64 + 1 * q.val = q.val; rw [e1]; omega
  show k2_pay1 (iblk2 V c 0 t) (iblk2 V c 1 t) (iblk2 V c 2 t) (iblk2 V c 3 t) (iblk2 V c 1 t) (ix2 p q)
      = G V c (((cfg2.win 4).blk t).view.emb (ix2 p q))
  refine (pay_apply _ _ _ _ _ p q).trans ?_
  refine Eq.trans ?_ (congrArg (G V c) hemb).symm
  show _ = (∑ k : Fin 128, max (agg V c (ix2 (⟨t.val * 5000 + p.val, hr⟩ : Fin 50000) k)
        * scale V c (ix2 (⟨t.val * 5000 + p.val, hr⟩ : Fin 50000) (0 : Fin 1)) + bias V c (ix2 (0 : Fin 1) k)) 0 * wts V c (ix2 k q))
      * scale V c (ix2 (⟨t.val * 5000 + p.val, hr⟩ : Fin 50000) (0 : Fin 1))
  refine congrArg₂ (fun (u w : EReal) => u * w) (Finset.sum_congr rfl fun k _ => ?_) (blk_scale V c t p _ rfl)
  refine congrArg₂ (fun (u w : EReal) => u * w) ?_ (blk_wt V c t k q)
  refine congrArg (fun u : EReal => max u 0) ?_
  exact congrArg₂ (fun (u w : EReal) => u + w)
    (congrArg₂ (fun (u w : EReal) => u * w) (blk_agg V c t p k _ rfl) (blk_scale V c t p _ rfl)) (blk_bias V c t k)

/-- An index of the array is in point `t`'s block iff each coordinate is in the block's range on its axis. -/
theorem mem_blk (t : Fin cfg2.N) (i : S50000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v40).slice (win2_4.rect t)).set ↔ _
  rw [View.set_slice_whole, Rect.mem_set_unit]
  exact Iff.rfl

/-- Every index of the array is in the block of the point its row falls in. -/
theorem cover (i : S50000x64.Idx) : ∃ t : Fin cfg2.N, (cfg2.win 4).flush t = true ∧ i ∈ ((cfg2.win 4).blk t).view.set := by
  have hN : cfg2.N = 10 := N_2
  have hi0 : (i 0).val < 50000 := (i 0).isLt
  have hi1 : (i 1).val < 64 := (i 1).isLt
  have ht : (i 0).val / 5000 < cfg2.N := by rw [hN]; omega
  obtain ⟨-, -, -, -, -, -, -, -, e0, e1⟩ := idx_facts ⟨(i 0).val / 5000, ht⟩
  refine ⟨⟨(i 0).val / 5000, ht⟩, flush2_4 _, ?_⟩
  rw [mem_blk]
  intro a
  match a with
  | ⟨0, _⟩ =>
    show win2_4.index ⟨(i 0).val / 5000, ht⟩ (0 : Fin 2) * 5000 ≤ (i 0).val ∧ (i 0).val < win2_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_4.index ⟨(i 0).val / 5000, ht⟩ (1 : Fin 2) * 64 ≤ (i 1).val ∧ (i 1).val < win2_4.index ⟨(i 0).val / 5000, ht⟩ (1 : Fin 2) * 64 + 64
    rw [e1]; omega

end R2

variable (V : (c : Dev nD) → (b : Ref sig .tc) → Buf (Elt Ideal) ((c : Thread nD τ).loc b))

/-- REGION 2: the output array after the region is the hidden activations (the aggregated features scaled by the node's
    scale, plus the bias, positive part) times the weights, each row scaled by its node's scale. -/
theorem out2 (c : Dev nD) :
    ((dat2 V c).arrAt 4 cfg2.N : S50000x64.Idx → EReal)
      = GcnSpec.pre (N := 50000) (A := 128) (B := 64) (fun n : Fin 50000 => R2.scale V c (ix2 n (0 : Fin 1)))
          (GcnSpec.posPart (N := 50000) (B := 128)
            (fun j => R2.agg V c j * R2.scale V c (ix2 (j 0) (0 : Fin 1)) + R2.bias V c (ix2 (0 : Fin 1) (j 1))))
          (R2.wts V c) :=
  (dat2 V c).arrAt_eq_of_cover 4 (R2.G V c) (fun t _ => R2.flushed_eq V c t) R2.cover

/-- The same, with the four operand arrays named by what they are known to hold when the region is entered. -/
theorem out2_of (c : Dev nD) (X : S50000x128.Idx → EReal) (d : S50000x1.Idx → EReal) (b : S1x128.Idx → EReal) (W : S128x64.Idx → EReal)
    (hX : (V c main_v38 : S50000x128.Idx → EReal) = X) (hd : (V c main_v15 : S50000x1.Idx → EReal) = d)
    (hb : (V c main_v39 : S1x128.Idx → EReal) = b) (hW : (V c main_arg5 : S128x64.Idx → EReal) = W) :
    ((dat2 V c).arrAt 4 cfg2.N : S50000x64.Idx → EReal)
      = GcnSpec.pre (N := 50000) (A := 128) (B := 64) (fun n : Fin 50000 => d (ix2 n (0 : Fin 1)))
          (GcnSpec.posPart (N := 50000) (B := 128) (fun j => X j * d (ix2 (j 0) (0 : Fin 1)) + b (ix2 (0 : Fin 1) (j 1)))) W := by
  subst hX hd hb hW
  exact out2 V c

end Cert.KernelIdeal.RegionValue

end
-- ==== Proof.Region3.lean ====
/-
  Region 3 of the kernel program: the last layer's aggregated features scaled row by row by the node's scale, plus the
  bias row, then the row-wise log-softmax with the row's maximum subtracted first. The lane reductions read at an index,
  the body's stored value at an index, each window's block as rows of its array, the block every grid point writes back
  as a block of one function of the operand arrays, and the cover of the output array by those blocks.
-/
import proofs.«157919_j21165598834728_2_alg».proof.Proof.Gen.KernelIdeal.Frame
import proofs.«157919_j21165598834728_2_alg».proof.Proof.GcnSpec
import proofs.«157919_j21165598834728_2_alg».proof.Proof.LibMatmulForms
import proofs.«157919_j21165598834728_2_alg».proof.Proof.LibDenseBody
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

namespace R3

/-- A column `[a, 1]` broadcast along the rows to `[a, b]` reads, at `(p, q)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, 0)`, the vector's entry `p`. -/
theorem shapeCast_col_apply {α : Type} {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- The logits: the aggregated entry scaled by its row's scale, plus the bias of its column. -/
def logits (x0 : Vec Ideal S5000x64 .f32) (x1 : Vec Ideal S5000x1 .f32) (x2 : Vec Ideal S1x64 .f32) : FVec Ideal S5000x64 .f32 :=
  addf (mulf (shapeCast S5000x64 x0 shapeCasts_S5000x64_S5000x64)
      (broadcastTo S5000x64 (shapeCast S5000x1 x1 shapeCasts_S5000x1_S5000x1) broadcasts_S5000x1_S5000x64))
    (broadcastTo S5000x64 (shapeCast S1x64 x2 shapeCasts_S1x64_S1x64) broadcasts_S1x64_S5000x64)

/-- Each row's maximum, broadcast back along the row. -/
def rowMaxB (Zv : FVec Ideal S5000x64 .f32) : FVec Ideal S5000x64 .f32 :=
  broadcastTo S5000x64 (shapeCast S5000x1
    (multiReduction (F := Ideal) .maximumf [1] S5000 Zv 0xFF800000#32 reduces_S5000x64_S5000 (.inl rfl) rfl)
    shapeCasts_S5000_S5000x1) broadcasts_S5000x1_S5000x64

/-- The logarithm of each row's sum of exponentials, broadcast back along the row. -/
def logSumB (Dv : FVec Ideal S5000x64 .f32) : FVec Ideal S5000x64 .f32 :=
  broadcastTo S5000x64 (log (shapeCast S5000x1
    (multiReduction (F := Ideal) .add [1] S5000 (exp Dv) 0x00000000#32 reduces_S5000x64_S5000 (.inl rfl) rfl)
    shapeCasts_S5000_S5000x1)) broadcasts_S5000x1_S5000x64

/-- The body's stored value is the logits minus their row maxima, minus the log of the row sums of their exponentials. -/
theorem pay_eq (x0 : Vec Ideal S5000x64 .f32) (x1 : Vec Ideal S5000x1 .f32) (x2 : Vec Ideal S1x64 .f32) :
    k3_pay1 x0 x1 x2 = subf (subf (logits x0 x1 x2) (rowMaxB (logits x0 x1 x2)))
      (logSumB (subf (logits x0 x1 x2) (rowMaxB (logits x0 x1 x2)))) := rfl

theorem logits_apply (x0 : Vec Ideal S5000x64 .f32) (x1 : Vec Ideal S5000x1 .f32) (x2 : Vec Ideal S1x64 .f32)
    (p : Fin 5000) (q : Fin 64) :
    logits x0 x1 x2 (ix2 p q) = x0 (ix2 p q) * x1 (ix2 p (0 : Fin 1)) + x2 (ix2 (0 : Fin 1) q) := by
  unfold logits
  refine (Cert.DenseBody.add_bias_row_apply (a := 5000) (b := 64) _ x2 shapeCasts_S1x64_S1x64 broadcasts_S1x64_S5000x64 p q).trans ?_
  show (shapeCast S5000x64 x0 shapeCasts_S5000x64_S5000x64) (ix2 p q)
      * (broadcastTo S5000x64 (shapeCast S5000x1 x1 shapeCasts_S5000x1_S5000x1) broadcasts_S5000x1_S5000x64) (ix2 p q)
      + x2 (ix2 (0 : Fin 1) q) = _
  rw [shapeCast_self, broadcastTo_a1_ab_apply, shapeCast_self]

/-- The index a lane reduction reads over result row `p` at lane `c` is `(p, c)`. -/
theorem lift_eq (p : Fin 5000) (c : Fin 64) :
    reduces_S5000x64_S5000.lift (ix1 p) c = (ix2 p c : S5000x64.Idx) := by
  refine funext fun a => Fin.ext ?_
  match a with
  | ⟨0, _⟩ => rfl
  | ⟨1, _⟩ => rfl

theorem rowMaxB_apply (Zv : FVec Ideal S5000x64 .f32) (p : Fin 5000) (q : Fin 64) :
    rowMaxB Zv (ix2 p q)
      = (Finset.univ : Finset (Fin 64)).fold max (Ideal.ofBits .f32 0xFF800000#32) (fun c => Zv (ix2 p c)) := by
  unfold rowMaxB
  refine (broadcastTo_a1_ab_apply (a := 5000) (b := 64) _ broadcasts_S5000x1_S5000x64 p q).trans ?_
  refine (shapeCast_col_apply (a := 5000) _ shapeCasts_S5000_S5000x1 p).trans ?_
  refine (Ideal.multiReduction_maximumf_single Zv 0xFF800000#32 reduces_S5000x64_S5000 (.inl rfl) rfl (ix1 p)).trans ?_
  refine congrArg (fun f : Fin 64 → EReal => (Finset.univ : Finset (Fin 64)).fold max (Ideal.ofBits .f32 0xFF800000#32) f)
    (funext fun c => ?_)
  exact congrArg Zv (lift_eq p c)

theorem logSumB_apply (Dv : FVec Ideal S5000x64 .f32) (p : Fin 5000) (q : Fin 64) :
    logSumB Dv (ix2 p q) = Ideal.log (∑ c : Fin 64, Ideal.exp (Dv (ix2 p c))) := by
  unfold logSumB
  refine (broadcastTo_a1_ab_apply (a := 5000) (b := 64) _ broadcasts_S5000x1_S5000x64 p q).trans ?_
  show Ideal.log (shapeCast S5000x1
    (multiReduction (F := Ideal) .add [1] S5000 (exp Dv) 0x00000000#32 reduces_S5000x64_S5000 (.inl rfl) rfl)
    shapeCasts_S5000_S5000x1 (ix2 p (0 : Fin 1))) = _
  refine congrArg Ideal.log ?_
  refine (shapeCast_col_apply (a := 5000) _ shapeCasts_S5000_S5000x1 p).trans ?_
  refine (Ideal.multiReduction_add_single (exp Dv) 0x00000000#32 reduces_S5000x64_S5000 (.inl rfl) rfl (ix1 p)).trans ?_
  refine Finset.sum_congr rfl fun c _ => ?_
  show Ideal.exp (Dv (reduces_S5000x64_S5000.lift (ix1 p) c)) = _
  exact congrArg (fun j => Ideal.exp (Dv j)) (lift_eq p c)

/-- One row's log-softmax at column `q`, the row's maximum subtracted first. -/
def lsm (z : Fin 64 → EReal) (q : Fin 64) : EReal :=
  (z q - (Finset.univ : Finset (Fin 64)).fold max (Ideal.ofBits .f32 0xFF800000#32) z)
    - Ideal.log (∑ c : Fin 64, Ideal.exp (z c - (Finset.univ : Finset (Fin 64)).fold max (Ideal.ofBits .f32 0xFF800000#32) z))

/-- The body's stored value at `(p, q)`: the log-softmax of row `p` of the logits, at column `q`. -/
theorem pay_apply (x0 : Vec Ideal S5000x64 .f32) (x1 : Vec Ideal S5000x1 .f32) (x2 : Vec Ideal S1x64 .f32)
    (p : Fin 5000) (q : Fin 64) :
    k3_pay1 x0 x1 x2 (ix2 p q)
      = lsm (fun c => x0 (ix2 p c) * x1 (ix2 p (0 : Fin 1)) + x2 (ix2 (0 : Fin 1) c)) q := by
  rw [pay_eq]
  show (logits x0 x1 x2 (ix2 p q) - rowMaxB (logits x0 x1 x2) (ix2 p q))
      - logSumB (subf (logits x0 x1 x2) (rowMaxB (logits x0 x1 x2))) (ix2 p q) = _
  rw [logSumB_apply, rowMaxB_apply]
  have hz : (fun c : Fin 64 => logits x0 x1 x2 (ix2 p c))
      = fun c => x0 (ix2 p c) * x1 (ix2 p (0 : Fin 1)) + x2 (ix2 (0 : Fin 1) c) := funext fun c => logits_apply x0 x1 x2 p c
  have hs : (fun c : Fin 64 => Ideal.exp (subf (logits x0 x1 x2) (rowMaxB (logits x0 x1 x2)) (ix2 p c)))
      = fun c => Ideal.exp (logits x0 x1 x2 (ix2 p c)
          - (Finset.univ : Finset (Fin 64)).fold max (Ideal.ofBits .f32 0xFF800000#32) (fun c => logits x0 x1 x2 (ix2 p c))) :=
    funext fun c => congrArg Ideal.exp (by
      show logits x0 x1 x2 (ix2 p c) - rowMaxB (logits x0 x1 x2) (ix2 p c) = _
      rw [rowMaxB_apply])
  unfold lsm
  rw [← hz]
  show _ = (logits x0 x1 x2 (ix2 p q) - _) - Ideal.log (∑ c : Fin 64, (fun c : Fin 64 => Ideal.exp (logits x0 x1 x2 (ix2 p c)
          - (Finset.univ : Finset (Fin 64)).fold max (Ideal.ofBits .f32 0xFF800000#32) (fun c => logits x0 x1 x2 (ix2 p c)))) c)
  rw [← hs]

theorem hz0 : (![0, 0] : Fin 2 → Nat) = fun _ => 0 := funext fun a => by fin_cases a <;> rfl

/-- The index maps over the grid: the node-axis windows sit at block `(t, 0)`, the bias at block `(0, 0)`. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- The aggregated features, the per-node scale column and the bias row, as the region finds them. -/
abbrev agg (c : Dev nD) : S50000x64.Idx → EReal := V c main_v50
abbrev scale (c : Dev nD) : S50000x1.Idx → EReal := V c main_v15
abbrev bias (c : Dev nD) : S1x64.Idx → EReal := V c main_v51

/-- The region's result as one function of its operand arrays: the row-wise log-softmax of `agg · d + b`. -/
abbrev G (c : Dev nD) : S50000x64.Idx → EReal :=
  GcnSpec.logSoftmax (N := 50000) (B := 64) (Ideal.ofBits .f32 0xFF800000#32)
    (fun j => agg V c j * scale V c (ix2 (j 0) (0 : Fin 1)) + bias V c (ix2 (0 : Fin 1) (j 1)))

/-- Row `p` of the aggregated block at point `t` is row `5000 t + p` of the aggregated array. -/
theorem blk_agg (c : Dev nD) (t : Fin cfg3.N) (p : Fin 5000) (k : Fin 64) (r : Fin 50000) (hr : r.val = t.val * 5000 + p.val) :
    (iblk3 V c 0 t : Vec Ideal S5000x64 .f32) (ix2 p k) = agg V c (ix2 r k) := by
  obtain ⟨e0, e1, -⟩ := idx_facts t
  show agg V c (((cfg3.win 0).blk t).view.emb (ix2 p k)) = _
  refine congrArg _ (funext fun a => Fin.ext ?_)
  match a with
  | ⟨0, _⟩ => show win3_0.index t (0 : Fin 2) * 5000 + 1 * p.val = r.val; rw [e0, hr]; omega
  | ⟨1, _⟩ => show win3_0.index t (1 : Fin 2) * 64 + 1 * k.val = k.val; rw [e1]; omega

/-- Row `p` of the scale block at point `t` is row `5000 t + p` of the scale column. -/
theorem blk_scale (c : Dev nD) (t : Fin cfg3.N) (p : Fin 5000) (r : Fin 50000) (hr : r.val = t.val * 5000 + p.val) :
    (iblk3 V c 1 t : Vec Ideal S5000x1 .f32) (ix2 p (0 : Fin 1)) = scale V c (ix2 r (0 : Fin 1)) := by
  obtain ⟨-, -, e0, e1, -⟩ := idx_facts t
  show scale V c (((cfg3.win 1).blk t).view.emb (ix2 p (0 : Fin 1))) = _
  refine congrArg _ (funext fun a => Fin.ext ?_)
  match a with
  | ⟨0, _⟩ => show win3_1.index t (0 : Fin 2) * 5000 + 1 * p.val = r.val; rw [e0, hr]; omega
  | ⟨1, _⟩ => show win3_1.index t (1 : Fin 2) * 1 + 1 * 0 = 0; rw [e1]

/-- The bias block at any point is the bias row. -/
theorem blk_bias (c : Dev nD) (t : Fin cfg3.N) (k : Fin 64) :
    (iblk3 V c 2 t : Vec Ideal S1x64 .f32) (ix2 (0 : Fin 1) k) = bias V c (ix2 (0 : Fin 1) k) := by
  obtain ⟨-, -, -, -, e0, e1, -⟩ := idx_facts t
  show bias V c (((cfg3.win 2).blk t).view.emb (ix2 (0 : Fin 1) k)) = _
  refine congrArg _ (funext fun a => Fin.ext ?_)
  match a with
  | ⟨0, _⟩ => show win3_2.index t (0 : Fin 2) * 1 + 1 * 0 = 0; rw [e0]
  | ⟨1, _⟩ => show win3_2.index t (1 : Fin 2) * 64 + 1 * k.val = k.val; rw [e1]; omega

/-- What point `t` writes back is block `t` of `G`. -/
theorem flushed_eq (c : Dev nD) (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero hz0]
  simp only [View.ld_unit_zero (S := S5000x64) hz0, View.ld_unit_zero (S := S5000x1) hz0, View.ld_unit_zero (S := S1x64) hz0]
  obtain ⟨-, -, -, -, -, -, e0, e1⟩ := idx_facts t
  have hN : cfg3.N = 10 := N_3
  have ht : t.val < 10 := hN ▸ t.isLt
  refine funext fun (y : S5000x64.Idx) => ?_
  obtain ⟨p, q, rfl⟩ : ∃ (p : Fin 5000) (q : Fin 64), y = ix2 p q := ⟨y 0, y 1, eq_ix2 y⟩
  have hr : t.val * 5000 + p.val < 50000 := by have := p.isLt; omega
  have hemb : ((cfg3.win 3).blk t).view.emb (ix2 p q) = (ix2 (⟨t.val * 5000 + p.val, hr⟩ : Fin 50000) q : S50000x64.Idx) := by
    refine funext fun a => Fin.ext ?_
    match a with
    | ⟨0, _⟩ => show win3_3.index t (0 : Fin 2) * 5000 + 1 * p.val = t.val * 5000 + p.val; rw [e0]; omega
    | ⟨1, _⟩ => show win3_3.index t (1 : Fin 2) * 64 + 1 * q.val = q.val; rw [e1]; omega
  show k3_pay1 (iblk3 V c 0 t) (iblk3 V c 1 t) (iblk3 V c 2 t) (ix2 p q) = G V c (((cfg3.win 3).blk t).view.emb (ix2 p q))
  refine (pay_apply _ _ _ p q).trans ?_
  refine Eq.trans ?_ (congrArg (G V c) hemb).symm
  show _ = lsm (fun k => agg V c (ix2 (⟨t.val * 5000 + p.val, hr⟩ : Fin 50000) k)
      * scale V c (ix2 (⟨t.val * 5000 + p.val, hr⟩ : Fin 50000) (0 : Fin 1)) + bias V c (ix2 (0 : Fin 1) k)) q
  refine congrArg (fun z : Fin 64 → EReal => lsm z q) (funext fun k => ?_)
  exact congrArg₂ (fun (u w : EReal) => u + w)
    (congrArg₂ (fun (u w : EReal) => u * w) (blk_agg V c t p k _ rfl) (blk_scale V c t p _ rfl)) (blk_bias V c t k)

/-- An index of the array is in point `t`'s block iff each coordinate is in the block's range on its axis. -/
theorem mem_blk (t : Fin cfg3.N) (i : S50000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v52).slice (win3_3.rect t)).set ↔ _
  rw [View.set_slice_whole, Rect.mem_set_unit]
  exact Iff.rfl

/-- Every index of the array is in the block of the point its row falls in. -/
theorem cover (i : S50000x64.Idx) : ∃ t : Fin cfg3.N, (cfg3.win 3).flush t = true ∧ i ∈ ((cfg3.win 3).blk t).view.set := by
  have hN : cfg3.N = 10 := N_3
  have hi0 : (i 0).val < 50000 := (i 0).isLt
  have hi1 : (i 1).val < 64 := (i 1).isLt
  have ht : (i 0).val / 5000 < cfg3.N := by rw [hN]; omega
  obtain ⟨-, -, -, -, -, -, e0, e1⟩ := idx_facts ⟨(i 0).val / 5000, ht⟩
  refine ⟨⟨(i 0).val / 5000, ht⟩, flush3_3 _, ?_⟩
  rw [mem_blk]
  intro a
  match a with
  | ⟨0, _⟩ =>
    show win3_3.index ⟨(i 0).val / 5000, ht⟩ (0 : Fin 2) * 5000 ≤ (i 0).val ∧ (i 0).val < win3_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_3.index ⟨(i 0).val / 5000, ht⟩ (1 : Fin 2) * 64 ≤ (i 1).val ∧ (i 1).val < win3_3.index ⟨(i 0).val / 5000, ht⟩ (1 : Fin 2) * 64 + 64
    rw [e1]; omega

end R3

variable (V : (c : Dev nD) → (b : Ref sig .tc) → Buf (Elt Ideal) ((c : Thread nD τ).loc b))

/-- REGION 3: the output array after the region is the row-wise log-softmax of the aggregated features scaled by the
    node's scale plus the bias. -/
theorem out3 (c : Dev nD) :
    ((dat3 V c).arrAt 3 cfg3.N : S50000x64.Idx → EReal)
      = GcnSpec.logSoftmax (N := 50000) (B := 64) (Ideal.ofBits .f32 0xFF800000#32)
          (fun j => R3.agg V c j * R3.scale V c (ix2 (j 0) (0 : Fin 1)) + R3.bias V c (ix2 (0 : Fin 1) (j 1))) :=
  (dat3 V c).arrAt_eq_of_cover 3 (R3.G V c) (fun t _ => R3.flushed_eq V c t) R3.cover

/-- The same, with the three operand arrays named by what they are known to hold when the region is entered. -/
theorem out3_of (c : Dev nD) (X : S50000x64.Idx → EReal) (d : S50000x1.Idx → EReal) (b : S1x64.Idx → EReal)
    (hX : (V c main_v50 : S50000x64.Idx → EReal) = X) (hd : (V c main_v15 : S50000x1.Idx → EReal) = d)
    (hb : (V c main_v51 : S1x64.Idx → EReal) = b) :
    ((dat3 V c).arrAt 3 cfg3.N : S50000x64.Idx → EReal)
      = GcnSpec.logSoftmax (N := 50000) (B := 64) (Ideal.ofBits .f32 0xFF800000#32)
          (fun j => X j * d (ix2 (j 0) (0 : Fin 1)) + b (ix2 (0 : Fin 1) (j 1))) := by
  subst hX hd hb
  exact out3 V c

end Cert.KernelIdeal.RegionValue

end
-- ==== Proof.KernelNet.lean ====
/-
  The idealized kernel program's result as the three-layer network of the specification. Each region's output array is read
  as a function of the launch arrays: the first region leaves the scaled hidden features of the first layer; every stretch
  of host operations aggregates the previous region's output over the edges and views the layer's bias as a row; the next
  region scales, adds the bias, takes the positive part and applies the next layer's weights; the last region takes the
  row-wise log-softmax. The aggregation scaled by the node's own scale, plus the bias, is one layer of the specification.
-/
import proofs.«157919_j21165598834728_2_alg».proof.Proof.KernelValue
import proofs.«157919_j21165598834728_2_alg».proof.Proof.Region0
import proofs.«157919_j21165598834728_2_alg».proof.Proof.Region1
import proofs.«157919_j21165598834728_2_alg».proof.Proof.Region2
import proofs.«157919_j21165598834728_2_alg».proof.Proof.Region3
import proofs.«157919_j21165598834728_2_alg».proof.Proof.GcnSpec
import proofs.«157919_j21165598834728_2_alg».proof.Proof.GcnEdges
import proofs.«157919_j21165598834728_2_alg».proof.Proof.LibHostForms

set_option maxRecDepth 16384

noncomputable section

namespace Cert.KernelIdeal.GcnNet

open Cert.KernelIdeal Cert.KernelIdeal.Gen Cert.KernelIdeal.GcnValue Cert.KernelIdeal.RegionValue
open Idealize.ShloMosaic Idealize.ShloMosaic.TcCoe Idealize.SL.Sem Idealize.ShloMosaic.StableHlo
open Idealize.ShloMosaic.ValueIdx

/-! ## One layer -/

/-- The aggregation of the scaled hidden features, scaled by the node's own scale, plus the bias vector viewed as a row,
    is one layer of the specification. -/
theorem layer_eq {A B : ℕ} (row : Fin 850000 → Option (Fin 50000)) (src : Fin 850000 → Fin 50000) (dis : S50000x1.Idx → EReal)
    (X : GcnSpec.Mat 50000 A) (W : GcnSpec.Mat A B) (bv : (⟨1, ![B]⟩ : Shape).Idx → EReal)
    (hc : (⟨1, ![B]⟩ : Shape).ShapeCasts ⟨2, ![1, B]⟩) :
    (fun j : (⟨2, ![50000, B]⟩ : Shape).Idx =>
        GcnSpec.gs row src (GcnSpec.pre (fun n : Fin 50000 => dis (ix2 n (0 : Fin 1))) X W) j * dis (ix2 (j 0) (0 : Fin 1))
          + shapeCast ⟨2, ![1, B]⟩ bv hc (ix2 (0 : Fin 1) (j 1)))
      = GcnSpec.layK row src (fun n : Fin 50000 => dis (ix2 n (0 : Fin 1))) X W (fun q : Fin B => bv (ix1 q)) := by
  funext j
  exact congrArg (fun u : EReal =>
      GcnSpec.gs row src (GcnSpec.pre (fun n : Fin 50000 => dis (ix2 n (0 : Fin 1))) X W) j * dis (ix2 (j 0) (0 : Fin 1)) + u)
    (HostForms.cast_row_apply bv hc (j 1))

variable (m : (ℓ : Loc nD τ sig) → Buf (Elt Ideal) ℓ) (ρ : Dev nD → PrngReg)

/-! ## The launch arrays and the edge readings, with their literal types -/

/-- The node an edge lands on, read off its destination word; the node it reads, off its source word; a node's scale. -/
abbrev rowOf (d : S850000.Idx → BitVec 32) : Fin 850000 → Option (Fin 50000) := fun e => GcnEdges.rowW 50000 (d (ix1 e))
abbrev srcOf (s : S850000.Idx → BitVec 32) : Fin 850000 → Fin 50000 :=
  fun e => GcnEdges.nodeW (N := 50000) (by decide) 50000#32 (s (ix1 e))
abbrev disOf (dis : S50000x1.Idx → EReal) : Fin 50000 → EReal := fun n => dis (ix2 n (0 : Fin 1))

/-- The node features, and each layer's weights and bias, as launched. -/
abbrev feat (c : Dev nD) : S50000x128.Idx → EReal := m ((c : Thread nD τ).loc main_arg0)
abbrev wt1 (c : Dev nD) : S128x128.Idx → EReal := m ((c : Thread nD τ).loc main_arg1)
abbrev bv1 (c : Dev nD) : S128.Idx → EReal := m ((c : Thread nD τ).loc main_arg2)
abbrev wt2 (c : Dev nD) : S128x128.Idx → EReal := m ((c : Thread nD τ).loc main_arg3)
abbrev bv2 (c : Dev nD) : S128.Idx → EReal := m ((c : Thread nD τ).loc main_arg4)
abbrev wt3 (c : Dev nD) : S128x64.Idx → EReal := m ((c : Thread nD τ).loc main_arg5)
abbrev bv3 (c : Dev nD) : S64.Idx → EReal := m ((c : Thread nD τ).loc main_arg6)

/-- The three layers of the specification on the launch arrays. -/
abbrev lay1 (c : Dev nD) (s d : S850000.Idx → BitVec 32) (dis : S50000x1.Idx → EReal) : GcnSpec.Mat 50000 128 :=
  GcnSpec.layK (rowOf d) (srcOf s) (disOf dis) (feat m c) (wt1 m c) (fun q : Fin 128 => bv1 m c (ix1 q))
abbrev lay2 (c : Dev nD) (s d : S850000.Idx → BitVec 32) (dis : S50000x1.Idx → EReal) : GcnSpec.Mat 50000 128 :=
  GcnSpec.layK (rowOf d) (srcOf s) (disOf dis) (GcnSpec.posPart (lay1 m c s d dis)) (wt2 m c) (fun q : Fin 128 => bv2 m c (ix1 q))
abbrev lay3 (c : Dev nD) (s d : S850000.Idx → BitVec 32) (dis : S50000x1.Idx → EReal) : GcnSpec.Mat 50000 64 :=
  GcnSpec.layK (rowOf d) (srcOf s) (disOf dis) (GcnSpec.posPart (lay2 m c s d dis)) (wt3 m c) (fun q : Fin 64 => bv3 m c (ix1 q))

/-! ## The index words and the scale at every later boundary -/

theorem src_at4 (c : Dev nD) (s d : S850000.Idx → BitVec 32) (dis : S50000x1.Idx → EReal) (hs : (W1 m ρ c (Proc.devRef .tc main_v3) : S850000.Idx → BitVec 32) = s) :
    (W4 m ρ c (Proc.devRef .tc main_v3) : S850000.Idx → BitVec 32) = s := (keep_main_v3_4_1 m ρ c).trans hs
theorem dst_at4 (c : Dev nD) (s d : S850000.Idx → BitVec 32) (dis : S50000x1.Idx → EReal) (hd : (W1 m ρ c (Proc.devRef .tc main_v6) : S850000.Idx → BitVec 32) = d) :
    (W4 m ρ c (Proc.devRef .tc main_v6) : S850000.Idx → BitVec 32) = d := (keep_main_v6_4_1 m ρ c).trans hd
theorem src_at6 (c : Dev nD) (s d : S850000.Idx → BitVec 32) (dis : S50000x1.Idx → EReal) (hs : (W1 m ρ c (Proc.devRef .tc main_v3) : S850000.Idx → BitVec 32) = s) :
    (W6 m ρ c (Proc.devRef .tc main_v3) : S850000.Idx → BitVec 32) = s :=
  (keep_main_v3_6_4 m ρ c).trans (src_at4 m ρ c s d dis hs)
theorem dst_at6 (c : Dev nD) (s d : S850000.Idx → BitVec 32) (dis : S50000x1.Idx → EReal) (hd : (W1 m ρ c (Proc.devRef .tc main_v6) : S850000.Idx → BitVec 32) = d) :
    (W6 m ρ c (Proc.devRef .tc main_v6) : S850000.Idx → BitVec 32) = d :=
  (keep_main_v6_6_4 m ρ c).trans (dst_at4 m ρ c s d dis hd)
theorem src_at8 (c : Dev nD) (s d : S850000.Idx → BitVec 32) (dis : S50000x1.Idx → EReal) (hs : (W1 m ρ c (Proc.devRef .tc main_v3) : S850000.Idx → BitVec 32) = s) :
    (W8 m ρ c (Proc.devRef .tc main_v3) : S850000.Idx → BitVec 32) = s :=
  (keep_main_v3_8_6 m ρ c).trans (src_at6 m ρ c s d dis hs)
theorem dst_at8 (c : Dev nD) (s d : S850000.Idx → BitVec 32) (dis : S50000x1.Idx → EReal) (hd : (W1 m ρ c (Proc.devRef .tc main_v6) : S850000.Idx → BitVec 32) = d) :
    (W8 m ρ c (Proc.devRef .tc main_v6) : S850000.Idx → BitVec 32) = d :=
  (keep_main_v6_8_6 m ρ c).trans (dst_at6 m ρ c s d dis hd)
theorem scale_at5 (c : Dev nD) (s d : S850000.Idx → BitVec 32) (dis : S50000x1.Idx → EReal) (hdis : (W3 m ρ c (Proc.devRef .tc main_v15) : S50000x1.Idx → EReal) = dis) :
    (W5 m ρ c (Proc.devRef .tc main_v15) : S50000x1.Idx → EReal) = dis := (keep_main_v15_5_3 m ρ c).trans hdis
theorem scale_at7 (c : Dev nD) (s d : S850000.Idx → BitVec 32) (dis : S50000x1.Idx → EReal) (hdis : (W3 m ρ c (Proc.devRef .tc main_v15) : S50000x1.Idx → EReal) = dis) :
    (W7 m ρ c (Proc.devRef .tc main_v15) : S50000x1.Idx → EReal) = dis :=
  (keep_main_v15_7_5 m ρ c).trans (scale_at5 m ρ c s d dis hdis)
theorem scale_at9 (c : Dev nD) (s d : S850000.Idx → BitVec 32) (dis : S50000x1.Idx → EReal) (hdis : (W3 m ρ c (Proc.devRef .tc main_v15) : S50000x1.Idx → EReal) = dis) :
    (W9 m ρ c (Proc.devRef .tc main_v15) : S50000x1.Idx → EReal) = dis :=
  (keep_main_v15_9_7 m ρ c).trans (scale_at7 m ρ c s d dis hdis)

/-! ## Region by region -/

/-- Region 0 leaves the first layer's hidden features, each row scaled by its node's scale. -/
theorem region0_out (c : Dev nD) (s d : S850000.Idx → BitVec 32) (dis : S50000x1.Idx → EReal) (hdis : (W3 m ρ c (Proc.devRef .tc main_v15) : S50000x1.Idx → EReal) = dis) :
    (W4 m ρ c (Proc.devRef .tc main_v16) : S50000x128.Idx → EReal) = GcnSpec.pre (disOf dis) (feat m c) (wt1 m c) :=
  (W4_arr m ρ c 3).trans
    (out0_of (V3 m ρ) c (feat m c) (wt1 m c) dis (keep_main_arg0_3_0 m ρ c) (keep_main_arg1_3_0 m ρ c) hdis)

/-- The stretch before region 1 aggregates them over the edges. -/
theorem layer1_agg (c : Dev nD) (s d : S850000.Idx → BitVec 32) (dis : S50000x1.Idx → EReal)
    (hs : (W1 m ρ c (Proc.devRef .tc main_v3) : S850000.Idx → BitVec 32) = s)
    (hd : (W1 m ρ c (Proc.devRef .tc main_v6) : S850000.Idx → BitVec 32) = d)
    (hdis : (W3 m ρ c (Proc.devRef .tc main_v15) : S50000x1.Idx → EReal) = dis) :
    (W5 m ρ c (Proc.devRef .tc main_v26) : S50000x128.Idx → EReal)
      = GcnSpec.gs (rowOf d) (srcOf s) (GcnSpec.pre (disOf dis) (feat m c) (wt1 m c)) :=
  stretch1_agg m ρ c s d _ (src_at4 m ρ c s d dis hs) (dst_at4 m ρ c s d dis hd) (region0_out m ρ c s d dis hdis)

/-- Region 1 leaves the second layer's hidden features of the first layer's activations, each row scaled. -/
theorem region1_out (c : Dev nD) (s d : S850000.Idx → BitVec 32) (dis : S50000x1.Idx → EReal)
    (hs : (W1 m ρ c (Proc.devRef .tc main_v3) : S850000.Idx → BitVec 32) = s)
    (hd : (W1 m ρ c (Proc.devRef .tc main_v6) : S850000.Idx → BitVec 32) = d)
    (hdis : (W3 m ρ c (Proc.devRef .tc main_v15) : S50000x1.Idx → EReal) = dis) :
    (W6 m ρ c (Proc.devRef .tc main_v28) : S50000x128.Idx → EReal)
      = GcnSpec.pre (disOf dis) (GcnSpec.posPart (lay1 m c s d dis)) (wt2 m c) :=
  ((W6_arr m ρ c 4).trans
    (out1_of (V5 m ρ) c _ dis (shapeCast S1x128 (bv1 m c) shapeCasts_S128_S1x128) (wt2 m c)
      (layer1_agg m ρ c s d dis hs hd hdis) (scale_at5 m ρ c s d dis hdis)
      (stretch1_bias m ρ c (bv1 m c) (keep_main_arg2_4_0 m ρ c)) (keep_main_arg3_5_0 m ρ c))).trans
    (congrArg (fun Z : GcnSpec.Mat 50000 128 => GcnSpec.pre (disOf dis) (GcnSpec.posPart Z) (wt2 m c))
      (layer_eq (rowOf d) (srcOf s) dis (feat m c) (wt1 m c) (bv1 m c) shapeCasts_S128_S1x128))

/-- The stretch before region 2 aggregates them over the edges. -/
theorem layer2_agg (c : Dev nD) (s d : S850000.Idx → BitVec 32) (dis : S50000x1.Idx → EReal)
    (hs : (W1 m ρ c (Proc.devRef .tc main_v3) : S850000.Idx → BitVec 32) = s)
    (hd : (W1 m ρ c (Proc.devRef .tc main_v6) : S850000.Idx → BitVec 32) = d)
    (hdis : (W3 m ρ c (Proc.devRef .tc main_v15) : S50000x1.Idx → EReal) = dis) :
    (W7 m ρ c (Proc.devRef .tc main_v38) : S50000x128.Idx → EReal)
      = GcnSpec.gs (rowOf d) (srcOf s) (GcnSpec.pre (disOf dis) (GcnSpec.posPart (lay1 m c s d dis)) (wt2 m c)) :=
  stretch2_agg m ρ c s d _ (src_at6 m ρ c s d dis hs) (dst_at6 m ρ c s d dis hd) (region1_out m ρ c s d dis hs hd hdis)

/-- Region 2 leaves the third layer's hidden features of the second layer's activations, each row scaled. -/
theorem region2_out (c : Dev nD) (s d : S850000.Idx → BitVec 32) (dis : S50000x1.Idx → EReal)
    (hs : (W1 m ρ c (Proc.devRef .tc main_v3) : S850000.Idx → BitVec 32) = s)
    (hd : (W1 m ρ c (Proc.devRef .tc main_v6) : S850000.Idx → BitVec 32) = d)
    (hdis : (W3 m ρ c (Proc.devRef .tc main_v15) : S50000x1.Idx → EReal) = dis) :
    (W8 m ρ c (Proc.devRef .tc main_v40) : S50000x64.Idx → EReal)
      = GcnSpec.pre (disOf dis) (GcnSpec.posPart (lay2 m c s d dis)) (wt3 m c) :=
  ((W8_arr m ρ c 4).trans
    (out2_of (V7 m ρ) c _ dis (shapeCast S1x128 (bv2 m c) shapeCasts_S128_S1x128) (wt3 m c)
      (layer2_agg m ρ c s d dis hs hd hdis) (scale_at7 m ρ c s d dis hdis)
      (stretch2_bias m ρ c (bv2 m c) (keep_main_arg4_6_0 m ρ c)) (keep_main_arg5_7_0 m ρ c))).trans
    (congrArg (fun Z : GcnSpec.Mat 50000 128 => GcnSpec.pre (disOf dis) (GcnSpec.posPart Z) (wt3 m c))
      (layer_eq (rowOf d) (srcOf s) dis (GcnSpec.posPart (lay1 m c s d dis)) (wt2 m c) (bv2 m c) shapeCasts_S128_S1x128))

/-- The stretch before region 3 aggregates them over the edges. -/
theorem layer3_agg (c : Dev nD) (s d : S850000.Idx → BitVec 32) (dis : S50000x1.Idx → EReal)
    (hs : (W1 m ρ c (Proc.devRef .tc main_v3) : S850000.Idx → BitVec 32) = s)
    (hd : (W1 m ρ c (Proc.devRef .tc main_v6) : S850000.Idx → BitVec 32) = d)
    (hdis : (W3 m ρ c (Proc.devRef .tc main_v15) : S50000x1.Idx → EReal) = dis) :
    (W9 m ρ c (Proc.devRef .tc main_v50) : S50000x64.Idx → EReal)
      = GcnSpec.gs (rowOf d) (srcOf s) (GcnSpec.pre (disOf dis) (GcnSpec.posPart (lay2 m c s d dis)) (wt3 m c)) :=
  stretch3_agg m ρ c s d _ (src_at8 m ρ c s d dis hs) (dst_at8 m ρ c s d dis hd) (region2_out m ρ c s d dis hs hd hdis)

/-- Region 3 leaves the row-wise log-softmax of the third layer. -/
theorem region3_out (c : Dev nD) (s d : S850000.Idx → BitVec 32) (dis : S50000x1.Idx → EReal)
    (hs : (W1 m ρ c (Proc.devRef .tc main_v3) : S850000.Idx → BitVec 32) = s)
    (hd : (W1 m ρ c (Proc.devRef .tc main_v6) : S850000.Idx → BitVec 32) = d)
    (hdis : (W3 m ρ c (Proc.devRef .tc main_v15) : S50000x1.Idx → EReal) = dis) :
    (W10 m ρ c (Proc.devRef .tc main_v52) : S50000x64.Idx → EReal)
      = GcnSpec.logSoftmax (Ideal.ofBits .f32 0xFF800000#32) (lay3 m c s d dis) :=
  ((W10_arr m ρ c 3).trans
    (out3_of (V9 m ρ) c _ dis (shapeCast S1x64 (bv3 m c) shapeCasts_S64_S1x64)
      (layer3_agg m ρ c s d dis hs hd hdis) (scale_at9 m ρ c s d dis hdis)
      (stretch3_bias m ρ c (bv3 m c) (keep_main_arg6_8_0 m ρ c)))).trans
    (congrArg (fun Z : GcnSpec.Mat 50000 64 => GcnSpec.logSoftmax (Ideal.ofBits .f32 0xFF800000#32) Z)
      (layer_eq (rowOf d) (srcOf s) dis (GcnSpec.posPart (lay2 m c s d dis)) (wt3 m c) (bv3 m c) shapeCasts_S64_S1x64))

/-! ## The result -/

/-- THE RESULT ARRAY of the idealized kernel program is the specification's three-layer network, scale-first arrangement,
    on the launch arrays, the edges read off the two arrays of index words and the scale off the scale column. -/
theorem result_value (c : Dev nD) (s d : S850000.Idx → BitVec 32) (dis : S50000x1.Idx → EReal)
    (hs : (W1 m ρ c (Proc.devRef .tc main_v3) : S850000.Idx → BitVec 32) = s)
    (hd : (W1 m ρ c (Proc.devRef .tc main_v6) : S850000.Idx → BitVec 32) = d)
    (hdis : (W3 m ρ c (Proc.devRef .tc main_v15) : S50000x1.Idx → EReal) = dis) :
    (W10 m ρ c (Proc.devRef .tc main_v52) : S50000x64.Idx → EReal)
      = GcnSpec.outK (N := 50000) (E := 850000) (A0 := 128) (A1 := 128) (A2 := 128) (A3 := 64) (Ideal.ofBits .f32 0xFF800000#32)
          (fun e : Fin 850000 => GcnEdges.rowW 50000 (d (ix1 e)))
          (fun e : Fin 850000 => GcnEdges.nodeW (N := 50000) (by decide) 50000#32 (s (ix1 e)))
          (fun n : Fin 50000 => dis (ix2 n (0 : Fin 1)))
          (feat m c) (wt1 m c) (fun q : Fin 128 => bv1 m c (ix1 q))
          (wt2 m c) (fun q : Fin 128 => bv2 m c (ix1 q))
          (wt3 m c) (fun q : Fin 64 => bv3 m c (ix1 q)) :=
  region3_out m ρ c s d dis hs hd hdis

end Cert.KernelIdeal.GcnNet

end
-- ==== Proof.Bridge.lean ====
/-
  The two programs build the same index words and the same per-node scale. Before its first region the kernel's @main runs
  the very host operations the reference starts with: the source and destination words of every edge (the given edges
  followed by one self-loop per node), the degree of every node as a scatter-add of ones, and the scale
  `where (deg > 0, rsqrt deg, 0)`. So what the kernel's first region finds in those buffers are the reference's stages of the
  edge argument.
-/
import proofs.«157919_j21165598834728_2_alg».proof.Proof.Gen.KernelIdeal.Frame
import proofs.«157919_j21165598834728_2_alg».proof.Proof.RefReadP
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.GcnBridge

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx

variable (m : (ℓ : Loc nD τ sig) → Buf (Elt Ideal) ℓ) (ρ : Dev nD → PrngReg)

/-- The edge argument as the reference's stages take it. -/
abbrev edges (c : Dev nD) : (⟨Cert.ReferenceIdeal.S2x800000, .i32⟩ : BufTy).Contents (Elt Ideal) :=
  m ((c : Thread nD τ).loc main_arg7)

/-- The kernel's source words are the reference's. -/
theorem src_words (c : Dev nD) :
    (W1 m ρ c (Proc.devRef .tc main_v3) : S850000.Idx → BitVec 32) = Cert.ReferenceIdeal.ReadP.val_main_v3 (F := Ideal) (edges m c) := by
  show StableHlo.after hostOps0 (W0 m ρ c) (Proc.devRef .tc main_v3) = _
  after_results
  rfl

/-- The kernel's destination words are the reference's. -/
theorem dst_words (c : Dev nD) :
    (W1 m ρ c (Proc.devRef .tc main_v6) : S850000.Idx → BitVec 32) = Cert.ReferenceIdeal.ReadP.val_main_v6 (F := Ideal) (edges m c) := by
  show StableHlo.after hostOps0 (W0 m ρ c) (Proc.devRef .tc main_v6) = _
  after_results
  rfl

/-- The degree test `deg > 0`, as the reference's stage. -/
theorem deg_pos (c : Dev nD) :
    (W1 m ρ c (Proc.devRef .tc main_v12) : S50000.Idx → BitVec 1) = Cert.ReferenceIdeal.ReadP.val_main_v12 (F := Ideal) (edges m c) := by
  show StableHlo.after hostOps0 (W0 m ρ c) (Proc.devRef .tc main_v12) = _
  after_results
  rfl

/-- `rsqrt deg`, as the reference's stage. -/
theorem deg_rsqrt (c : Dev nD) :
    (W1 m ρ c (Proc.devRef .tc main_v13) : S50000.Idx → EReal) = Cert.ReferenceIdeal.ReadP.val_main_v13 (F := Ideal) (edges m c) := by
  show StableHlo.after hostOps0 (W0 m ρ c) (Proc.devRef .tc main_v13) = _
  after_results
  rfl

/-- The zero scalar of the `where`. -/
theorem where_zero (c : Dev nD) :
    (W1 m ρ c (Proc.devRef .tc main_cst_2) : S_.Idx → EReal) = Cert.ReferenceIdeal.ReadP.val_main_cst_2 (F := Ideal) := by
  show StableHlo.after hostOps0 (W0 m ρ c) (Proc.devRef .tc main_cst_2) = _
  after_results
  rfl

/-- The `where` of the kernel's @main, from any contents: the select of its three operands, the zero scalar broadcast. -/
theorem where_form (Wx : Valuation τ sig (Elt Ideal)) :
    (StableHlo.after hostOps0_1 Wx (Proc.devRef .tc main_v14) : S50000.Idx → EReal)
      = select (Wx (Proc.devRef .tc main_v12) : S50000.Idx → BitVec 1) (Wx (Proc.devRef .tc main_v13) : S50000.Idx → EReal)
          (broadcastInDim S50000 ![] bcast_S_S50000 (id (Wx (Proc.devRef .tc main_cst_2) : S_.Idx → EReal))) := by
  after_results
  rfl

/-- The reshape of the scale to a column, from any contents. -/
theorem column_form (Wy : Valuation τ sig (Elt Ideal)) :
    (StableHlo.after hostOps0_2 Wy (Proc.devRef .tc main_v15) : S50000x1.Idx → EReal)
      = shapeCast S50000x1 (Wy (Proc.devRef .tc main_v14) : S50000.Idx → EReal) shapeCasts_S50000_S50000x1 := by
  after_results
  rfl

/-- The per-node scale as a vector is the reference's stage `val_main_v14`. -/
theorem scale_vec (c : Dev nD) :
    (W2 m ρ c (Proc.devRef .tc main_v14) : S50000.Idx → EReal) = Cert.ReferenceIdeal.ReadP.val_main_v14 (F := Ideal) (edges m c) := by
  refine (where_form (W1 m ρ c)).trans ?_
  rw [deg_pos m ρ c, deg_rsqrt m ρ c, where_zero m ρ c]
  rfl

/-- The per-node scale as the column the regions read. -/
theorem scale_col (c : Dev nD) :
    (W3 m ρ c (Proc.devRef .tc main_v15) : S50000x1.Idx → EReal)
      = shapeCast S50000x1 (Cert.ReferenceIdeal.ReadP.val_main_v14 (F := Ideal) (edges m c)) shapeCasts_S50000_S50000x1 := by
  refine (column_form (W2 m ρ c)).trans ?_
  rw [scale_vec m ρ c]

/-- A vector `[a]` viewed as the column `[a, 1]` reads, at `(p, 0)`, the vector's entry `p`. -/
theorem col_apply {α : Type} {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

end Cert.KernelIdeal.GcnBridge

end
-- ==== Proof.LibFlatGather.lean ====
/-
  The host's gather of single entries of a flat array, read at one index, for arrays of any sizes: the gather
  `x[idx]` of a vector `x : [N]` at a column of start indices `idx : [E, 1]`, whose result `[E]` has at `e` the entry of
  `x` that start index `e` names. The start index is read as a signed integer and clamped into `[0, N − 1]`.
-/
import Idealize.ShloMosaic.Lib.ValueIdx
import Idealize.ShloMosaic.PureOps.Ideal

noncomputable section

namespace FlatGather

open Idealize.ShloMosaic Idealize.ShloMosaic.ValueIdx

variable {N E w : Nat}

/-- The dimension numbers of a gather of single entries: operand `[N]`, start indices `[E, 1]`, result `[E]`; there is
    no offset axis, operand axis 0 is collapsed and is the one the start index addresses; a slice is one entry. -/
abbrev flatGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

section Literal
variable (wf : GatherDims.WF ⟨1, ![N]⟩ ⟨2, ![E, 1]⟩ ⟨1, ![E]⟩ [] [0] [] [0] [] 1 ![1])

/-- THE FLAT GATHER READ AT `e`, for the literal dimension numbers: the operand at `idx[e, 0]`, read signed and clamped
    into `[0, N − 1]`. -/
theorem gather_flatDims {α : Type} (hN : 0 < N) (x : (⟨1, ![N]⟩ : Shape).Idx → α) (idx : IVec ⟨2, ![E, 1]⟩ w)
    (j : (⟨1, ![E]⟩ : Shape).Idx) :
    Host.gather (flatGatherDims N E wf) x idx j
      = x (ix1 ⟨min (idx (ix2 (j 0) 0)).toInt.toNat (N - 1), by omega⟩) := by
  unfold Host.gather
  congr 1
  funext a
  obtain rfl : a = 0 := Subsingleton.elim _ _
  refine Fin.ext ?_
  show (flatGatherDims N E wf).start j idx 0 + (flatGatherDims N E wf).batchCoord j 0
    + (flatGatherDims N E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N E wf).startIndexMap from List.mem_singleton.mpr rfl)]
  have hsi : (flatGatherDims N E wf).siIdx j ⟨List.idxOf (0 : Fin 1) (flatGatherDims N E wf).startIndexMap,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

end Literal

/-- THE FLAT GATHER READ AT `e`, for ANY dimension numbers with the flat gather's fields (a record given by its fields:
    the seven hypotheses then hold by `rfl`). The start index is read signed and clamped into `[0, N − 1]`. -/
theorem gather_flat {α : Type} (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (hN : 0 < N) (x : (⟨1, ![N]⟩ : Shape).Idx → α) (idx : IVec ⟨2, ![E, 1]⟩ w)
    (j : (⟨1, ![E]⟩ : Shape).Idx) :
    Host.gather d x idx j = x (ix1 ⟨min (idx (ix2 (j 0) 0)).toInt.toNat (N - 1), by omega⟩) := by
  obtain ⟨od, cs, ob, sb, sm, iv, ss, wf⟩ := d
  simp only at h1 h2 h3 h4 h5 h6 h7
  subst h1 h2 h3 h4 h5 h6 h7
  exact gather_flatDims wf hN x idx j

end FlatGather

end
-- ==== Proof.RefValue.lean ====
/-
  The reference program's result as a function of its arguments: a three-layer graph convolution followed by a row-wise
  log-softmax, in the edge-weight arrangement of the specification (`GcnSpec.outR`), on the edges the program's index words
  give. The layer, the positive part and the log-softmax are first read as whole-array equations for matrices of any sizes
  (the index columns and the edge weights kept as variables); the index words are then read off the program's stages
  (the scatter column holds the destination words; the gather columns hold the negative-index wrap of the source words;
  an edge's weight is the product of the per-node scale at the two nodes its words read); the stages are assembled last.
-/
import proofs.«157919_j21165598834728_2_alg».proof.Proof.RefReadP
import proofs.«157919_j21165598834728_2_alg».proof.Proof.GcnSpec
import proofs.«157919_j21165598834728_2_alg».proof.Proof.GcnEdges
import proofs.«157919_j21165598834728_2_alg».proof.Proof.LibRowGatherScatter
import proofs.«157919_j21165598834728_2_alg».proof.Proof.LibFlatGather
import proofs.«157919_j21165598834728_2_alg».proof.Proof.LibHostForms
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-! ## One layer, for matrices of any sizes -/

section Generic
variable {N E A B : Nat}

/-- A vector `[E]` made a column `[E, 1]` by a broadcast, read at `(e, 0)`. -/
theorem bcast_col_apply {α : Type} (v : (⟨1, ![E]⟩ : Shape).Idx → α)
    (h1 : (⟨1, ![E]⟩ : Shape).BroadcastsInDim ⟨2, ![E, 1]⟩ ![0]) (e : Fin E) (u : Fin 1) :
    broadcastInDim ⟨2, ![E, 1]⟩ ![0] h1 v (ix2 e u) = v (ix1 e) := by
  refine broadcastInDim_apply _ h1 v _ (ix1 e) (fun c => ?_)
  match c with
  | ⟨0, _⟩ =>
    show e.val = if E = 1 then 0 else e.val
    split_ifs with hE
    · have := e.isLt; omega
    · rfl

/-- A column `[E, 1]` repeated along the `B` columns of a matrix, read at `(e, c)`. -/
theorem bcast_cols_apply {α : Type} (v : (⟨2, ![E, 1]⟩ : Shape).Idx → α)
    (h2 : (⟨2, ![E, 1]⟩ : Shape).BroadcastsInDim ⟨2, ![E, B]⟩ ![0, 1]) (e : Fin E) (c : Fin B) :
    broadcastInDim ⟨2, ![E, B]⟩ ![0, 1] h2 v (ix2 e c) = v (ix2 e (0 : Fin 1)) := by
  refine broadcastInDim_apply _ h2 v _ (ix2 e (0 : Fin 1)) (fun a => ?_)
  match a with
  | ⟨0, _⟩ =>
    show e.val = if E = 1 then 0 else e.val
    split_ifs with hE
    · have := e.isLt; omega
    · rfl
  | ⟨1, _⟩ =>
    show (0 : ℕ) = if (1 : ℕ) = 1 then 0 else c.val
    rw [if_pos rfl]

/-- ONE LAYER. The scatter-add, into a zero matrix, of the gathered rows of `X W` each scaled by its edge's weight, plus
    the bias row: entry `(n, c)` is the sum over the edges `e` whose destination word names node `n` of
    `(X W)(src e, c) * nrm e`, plus `b c`; `src e` is the source word read signed and clamped into `[0, N - 1]`. -/
theorem layer_value (hN : 0 < N)
    (dd : DotDims ⟨2, ![N, A]⟩ ⟨2, ![A, B]⟩ ⟨2, ![N, B]⟩)
    (hd1 : dd.lhsContracting = [1]) (hd2 : dd.rhsContracting = [0]) (hd3 : dd.lhsNonContracting = [0])
    (hd4 : dd.rhsNonContracting = [1]) (hd5 : dd.lhsBatch = []) (hd6 : dd.rhsBatch = [])
    (gd : GatherDims ⟨2, ![N, B]⟩ ⟨2, ![E, 1]⟩ ⟨2, ![E, B]⟩)
    (hg1 : gd.offsetDims = [1]) (hg2 : gd.collapsedSliceDims = [0]) (hg3 : gd.operandBatchingDims = [])
    (hg4 : gd.startIndicesBatchingDims = []) (hg5 : gd.startIndexMap = [0]) (hg6 : gd.indexVectorDim = 1)
    (hg7 : gd.sliceSizes = ![1, B])
    (sd : ScatterDims ⟨2, ![N, B]⟩ ⟨2, ![E, 1]⟩ ⟨2, ![E, B]⟩)
    (hs1 : sd.updateWindowDims = [1]) (hs2 : sd.insertedWindowDims = [0]) (hs3 : sd.scatterDimsToOperandDims = [0])
    (hs4 : sd.indexVectorDim = 1)
    (hz : (⟨0, ![]⟩ : Shape).BroadcastsInDim ⟨2, ![N, B]⟩ ![])
    (hn1 : (⟨1, ![E]⟩ : Shape).BroadcastsInDim ⟨2, ![E, 1]⟩ ![0])
    (hn2 : (⟨2, ![E, 1]⟩ : Shape).BroadcastsInDim ⟨2, ![E, B]⟩ ![0, 1])
    (hb1 : (⟨1, ![B]⟩ : Shape).BroadcastsInDim ⟨2, ![1, B]⟩ ![1])
    (hb2 : (⟨2, ![1, B]⟩ : Shape).BroadcastsInDim ⟨2, ![N, B]⟩ ![0, 1])
    (X : FVec Ideal ⟨2, ![N, A]⟩ .f32) (W : FVec Ideal ⟨2, ![A, B]⟩ .f32) (b : FVec Ideal ⟨1, ![B]⟩ .f32)
    (dcol srcol : IVec ⟨2, ![E, 1]⟩ 32) (nrm : FVec Ideal ⟨1, ![E]⟩ .f32) :
    addf (Host.scatterAdd (F := Ideal) sd
        (broadcastInDim ⟨2, ![N, B]⟩ ![] hz (constant (F := Ideal) ⟨0, ![]⟩ .f32 0x00000000#32)) dcol
        (mulf (Host.gather gd (Host.dotGeneral (F := Ideal) dd none X W) srcol)
          (broadcastInDim ⟨2, ![E, B]⟩ ![0, 1] hn2 (broadcastInDim ⟨2, ![E, 1]⟩ ![0] hn1 nrm))))
      (broadcastInDim ⟨2, ![N, B]⟩ ![0, 1] hb2 (broadcastInDim ⟨2, ![1, B]⟩ ![1] hb1 b))
    = fun i => (∑ e : Fin E, if RowGatherScatter.rowOf dcol e = (some (i 0) : Option (Fin N))
          then ChebAlgebra.mm X W (ix2 ⟨min (srcol (ix2 e 0)).toInt.toNat (N - 1), by omega⟩ (i 1)) * nrm (ix1 e)
          else 0) + b (ix1 (i 1)) := by
  funext i
  obtain ⟨n, c, rfl⟩ : ∃ (n : Fin N) (c : Fin B), i = ix2 n c := ⟨i 0, i 1, eq_ix2 i⟩
  rw [HostForms.bias_bcast_bcast, HostForms.bcast_constant, HostForms.dotGeneral_eq_mm dd hd1 hd2 hd3 hd4 hd5 hd6 none X W]
  show Host.scatterAdd (F := Ideal) sd (fun _ => Ideal.ofBits .f32 0x00000000#32) dcol _ (ix2 n c) + b (ix1 c)
    = (∑ e : Fin E, if RowGatherScatter.rowOf dcol e = some n
          then ChebAlgebra.mm X W (ix2 ⟨min (srcol (ix2 e 0)).toInt.toNat (N - 1), by omega⟩ c) * nrm (ix1 e)
          else 0) + b (ix1 c)
  rw [RowGatherScatter.scatterAdd_rows_ix2 sd hs1 hs2 hs3 hs4, Ideal.ofBits_zero_f32, zero_add]
  refine congrArg (· + b (ix1 c)) (Finset.sum_congr rfl fun e _ => ?_)
  refine if_congr Iff.rfl ?_ rfl
  show Host.gather gd (ChebAlgebra.mm X W) srcol (ix2 e c)
      * broadcastInDim ⟨2, ![E, B]⟩ ![0, 1] hn2 (broadcastInDim ⟨2, ![E, 1]⟩ ![0] hn1 nrm) (ix2 e c) = _
  rw [RowGatherScatter.gather_rows gd hg1 hg2 hg3 hg4 hg5 hg6 hg7 hN, bcast_cols_apply, bcast_col_apply]
  rfl

end Generic

/-! ## The positive part and the row-wise log-softmax, for matrices of any sizes -/

section Generic2
variable {N B : Nat}

/-- The maximum with a broadcast zero is the positive part. -/
theorem relu_value (hz : (⟨0, ![]⟩ : Shape).BroadcastsInDim ⟨2, ![N, B]⟩ ![]) (Z : FVec Ideal ⟨2, ![N, B]⟩ .f32) :
    maximumf Z (broadcastInDim ⟨2, ![N, B]⟩ ![] hz (constant (F := Ideal) ⟨0, ![]⟩ .f32 0x00000000#32))
      = GcnSpec.posPart Z := by
  rw [HostForms.bcast_constant, Ideal.ofBits_zero_f32]
  rfl

/-- The source index over row `j` with column `k` inserted is `(j, k)`. -/
theorem lift_row (h : (⟨2, ![N, B]⟩ : Shape).Reduces [1] ⟨1, ![N]⟩) (j : (⟨1, ![N]⟩ : Shape).Idx) (k : Fin B) :
    h.lift j k = ix2 (j 0) k := by
  funext c
  match c with
  | ⟨0, _⟩ => exact Fin.ext rfl
  | ⟨1, _⟩ => exact Fin.ext rfl

/-- The maximum-reduce of the rows from the word `w`'s value, then the maximum with that value again: the fold of `max`
    over each row from that value. -/
theorem rowMax_value (h' : (⟨2, ![N, B]⟩ : Shape).ReducesTo [1] ⟨1, ![N]⟩)
    (h : (⟨2, ![N, B]⟩ : Shape).Reduces [1] ⟨1, ![N]⟩) (hu : 0 < (⟨0, ![]⟩ : Shape).numel)
    (hz : (⟨0, ![]⟩ : Shape).BroadcastsInDim ⟨1, ![N]⟩ ![]) (w : BitVec 32) (v : FVec Ideal ⟨2, ![N, B]⟩ .f32) :
    maximumf (broadcastInDim ⟨1, ![N]⟩ ![] hz (constant (F := Ideal) ⟨0, ![]⟩ .f32 w))
        (Host.reduce (FloatOps.maximumf (F := Ideal) (φ := .f32)) v (constant (F := Ideal) ⟨0, ![]⟩ .f32 w) h' hu)
      = fun j => GcnSpec.rowMax (Ideal.ofBits .f32 w) v (j 0) := by
  funext j
  rw [HostForms.bcast_constant]
  show max (Ideal.ofBits .f32 w)
      (Host.reduce (FloatOps.maximumf (F := Ideal) (φ := .f32)) v (constant (F := Ideal) ⟨0, ![]⟩ .f32 w) h' hu j) = _
  rw [Host.reduce_eq_fold_single _ v _ h' h hu j]
  have hl : (v ∘ h.lift j) = fun c : Fin B => v (ix2 (j 0) c) := by
    funext k
    exact congrArg v (lift_row h j k)
  rw [hl]
  have hle : Ideal.ofBits .f32 w
      ≤ (Finset.univ : Finset (Fin B)).fold max (Ideal.ofBits .f32 w) (fun c => v (ix2 (j 0) c)) :=
    (Finset.le_fold_max _).2 (Or.inl le_rfl)
  exact max_eq_right hle

/-- A per-row array made a column, its logarithm taken, repeated along the columns: entry `(n, c)` is `log (S n)`. -/
theorem bcast_log (h1 : (⟨1, ![N]⟩ : Shape).BroadcastsInDim ⟨2, ![N, 1]⟩ ![0])
    (h2 : (⟨2, ![N, 1]⟩ : Shape).BroadcastsInDim ⟨2, ![N, B]⟩ ![0, 1]) (S : FVec Ideal ⟨1, ![N]⟩ .f32) :
    broadcastInDim ⟨2, ![N, B]⟩ ![0, 1] h2 (Host.log (broadcastInDim ⟨2, ![N, 1]⟩ ![0] h1 S))
      = fun i => Ideal.log (S (ix1 (i 0))) := by
  funext i
  obtain ⟨n, c, rfl⟩ : ∃ (n : Fin N) (c : Fin B), i = ix2 n c := ⟨i 0, i 1, eq_ix2 i⟩
  rw [bcast_cols_apply]
  show Ideal.log (broadcastInDim ⟨2, ![N, 1]⟩ ![0] h1 S (ix2 n (0 : Fin 1))) = _
  rw [bcast_col_apply]
  rfl

/-- A per-row array made a column and repeated along the columns: entry `(n, c)` is `M n`. -/
theorem bcast_rowwise (h1 : (⟨1, ![N]⟩ : Shape).BroadcastsInDim ⟨2, ![N, 1]⟩ ![0])
    (h2 : (⟨2, ![N, 1]⟩ : Shape).BroadcastsInDim ⟨2, ![N, B]⟩ ![0, 1]) {α : Type} (M : (⟨1, ![N]⟩ : Shape).Idx → α) :
    broadcastInDim ⟨2, ![N, B]⟩ ![0, 1] h2 (broadcastInDim ⟨2, ![N, 1]⟩ ![0] h1 M) = fun i => M (ix1 (i 0)) := by
  funext i
  obtain ⟨n, c, rfl⟩ : ∃ (n : Fin N) (c : Fin B), i = ix2 n c := ⟨i 0, i 1, eq_ix2 i⟩
  rw [bcast_cols_apply, bcast_col_apply]
  rfl

/-- The host's float sum of each row from a zero constant: entry `j` is the sum of row `j`. -/
theorem rowSum_value (h' : (⟨2, ![N, B]⟩ : Shape).ReducesTo [1] ⟨1, ![N]⟩)
    (h : (⟨2, ![N, B]⟩ : Shape).Reduces [1] ⟨1, ![N]⟩) (hu : 0 < (⟨0, ![]⟩ : Shape).numel)
    (Y : FVec Ideal ⟨2, ![N, B]⟩ .f32) :
    Host.reduceAdd Y (constant (F := Ideal) ⟨0, ![]⟩ .f32 0x00000000#32) h' hu
      = fun j => ∑ k : Fin B, Y (ix2 (j 0) k) := by
  funext j
  simp only [Host.reduceAdd, Ideal.hostReduceAdd_def]
  rw [Ideal.hostReduceAdd_single h' h]
  show Ideal.ofBits .f32 0x00000000#32 + ∑ k : Fin B, Y (h.lift j k) = _
  rw [Ideal.ofBits_zero_f32, zero_add]
  exact Finset.sum_congr rfl fun k _ => congrArg Y (lift_row h j k)

/-- The log-softmax's arithmetic around a per-row shift `M`: `(v - M) - log Σ_c exp (v(r, c) - M r)`. -/
theorem logSoftmax_core (h' : (⟨2, ![N, B]⟩ : Shape).ReducesTo [1] ⟨1, ![N]⟩)
    (h : (⟨2, ![N, B]⟩ : Shape).Reduces [1] ⟨1, ![N]⟩) (hu : 0 < (⟨0, ![]⟩ : Shape).numel)
    (h1 : (⟨1, ![N]⟩ : Shape).BroadcastsInDim ⟨2, ![N, 1]⟩ ![0])
    (h2 : (⟨2, ![N, 1]⟩ : Shape).BroadcastsInDim ⟨2, ![N, B]⟩ ![0, 1])
    (M : FVec Ideal ⟨1, ![N]⟩ .f32) (v : FVec Ideal ⟨2, ![N, B]⟩ .f32) :
    subf (subf v (broadcastInDim ⟨2, ![N, B]⟩ ![0, 1] h2 (broadcastInDim ⟨2, ![N, 1]⟩ ![0] h1 M)))
        (broadcastInDim ⟨2, ![N, B]⟩ ![0, 1] h2 (Host.log (broadcastInDim ⟨2, ![N, 1]⟩ ![0] h1
          (Host.reduceAdd (Host.exp (subf v (broadcastInDim ⟨2, ![N, B]⟩ ![0, 1] h2 (broadcastInDim ⟨2, ![N, 1]⟩ ![0] h1 M))))
            (constant (F := Ideal) ⟨0, ![]⟩ .f32 0x00000000#32) h' hu))))
      = fun i => (v i - M (ix1 (i 0))) - Ideal.log (∑ c : Fin B, Ideal.exp (v (ix2 (i 0) c) - M (ix1 (i 0)))) := by
  rw [bcast_rowwise h1 h2 M, bcast_log h1 h2, rowSum_value h' h hu]
  rfl

/-- THE LOG-SOFTMAX of the rows of `v`, as the host computes it: the row maxima (from the word `w`'s value), the
    shifted entries, their exponentials' row sums, the logarithm. -/
theorem logSoftmax_value (h' : (⟨2, ![N, B]⟩ : Shape).ReducesTo [1] ⟨1, ![N]⟩)
    (h : (⟨2, ![N, B]⟩ : Shape).Reduces [1] ⟨1, ![N]⟩) (hu : 0 < (⟨0, ![]⟩ : Shape).numel)
    (hz : (⟨0, ![]⟩ : Shape).BroadcastsInDim ⟨1, ![N]⟩ ![])
    (h1 : (⟨1, ![N]⟩ : Shape).BroadcastsInDim ⟨2, ![N, 1]⟩ ![0])
    (h2 : (⟨2, ![N, 1]⟩ : Shape).BroadcastsInDim ⟨2, ![N, B]⟩ ![0, 1])
    (w : BitVec 32) (v : FVec Ideal ⟨2, ![N, B]⟩ .f32) (M : FVec Ideal ⟨1, ![N]⟩ .f32)
    (hMdef : M = maximumf (broadcastInDim ⟨1, ![N]⟩ ![] hz (constant (F := Ideal) ⟨0, ![]⟩ .f32 w))
        (Host.reduce (FloatOps.maximumf (F := Ideal) (φ := .f32)) v (constant (F := Ideal) ⟨0, ![]⟩ .f32 w) h' hu)) :
    subf (subf v (broadcastInDim ⟨2, ![N, B]⟩ ![0, 1] h2 (broadcastInDim ⟨2, ![N, 1]⟩ ![0] h1 M)))
        (broadcastInDim ⟨2, ![N, B]⟩ ![0, 1] h2 (Host.log (broadcastInDim ⟨2, ![N, 1]⟩ ![0] h1
          (Host.reduceAdd (Host.exp (subf v (broadcastInDim ⟨2, ![N, B]⟩ ![0, 1] h2 (broadcastInDim ⟨2, ![N, 1]⟩ ![0] h1 M))))
            (constant (F := Ideal) ⟨0, ![]⟩ .f32 0x00000000#32) h' hu))))
      = GcnSpec.logSoftmax (Ideal.ofBits .f32 w) v := by
  rw [logSoftmax_core h' h hu h1 h2 M v, hMdef, rowMax_value h' h hu hz w v]
  rfl

end Generic2

/-! ## Index words -/

section Words
variable {N E A B : Nat}

/-- A scatter's row, read off a column of index words, is the row the word names. -/
theorem rowOf_eq_rowW (idx : IVec ⟨2, ![E, 1]⟩ 32) (e : Fin E) (w : BitVec 32) (hw : idx (ix2 e 0) = w) :
    RowGatherScatter.rowOf (N := N) idx e = GcnEdges.rowW N w := by
  subst hw
  rfl

/-- A gather's clamped start index, read off a column holding the wrapped word, is the node the word reads. -/
theorem node_eq (hN : 0 < N) (srcol : IVec ⟨2, ![E, 1]⟩ 32) (e : Fin E) (n w : BitVec 32)
    (h : srcol (ix2 e 0) = GcnEdges.wrapW n w) :
    (⟨min (srcol (ix2 e 0)).toInt.toNat (N - 1), by omega⟩ : Fin N) = GcnEdges.nodeW hN n w := by
  refine Fin.ext ?_
  show min (srcol (ix2 e 0)).toInt.toNat (N - 1) = min (GcnEdges.wrapW n w).toInt.toNat (N - 1)
  rw [h]

/-- The negative-index wrap of a vector of index words, made a column: entry `(e, 0)` is the wrap of word `e`. -/
theorem wrap_col_apply (h1 : (⟨1, ![E]⟩ : Shape).BroadcastsInDim ⟨2, ![E, 1]⟩ ![0])
    (hz : (⟨0, ![]⟩ : Shape).BroadcastsInDim ⟨1, ![E]⟩ ![]) (n : BitVec 32) (w : IVec ⟨1, ![E]⟩ 32) (e : Fin E) (u : Fin 1) :
    broadcastInDim ⟨2, ![E, 1]⟩ ![0] h1
        (select (cmpi .slt w (broadcastInDim ⟨1, ![E]⟩ ![] hz (constantI ⟨0, ![]⟩ 32 0#32)))
          (addi w (broadcastInDim ⟨1, ![E]⟩ ![] hz (constantI ⟨0, ![]⟩ 32 n))) w) (ix2 e u)
      = GcnEdges.wrapW n (w (ix1 e)) := by
  rw [bcast_col_apply, HostForms.bcast_scalar, HostForms.bcast_scalar]
  rfl

/-- A flat gather at the wrapped words: entry `e` is the operand at the node word `e` reads. -/
theorem flat_gather_wrap (hN : 0 < N) (gd : GatherDims ⟨1, ![N]⟩ ⟨2, ![E, 1]⟩ ⟨1, ![E]⟩)
    (g1 : gd.offsetDims = []) (g2 : gd.collapsedSliceDims = [0]) (g3 : gd.operandBatchingDims = [])
    (g4 : gd.startIndicesBatchingDims = []) (g5 : gd.startIndexMap = [0]) (g6 : gd.indexVectorDim = 1)
    (g7 : gd.sliceSizes = ![1])
    (h1 : (⟨1, ![E]⟩ : Shape).BroadcastsInDim ⟨2, ![E, 1]⟩ ![0])
    (hz : (⟨0, ![]⟩ : Shape).BroadcastsInDim ⟨1, ![E]⟩ ![]) (n : BitVec 32) {α : Type} (x : (⟨1, ![N]⟩ : Shape).Idx → α)
    (w : IVec ⟨1, ![E]⟩ 32) (e : Fin E) :
    Host.gather gd x (broadcastInDim ⟨2, ![E, 1]⟩ ![0] h1
        (select (cmpi .slt w (broadcastInDim ⟨1, ![E]⟩ ![] hz (constantI ⟨0, ![]⟩ 32 0#32)))
          (addi w (broadcastInDim ⟨1, ![E]⟩ ![] hz (constantI ⟨0, ![]⟩ 32 n))) w)) (ix1 e)
      = x (ix1 (GcnEdges.nodeW hN n (w (ix1 e)))) := by
  rw [FlatGather.gather_flat gd g1 g2 g3 g4 g5 g6 g7 hN]
  exact congrArg (fun k => x (ix1 k)) (node_eq hN _ e n (w (ix1 e)) (wrap_col_apply h1 hz n w e 0))

/-- The layer's sum, with its index columns and edge weights read as words: the edge-weight layer of the specification. -/
theorem layer_spec (hN : 0 < N) (n : BitVec 32) (X : GcnSpec.Mat N A) (W : GcnSpec.Mat A B)
    (b : (⟨1, ![B]⟩ : Shape).Idx → EReal) (dcol srcol : IVec ⟨2, ![E, 1]⟩ 32) (nrm : (⟨1, ![E]⟩ : Shape).Idx → EReal)
    (ws wd : Fin E → BitVec 32) (dis : Fin N → EReal)
    (hd : ∀ e, dcol (ix2 e 0) = wd e) (hs : ∀ e, srcol (ix2 e 0) = GcnEdges.wrapW n (ws e))
    (hn : ∀ e, nrm (ix1 e) = dis (GcnEdges.nodeW hN n (ws e)) * dis (GcnEdges.nodeW hN n (wd e))) :
    (fun i : (⟨2, ![N, B]⟩ : Shape).Idx =>
        (∑ e : Fin E, if RowGatherScatter.rowOf dcol e = (some (i 0) : Option (Fin N))
          then ChebAlgebra.mm X W (ix2 ⟨min (srcol (ix2 e 0)).toInt.toNat (N - 1), by omega⟩ (i 1)) * nrm (ix1 e)
          else 0) + b (ix1 (i 1)))
      = GcnSpec.layR (fun e => GcnEdges.rowW N (wd e)) (fun e => GcnEdges.nodeW hN n (ws e))
          (fun e => GcnEdges.nodeW hN n (wd e)) dis X W (fun c => b (ix1 c)) := by
  funext i
  unfold GcnSpec.layR
  refine congrArg (· + b (ix1 (i 1))) (Finset.sum_congr rfl fun e _ => ?_)
  rw [rowOf_eq_rowW dcol e (wd e) (hd e), node_eq hN srcol e n (ws e) (hs e), hn e]

end Words

section Words2
variable {N E : Nat}

/-- The product of two flat gathers of one array at the wrapped words of two word vectors: entry `e` is the product of
    the array at the two nodes the words read. -/
theorem nrm_generic (hN : 0 < N) (gd : GatherDims ⟨1, ![N]⟩ ⟨2, ![E, 1]⟩ ⟨1, ![E]⟩)
    (g1 : gd.offsetDims = []) (g2 : gd.collapsedSliceDims = [0]) (g3 : gd.operandBatchingDims = [])
    (g4 : gd.startIndicesBatchingDims = []) (g5 : gd.startIndexMap = [0]) (g6 : gd.indexVectorDim = 1)
    (g7 : gd.sliceSizes = ![1])
    (h1 : (⟨1, ![E]⟩ : Shape).BroadcastsInDim ⟨2, ![E, 1]⟩ ![0])
    (hz : (⟨0, ![]⟩ : Shape).BroadcastsInDim ⟨1, ![E]⟩ ![]) (n : BitVec 32) (x : FVec Ideal ⟨1, ![N]⟩ .f32)
    (ws wd : IVec ⟨1, ![E]⟩ 32) (e : Fin E) :
    mulf
        (Host.gather gd x (broadcastInDim ⟨2, ![E, 1]⟩ ![0] h1
          (select (cmpi .slt ws (broadcastInDim ⟨1, ![E]⟩ ![] hz (constantI ⟨0, ![]⟩ 32 0#32)))
            (addi ws (broadcastInDim ⟨1, ![E]⟩ ![] hz (constantI ⟨0, ![]⟩ 32 n))) ws)))
        (Host.gather gd x (broadcastInDim ⟨2, ![E, 1]⟩ ![0] h1
          (select (cmpi .slt wd (broadcastInDim ⟨1, ![E]⟩ ![] hz (constantI ⟨0, ![]⟩ 32 0#32)))
            (addi wd (broadcastInDim ⟨1, ![E]⟩ ![] hz (constantI ⟨0, ![]⟩ 32 n))) wd))) (ix1 e)
      = x (ix1 (GcnEdges.nodeW hN n (ws (ix1 e)))) * x (ix1 (GcnEdges.nodeW hN n (wd (ix1 e)))) :=
  (mulf_apply _ _ _).trans (congrArg₂ (· * ·)
    (flat_gather_wrap hN gd g1 g2 g3 g4 g5 g6 g7 h1 hz n x ws e)
    (flat_gather_wrap hN gd g1 g2 g3 g4 g5 g6 g7 h1 hz n x wd e))

end Words2

/-! ## The reference program's stages -/

section Main

/-- The layer's gather column holds the wrapped source words. -/
theorem src_word36 (x7 : (⟨S2x800000, .i32⟩ : BufTy).Contents (Elt Ideal)) (e : Fin 850000) :
    ReadP.val_main_v36 (F := Ideal) x7 (ix2 e 0) = GcnEdges.wrapW 50000#32 (ReadP.val_main_v3 (F := Ideal) x7 (ix1 e)) := by
  unfold ReadP.val_main_v36 ReadP.val_main_v35 ReadP.val_main_v32 ReadP.val_main_v34 ReadP.val_main_v31 ReadP.val_main_v33 ReadP.val_main_c_6 ReadP.val_main_c_7
  exact wrap_col_apply bcast_S850000_S850000x1_0 bcast_S_S850000 50000#32 (ReadP.val_main_v3 (F := Ideal) x7) e 0

/-- The layer's gather column holds the wrapped source words. -/
theorem src_word54 (x7 : (⟨S2x800000, .i32⟩ : BufTy).Contents (Elt Ideal)) (e : Fin 850000) :
    ReadP.val_main_v54 (F := Ideal) x7 (ix2 e 0) = GcnEdges.wrapW 50000#32 (ReadP.val_main_v3 (F := Ideal) x7 (ix1 e)) := by
  unfold ReadP.val_main_v54 ReadP.val_main_v53 ReadP.val_main_v50 ReadP.val_main_v52 ReadP.val_main_v49 ReadP.val_main_v51 ReadP.val_main_c_9 ReadP.val_main_c_10
  exact wrap_col_apply bcast_S850000_S850000x1_0 bcast_S_S850000 50000#32 (ReadP.val_main_v3 (F := Ideal) x7) e 0

/-- The layer's gather column holds the wrapped source words. -/
theorem src_word72 (x7 : (⟨S2x800000, .i32⟩ : BufTy).Contents (Elt Ideal)) (e : Fin 850000) :
    ReadP.val_main_v72 (F := Ideal) x7 (ix2 e 0) = GcnEdges.wrapW 50000#32 (ReadP.val_main_v3 (F := Ideal) x7 (ix1 e)) := by
  unfold ReadP.val_main_v72 ReadP.val_main_v71 ReadP.val_main_v68 ReadP.val_main_v70 ReadP.val_main_v67 ReadP.val_main_v69 ReadP.val_main_c_12 ReadP.val_main_c_13
  exact wrap_col_apply bcast_S850000_S850000x1_0 bcast_S_S850000 50000#32 (ReadP.val_main_v3 (F := Ideal) x7) e 0

/-- The layer's scatter column holds the destination words. -/
theorem dst_word42 (x7 : (⟨S2x800000, .i32⟩ : BufTy).Contents (Elt Ideal)) (e : Fin 850000) :
    ReadP.val_main_v42 (F := Ideal) x7 (ix2 e 0) = ReadP.val_main_v6 (F := Ideal) x7 (ix1 e) := by
  unfold ReadP.val_main_v42
  exact bcast_col_apply _ bcast_S850000_S850000x1_0 e 0

/-- The layer's scatter column holds the destination words. -/
theorem dst_word60 (x7 : (⟨S2x800000, .i32⟩ : BufTy).Contents (Elt Ideal)) (e : Fin 850000) :
    ReadP.val_main_v60 (F := Ideal) x7 (ix2 e 0) = ReadP.val_main_v6 (F := Ideal) x7 (ix1 e) := by
  unfold ReadP.val_main_v60
  exact bcast_col_apply _ bcast_S850000_S850000x1_0 e 0

/-- The layer's scatter column holds the destination words. -/
theorem dst_word78 (x7 : (⟨S2x800000, .i32⟩ : BufTy).Contents (Elt Ideal)) (e : Fin 850000) :
    ReadP.val_main_v78 (F := Ideal) x7 (ix2 e 0) = ReadP.val_main_v6 (F := Ideal) x7 (ix1 e) := by
  unfold ReadP.val_main_v78
  exact bcast_col_apply _ bcast_S850000_S850000x1_0 e 0

/-- An edge's weight is the product of the scales of the two nodes its words read. -/
theorem nrm_word (x7 : (⟨S2x800000, .i32⟩ : BufTy).Contents (Elt Ideal)) (e : Fin 850000) :
    ReadP.val_main_v29 (F := Ideal) x7 (ix1 e)
      = (fun n : Fin 50000 => ReadP.val_main_v14 (F := Ideal) x7 (ix1 n)) ((fun e : Fin 850000 => GcnEdges.nodeW (N := 50000) (by decide) 50000#32 (ReadP.val_main_v3 (F := Ideal) x7 (ix1 e))) e)
        * (fun n : Fin 50000 => ReadP.val_main_v14 (F := Ideal) x7 (ix1 n)) ((fun e : Fin 850000 => GcnEdges.nodeW (N := 50000) (by decide) 50000#32 (ReadP.val_main_v6 (F := Ideal) x7 (ix1 e))) e) := by
  unfold ReadP.val_main_v29 ReadP.val_main_v21 ReadP.val_main_v28 ReadP.val_main_v20 ReadP.val_main_v27 ReadP.val_main_v19 ReadP.val_main_v26 ReadP.val_main_v16 ReadP.val_main_v18 ReadP.val_main_v23 ReadP.val_main_v25 ReadP.val_main_v15 ReadP.val_main_v17 ReadP.val_main_v22 ReadP.val_main_v24 ReadP.val_main_c ReadP.val_main_c_3 ReadP.val_main_c_4 ReadP.val_main_c_5
  exact nrm_generic (N := 50000) (E := 850000) (by decide) gather_S50000_S850000x1_S850000_n_0_n_n_0_1_1 rfl rfl rfl rfl rfl rfl rfl
    bcast_S850000_S850000x1_0 bcast_S_S850000 50000#32 (ReadP.val_main_v14 (F := Ideal) x7) (ReadP.val_main_v3 (F := Ideal) x7) (ReadP.val_main_v6 (F := Ideal) x7) e

/-- The first layer. -/
theorem layer1 (x0 : (⟨S50000x128, .f32⟩ : BufTy).Contents (Elt Ideal)) (x1 : (⟨S128x128, .f32⟩ : BufTy).Contents (Elt Ideal)) (x2 : (⟨S128, .f32⟩ : BufTy).Contents (Elt Ideal)) (x7 : (⟨S2x800000, .i32⟩ : BufTy).Contents (Elt Ideal)) :
    ReadP.val_main_v46 (F := Ideal) x0 x1 x2 x7
      = GcnSpec.layR (fun e : Fin 850000 => GcnEdges.rowW 50000 (ReadP.val_main_v6 (F := Ideal) x7 (ix1 e)))
          (fun e : Fin 850000 => GcnEdges.nodeW (N := 50000) (by decide) 50000#32 (ReadP.val_main_v3 (F := Ideal) x7 (ix1 e)))
          (fun e : Fin 850000 => GcnEdges.nodeW (N := 50000) (by decide) 50000#32 (ReadP.val_main_v6 (F := Ideal) x7 (ix1 e)))
          (fun n : Fin 50000 => ReadP.val_main_v14 (F := Ideal) x7 (ix1 n))
          x0 x1 (fun c => x2 (ix1 c)) := by
  unfold ReadP.val_main_v46 ReadP.val_main_v43 ReadP.val_main_v45 ReadP.val_main_v44 ReadP.val_main_v41 ReadP.val_main_cst_8 ReadP.val_main_v40 ReadP.val_main_v37 ReadP.val_main_v39 ReadP.val_main_v38 ReadP.val_main_v30
  refine (layer_value (N := 50000) (E := 850000) (A := 128) (B := 128) (by decide)
      dot_S50000x128_S128x128_S50000x128_1_0_0_1_n_n rfl rfl rfl rfl rfl rfl
      gather_S50000x128_S850000x1_S850000x128_1_0_n_n_0_1_1128 rfl rfl rfl rfl rfl rfl rfl
      scatter_S50000x128_S850000x1_S850000x128_1_0_0_1 rfl rfl rfl rfl
      bcast_S_S50000x128 bcast_S850000_S850000x1_0 bcast_S850000x1_S850000x128_0_1 bcast_S128_S1x128_1 bcast_S1x128_S50000x128_0_1
      x0 x1 x2 (ReadP.val_main_v42 (F := Ideal) x7) (ReadP.val_main_v36 (F := Ideal) x7) (ReadP.val_main_v29 (F := Ideal) x7)).trans ?_
  exact layer_spec (N := 50000) (E := 850000) (by decide) 50000#32 x0 x1 x2 _ _ _
    (fun e => ReadP.val_main_v3 (F := Ideal) x7 (ix1 e)) (fun e => ReadP.val_main_v6 (F := Ideal) x7 (ix1 e)) (fun n : Fin 50000 => ReadP.val_main_v14 (F := Ideal) x7 (ix1 n))
    (dst_word42 x7) (src_word36 x7) (nrm_word x7)

/-- The first positive part. -/
theorem relu1 (x0 : (⟨S50000x128, .f32⟩ : BufTy).Contents (Elt Ideal)) (x1 : (⟨S128x128, .f32⟩ : BufTy).Contents (Elt Ideal)) (x2 : (⟨S128, .f32⟩ : BufTy).Contents (Elt Ideal)) (x7 : (⟨S2x800000, .i32⟩ : BufTy).Contents (Elt Ideal)) :
    ReadP.val_main_v47 (F := Ideal) x0 x1 x2 x7 = GcnSpec.posPart (ReadP.val_main_v46 (F := Ideal) x0 x1 x2 x7) := by
  unfold ReadP.val_main_v47 ReadP.val_main_call1_v0 ReadP.val_main_call1_cst
  exact relu_value bcast_S_S50000x128 _

/-- The second layer. -/
theorem layer2 (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x7 : (⟨S2x800000, .i32⟩ : BufTy).Contents (Elt Ideal)) :
    ReadP.val_main_v64 (F := Ideal) x0 x1 x2 x3 x4 x7
      = GcnSpec.layR (fun e : Fin 850000 => GcnEdges.rowW 50000 (ReadP.val_main_v6 (F := Ideal) x7 (ix1 e)))
          (fun e : Fin 850000 => GcnEdges.nodeW (N := 50000) (by decide) 50000#32 (ReadP.val_main_v3 (F := Ideal) x7 (ix1 e)))
          (fun e : Fin 850000 => GcnEdges.nodeW (N := 50000) (by decide) 50000#32 (ReadP.val_main_v6 (F := Ideal) x7 (ix1 e)))
          (fun n : Fin 50000 => ReadP.val_main_v14 (F := Ideal) x7 (ix1 n))
          (ReadP.val_main_v47 (F := Ideal) x0 x1 x2 x7) x3 (fun c => x4 (ix1 c)) := by
  unfold ReadP.val_main_v64 ReadP.val_main_v61 ReadP.val_main_v63 ReadP.val_main_v62 ReadP.val_main_v59 ReadP.val_main_cst_11 ReadP.val_main_v58 ReadP.val_main_v55 ReadP.val_main_v57 ReadP.val_main_v56 ReadP.val_main_v48
  refine (layer_value (N := 50000) (E := 850000) (A := 128) (B := 128) (by decide)
      dot_S50000x128_S128x128_S50000x128_1_0_0_1_n_n rfl rfl rfl rfl rfl rfl
      gather_S50000x128_S850000x1_S850000x128_1_0_n_n_0_1_1128 rfl rfl rfl rfl rfl rfl rfl
      scatter_S50000x128_S850000x1_S850000x128_1_0_0_1 rfl rfl rfl rfl
      bcast_S_S50000x128 bcast_S850000_S850000x1_0 bcast_S850000x1_S850000x128_0_1 bcast_S128_S1x128_1 bcast_S1x128_S50000x128_0_1
      (ReadP.val_main_v47 (F := Ideal) x0 x1 x2 x7) x3 x4 (ReadP.val_main_v60 (F := Ideal) x7) (ReadP.val_main_v54 (F := Ideal) x7) (ReadP.val_main_v29 (F := Ideal) x7)).trans ?_
  exact layer_spec (N := 50000) (E := 850000) (by decide) 50000#32 (ReadP.val_main_v47 (F := Ideal) x0 x1 x2 x7) x3 x4 _ _ _
    (fun e => ReadP.val_main_v3 (F := Ideal) x7 (ix1 e)) (fun e => ReadP.val_main_v6 (F := Ideal) x7 (ix1 e)) (fun n : Fin 50000 => ReadP.val_main_v14 (F := Ideal) x7 (ix1 n))
    (dst_word60 x7) (src_word54 x7) (nrm_word x7)

/-- The second positive part. -/
theorem relu2 (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x7 : (⟨S2x800000, .i32⟩ : BufTy).Contents (Elt Ideal)) :
    ReadP.val_main_v65 (F := Ideal) x0 x1 x2 x3 x4 x7 = GcnSpec.posPart (ReadP.val_main_v64 (F := Ideal) x0 x1 x2 x3 x4 x7) := by
  unfold ReadP.val_main_v65 ReadP.val_main_call2_v0 ReadP.val_main_call2_cst
  exact relu_value bcast_S_S50000x128 _

/-- The third layer. -/
theorem layer3 (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S2x800000, .i32⟩ : BufTy).Contents (Elt Ideal)) :
    ReadP.val_main_v82 (F := Ideal) x0 x1 x2 x3 x4 x5 x6 x7
      = GcnSpec.layR (fun e : Fin 850000 => GcnEdges.rowW 50000 (ReadP.val_main_v6 (F := Ideal) x7 (ix1 e)))
          (fun e : Fin 850000 => GcnEdges.nodeW (N := 50000) (by decide) 50000#32 (ReadP.val_main_v3 (F := Ideal) x7 (ix1 e)))
          (fun e : Fin 850000 => GcnEdges.nodeW (N := 50000) (by decide) 50000#32 (ReadP.val_main_v6 (F := Ideal) x7 (ix1 e)))
          (fun n : Fin 50000 => ReadP.val_main_v14 (F := Ideal) x7 (ix1 n))
          (ReadP.val_main_v65 (F := Ideal) x0 x1 x2 x3 x4 x7) x5 (fun c => x6 (ix1 c)) := by
  unfold ReadP.val_main_v82 ReadP.val_main_v79 ReadP.val_main_v81 ReadP.val_main_v80 ReadP.val_main_v77 ReadP.val_main_cst_14 ReadP.val_main_v76 ReadP.val_main_v73 ReadP.val_main_v75 ReadP.val_main_v74 ReadP.val_main_v66
  refine (layer_value (N := 50000) (E := 850000) (A := 128) (B := 64) (by decide)
      dot_S50000x128_S128x64_S50000x64_1_0_0_1_n_n rfl rfl rfl rfl rfl rfl
      gather_S50000x64_S850000x1_S850000x64_1_0_n_n_0_1_164 rfl rfl rfl rfl rfl rfl rfl
      scatter_S50000x64_S850000x1_S850000x64_1_0_0_1 rfl rfl rfl rfl
      bcast_S_S50000x64 bcast_S850000_S850000x1_0 bcast_S850000x1_S850000x64_0_1 bcast_S64_S1x64_1 bcast_S1x64_S50000x64_0_1
      (ReadP.val_main_v65 (F := Ideal) x0 x1 x2 x3 x4 x7) x5 x6 (ReadP.val_main_v78 (F := Ideal) x7) (ReadP.val_main_v72 (F := Ideal) x7) (ReadP.val_main_v29 (F := Ideal) x7)).trans ?_
  exact layer_spec (N := 50000) (E := 850000) (by decide) 50000#32 (ReadP.val_main_v65 (F := Ideal) x0 x1 x2 x3 x4 x7) x5 x6 _ _ _
    (fun e => ReadP.val_main_v3 (F := Ideal) x7 (ix1 e)) (fun e => ReadP.val_main_v6 (F := Ideal) x7 (ix1 e)) (fun n : Fin 50000 => ReadP.val_main_v14 (F := Ideal) x7 (ix1 n))
    (dst_word78 x7) (src_word72 x7) (nrm_word x7)

/-- The log-softmax of the third layer's rows. -/
theorem lsm_value (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S2x800000, .i32⟩ : BufTy).Contents (Elt Ideal)) :
    ReadP.val_main_v83 (F := Ideal) x0 x1 x2 x3 x4 x5 x6 x7
      = GcnSpec.logSoftmax (Ideal.ofBits .f32 0xFF800000#32) (ReadP.val_main_v82 (F := Ideal) x0 x1 x2 x3 x4 x5 x6 x7) := by
  unfold ReadP.val_main_v83 ReadP.val_main_call3_v10 ReadP.val_main_call3_v9 ReadP.val_main_call3_v8 ReadP.val_main_call3_v7 ReadP.val_main_call3_cst_1 ReadP.val_main_call3_v6 ReadP.val_main_call3_v5 ReadP.val_main_call3_v4 ReadP.val_main_call3_v3
  exact logSoftmax_value (N := 50000) (B := 64) reducesTo_S50000x64_S50000_d1 (by decide) h_S_ bcast_S_S50000
    bcast_S50000_S50000x1_0 bcast_S50000x1_S50000x64_0_1 0xFF800000#32 (ReadP.val_main_v82 (F := Ideal) x0 x1 x2 x3 x4 x5 x6 x7)
    (ReadP.val_main_call3_v2 (F := Ideal) x0 x1 x2 x3 x4 x5 x6 x7)
    (by unfold ReadP.val_main_call3_v2 ReadP.val_main_call3_v1 ReadP.val_main_call3_v0 ReadP.val_main_call3_cst ReadP.val_main_call3_cst_0; rfl)

/-- THE REFERENCE PROGRAM'S RESULT is the edge-weight network of the specification, on the edges its index words give. -/
theorem ref_value (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S2x800000, .i32⟩ : BufTy).Contents (Elt Ideal)) :
    ReadP.val_main_v83 (F := Ideal) x0 x1 x2 x3 x4 x5 x6 x7
      = GcnSpec.outR (Ideal.ofBits .f32 0xFF800000#32)
          (fun e : Fin 850000 => GcnEdges.rowW 50000 (ReadP.val_main_v6 (F := Ideal) x7 (ix1 e)))
          (fun e : Fin 850000 => GcnEdges.nodeW (N := 50000) (by decide) 50000#32 (ReadP.val_main_v3 (F := Ideal) x7 (ix1 e)))
          (fun e : Fin 850000 => GcnEdges.nodeW (N := 50000) (by decide) 50000#32 (ReadP.val_main_v6 (F := Ideal) x7 (ix1 e)))
          (fun n : Fin 50000 => ReadP.val_main_v14 (F := Ideal) x7 (ix1 n))
          x0 x1 (fun c => x2 (ix1 c)) x3 (fun c => x4 (ix1 c)) x5 (fun c => x6 (ix1 c)) := by
  unfold GcnSpec.outR
  rw [lsm_value, layer3, relu2, layer2, relu1, layer1]

end Main

end Cert.ReferenceIdeal.RefValue

end
-- ==== Proof.GcnDis.lean ====
/-
  The per-node scale of a graph convolution is an array of real numbers. The degree of a node is a scatter-add of ones
  into zeros: a finite sum of real numbers. The scale is `1 / sqrt deg` where the degree is positive and `0` elsewhere: at a
  positive real number the reciprocal square root is a real number.
-/
import Idealize.ShloMosaic.Lib.ValueIdx
import Idealize.ShloMosaic.PureOps.Ideal
import Idealize.ShloMosaic.PureOps.Ideal.Laws
import proofs.«157919_j21165598834728_2_alg».proof.Proof.LibChebAlgebra

noncomputable section

open scoped BigOperators

namespace GcnDis

open Idealize.ShloMosaic Idealize.ShloMosaic.ValueIdx ChebAlgebra

/-- A float scatter-add of real updates into a real operand is real: each entry is the operand's plus a finite sum of
    updates. -/
theorem isReal_scatterAdd {s si su : Shape} (d : ScatterDims s si su) {w : Nat} (x : FVec Ideal s .f32) (idx : IVec si w)
    (upd : FVec Ideal su .f32) (hx : IsReal x) (hu : IsReal upd) : IsReal (Host.scatterAdd (F := Ideal) d x idx upd) := by
  intro i
  obtain ⟨a, ha⟩ := hx i
  obtain ⟨b, hb⟩ := isReal_sum' (Finset.univ.filter fun j => d.resultIdx? j idx = some i) (fun (_ : Unit) j => upd j)
    (fun _ j _ => hu j) ()
  refine ⟨a + b, ?_⟩
  unfold Host.scatterAdd
  rw [Ideal.hostScatterAdd_def]
  unfold Ideal.hostScatterAdd
  rw [ha]
  exact (congrArg (fun t : EReal => (a : EReal) + t) hb).trans (EReal.coe_add a b).symm

/-- The word `0x3F800000` is a real number (it is 1). -/
theorem ofBits_one_f32_real : ∃ r : ℝ, Ideal.ofBits .f32 0x3F800000#32 = (r : EReal) := by
  refine ⟨(8388608 : ℝ) * ((2 : ℝ) ^ 23)⁻¹, ?_⟩
  simp [Ideal.ofBits, Ideal.ieee]

/-- `where (deg > 0, rsqrt deg, 0)` of a real array `deg` is real. -/
theorem isReal_where_rsqrt {s : Shape} (deg zero zero' : FVec Ideal s .f32) (hdeg : IsReal deg) (hz : ∀ i, zero i = 0)
    (hz' : ∀ i, zero' i = 0) : IsReal (select (cmpf .ogt deg zero) (Host.rsqrt deg) zero') := by
  intro i
  obtain ⟨r, hr⟩ := hdeg i
  show ∃ q : ℝ, Scalar.select (Ideal.cmp .ogt (deg i) (zero i)) (Ideal.rsqrt (deg i)) (zero' i) = (q : EReal)
  unfold Scalar.select
  split_ifs with h
  · rw [hr, hz i] at h
    rw [hr]
    have hr0 : 0 < r := by
      unfold Ideal.cmp at h
      by_contra hn
      have hd : decide ((0 : EReal) < (r : EReal)) = false := decide_eq_false (fun hlt => hn (by exact_mod_cast hlt))
      have hh : BitVec.ofBool (decide ((0 : EReal) < (r : EReal))) = 1#1 := h
      rw [hd] at hh
      exact absurd hh (by decide)
    refine ⟨(Real.sqrt r)⁻¹, ?_⟩
    show (if r < 0 then (⊥ : EReal) else if r = 0 then ⊤ else (((Real.sqrt r)⁻¹ : ℝ) : EReal)) = _
    rw [if_neg (not_lt.mpr hr0.le), if_neg hr0.ne']
  · exact ⟨0, by rw [hz' i]; rfl⟩

end GcnDis

end
-- ==== Proof.LibFiniteReal.lean ====
/-
  FROM "EVERY ENTRY IS BELOW +∞ IN ABSOLUTE VALUE" TO "EVERY ENTRY IS A REAL NUMBER", at the ideal values
  (floats are extended reals), independent of any particular program.
  A precondition "every entry of `x` is finite" prints, per float array `x`, as: the absolute value of `x`, the
  f32 word 0x7F800000 broadcast to `x`'s shape, their elementwise ordered less-than (an array of one-bit words), and the
  reduction of that array by `and` over all axes from the constant 1. This file reads that back:
  • `real_of_abs_lt_top`: an extended real whose absolute value compares below +∞ is a real number;
  • `ofBits_inf_f32`, `broadcast_inf_apply`: the word 0x7F800000 is +∞, and so is its broadcast at every index;
  • `forall_real_of_all_abs_lt`: if the reduction is 1 then every entry of `x` is a real number, against any array that
    is +∞ everywhere; `forall_real_of_all_abs_lt_inf`: the same against the broadcast word, the form a printed
    precondition has.
  The conclusion is spelt out, `∀ i, ∃ r : ℝ, x i = (r : EReal)`: the statement that `x` is an array of real numbers.
-/
import Idealize.ShloMosaic.Lib.ReduceAll
import Idealize.ShloMosaic.PureOps.Ideal

noncomputable section

namespace FiniteReal

open Idealize.ShloMosaic

/-- An extended real whose absolute value `max x (-x)` compares (ordered less-than, as a one-bit word) below +∞ is a
    real number: at ⊥ and at ⊤ the absolute value is ⊤, and ⊤ < ⊤ is false. -/
theorem real_of_abs_lt_top (x : EReal) (h : Ideal.cmp .olt (max x (-x)) ⊤ = 1#1) : ∃ r : ℝ, x = (r : EReal) := by
  induction x using EReal.rec with
  | bot => exact absurd h (by simp [Ideal.cmp])
  | coe r => exact ⟨r, rfl⟩
  | top => exact absurd h (by simp [Ideal.cmp])

/-- The f32 word 0x7F800000 denotes +∞. -/
theorem ofBits_inf_f32 : Ideal.ofBits .f32 0x7F800000#32 = ⊤ := by simp [Ideal.ofBits, Ideal.ieee]

/-- The word 0x7F800000 as a constant of any shape, broadcast to any shape, reads +∞ at every index. -/
theorem broadcast_inf_apply {u s : Shape} (dims : Fin u.rank → Fin s.rank) (hb : u.BroadcastsInDim s dims) (i : s.Idx) :
    broadcastInDim s dims hb (constant (F := Ideal) u .f32 0x7F800000#32) i = ⊤ := by
  unfold broadcastInDim
  exact ofBits_inf_f32

/-- If the `and` over ALL entries of "the absolute value of `x` is below `B`" is 1, and `B` is +∞ everywhere, then
    every entry of `x` is a real number. (`t` has one index: the reduction is over all axes.) -/
theorem forall_real_of_all_abs_lt {s t u : Shape} {axes : List (Fin s.rank)} [Subsingleton t.Idx]
    (x B : FVec Ideal s .f32) (hB : ∀ i, B i = ⊤) (init : u.Idx → BitVec 1) (h : s.ReducesTo axes t) (hu : 0 < u.numel)
    (j : t.Idx) (e : Host.reduce IntOp.andi (cmpf .olt (Host.absf x) B) init h hu j = 1#1) :
    ∀ i, ∃ r : ℝ, x i = (r : EReal) := fun i => by
  have hi := Host.reduce_andi_all (cmpf .olt (Host.absf x) B) init h hu j e i
  refine real_of_abs_lt_top (x i) ?_
  have : cmpf .olt (Host.absf x) B i = Ideal.cmp .olt (max (x i) (-(x i))) (B i) := rfl
  rw [this, hB i] at hi
  exact hi

/-- The printed form: against the word 0x7F800000 broadcast to `x`'s shape. -/
theorem forall_real_of_all_abs_lt_inf {s t u v : Shape} {axes : List (Fin s.rank)} [Subsingleton t.Idx]
    (x : FVec Ideal s .f32) (dims : Fin v.rank → Fin s.rank) (hb : v.BroadcastsInDim s dims)
    (init : u.Idx → BitVec 1) (h : s.ReducesTo axes t) (hu : 0 < u.numel) (j : t.Idx)
    (e : Host.reduce IntOp.andi
          (cmpf .olt (Host.absf x) (broadcastInDim s dims hb (constant (F := Ideal) v .f32 0x7F800000#32))) init h hu j = 1#1) :
    ∀ i, ∃ r : ℝ, x i = (r : EReal) :=
  forall_real_of_all_abs_lt x _ (broadcast_inf_apply dims hb) init h hu j e

end FiniteReal

end
-- ==== Proof.FiniteInputs.lean ====
/-
  From the precondition "every float input is finite" to "every float input is an array of real numbers", at the ideal
  values. The precondition is the conjunction, over the seven float arguments, of "the absolute value of every entry
  compares below +∞", each reduced by `and` over all axes; a conjunction of one-bit words is 1 exactly when both are.
-/
import proofs.«157919_j21165598834728_2_alg».proof.Pre_finite_inputs
import proofs.«157919_j21165598834728_2_alg».proof.Proof.LibFiniteReal
import proofs.«157919_j21165598834728_2_alg».proof.Proof.LibChebAlgebra
import Idealize.ShloMosaic.Lib.ValueIdx
import Idealize.ShloMosaic.Lib.Affine

noncomputable section

namespace Cert.FiniteInputs

open Idealize.ShloMosaic Idealize.ShloMosaic.ValueIdx ChebAlgebra Cert.Pre_finite_inputs

instance : Subsingleton (Cert.Pre_finite_inputs.S_.Idx) := ⟨fun a b => funext fun d => d.elim0⟩

variable [Cert.Pre_finite_inputs.Facts]

/-- When the precondition's word is 1, each of the seven float arguments is an array of real numbers. -/
theorem real_inputs (a0 : FVec Ideal S50000x128 .f32) (a1 : FVec Ideal S128x128 .f32) (a2 : FVec Ideal S128 .f32)
    (a3 : FVec Ideal S128x128 .f32) (a4 : FVec Ideal S128 .f32) (a5 : FVec Ideal S128x64 .f32) (a6 : FVec Ideal S64 .f32)
    (a7 : IVec S2x800000 32)
    (h : Cert.Pre_finite_inputs.fn (F := Ideal) a0 a1 a2 a3 a4 a5 a6 a7 = fun _ => 1#1) :
    IsReal a0 ∧ IsReal a1 ∧ IsReal a2 ∧ IsReal a3 ∧ IsReal a4 ∧ IsReal a5 ∧ IsReal a6 := by
  have h0 := congrFun h ix0
  dsimp only [Cert.Pre_finite_inputs.fn, Cert.Pre_finite_inputs.fn_part1] at h0
  obtain ⟨h0, e6⟩ := IntOp.andi_eq_one.mp h0
  obtain ⟨h0, e5⟩ := IntOp.andi_eq_one.mp h0
  obtain ⟨h0, e4⟩ := IntOp.andi_eq_one.mp h0
  obtain ⟨h0, e3⟩ := IntOp.andi_eq_one.mp h0
  obtain ⟨h0, e2⟩ := IntOp.andi_eq_one.mp h0
  obtain ⟨e0, e1⟩ := IntOp.andi_eq_one.mp h0
  exact ⟨FiniteReal.forall_real_of_all_abs_lt_inf a0 _ _ _ _ _ _ e0,
    FiniteReal.forall_real_of_all_abs_lt_inf a1 _ _ _ _ _ _ e1,
    FiniteReal.forall_real_of_all_abs_lt_inf a2 _ _ _ _ _ _ e2,
    FiniteReal.forall_real_of_all_abs_lt_inf a3 _ _ _ _ _ _ e3,
    FiniteReal.forall_real_of_all_abs_lt_inf a4 _ _ _ _ _ _ e4,
    FiniteReal.forall_real_of_all_abs_lt_inf a5 _ _ _ _ _ _ e5,
    FiniteReal.forall_real_of_all_abs_lt_inf a6 _ _ _ _ _ _ e6⟩

end Cert.FiniteInputs

end
-- ==== Proof.Algebraic.lean ====
/-
  The two programs compute one function. On every core, when every float input is finite, the array the idealized kernel
  leaves in its result buffer is the reference's last stage of the same arguments:
  * the kernel's result is three scale-first layers, positive parts between them, then the row-wise log-softmax
    (`GcnSpec.outK`, read off its regions and host stretches);
  * the reference's last stage is three edge-weight layers and the same log-softmax (`GcnSpec.outR`);
  * both are built over the same index words and the same per-node scale, and the destination word of an edge that lands
    on a node is read back as that node by the gather of the scale; with every entry a real number the two networks
    agree (`GcnSpec.outK_eq_outR`). The real entries come from the precondition (the inputs) and from the scale being
    `1 / sqrt` of a positive count or zero.
-/
import proofs.«157919_j21165598834728_2_alg».proof.Proof.KernelNet
import proofs.«157919_j21165598834728_2_alg».proof.Proof.Bridge
import proofs.«157919_j21165598834728_2_alg».proof.Proof.RefValue
import proofs.«157919_j21165598834728_2_alg».proof.Proof.GcnDis
import proofs.«157919_j21165598834728_2_alg».proof.Proof.FiniteInputs
import proofs.«157919_j21165598834728_2_alg».proof.Proof.LibHostForms

set_option maxRecDepth 16384

noncomputable section

namespace Cert.GcnAlgebraic

open Idealize.ShloMosaic Idealize.ShloMosaic.TcCoe Idealize.SL.Sem Idealize.ShloMosaic.ValueIdx ChebAlgebra

/-! ## The per-node scale is real -/

/-- The reference's per-node scale `where (deg > 0, rsqrt deg, 0)` is an array of real numbers: the degree is a
    scatter-add of ones into zeros. -/
theorem isReal_scale (x7 : (⟨Cert.ReferenceIdeal.S2x800000, .i32⟩ : BufTy).Contents (Elt Ideal)) :
    IsReal (Cert.ReferenceIdeal.ReadP.val_main_v14 (F := Ideal) x7) := by
  unfold Cert.ReferenceIdeal.ReadP.val_main_v14 Cert.ReferenceIdeal.ReadP.val_main_v12 Cert.ReferenceIdeal.ReadP.val_main_v13
  refine GcnDis.isReal_where_rsqrt _ _ _ ?_ ?_ ?_
  · unfold Cert.ReferenceIdeal.ReadP.val_main_v10
    refine GcnDis.isReal_scatterAdd _ _ _ _ ?_ ?_
    · intro i
      refine ⟨0, ?_⟩
      rw [Cert.ReferenceIdeal.ReadP.val_main_v8_apply, Cert.ReferenceIdeal.ReadP.val_main_cst_0_apply]
      exact Ideal.ofBits_zero_f32
    · intro i
      rw [Cert.ReferenceIdeal.ReadP.val_main_v7_apply, Cert.ReferenceIdeal.ReadP.val_main_cst_apply]
      exact GcnDis.ofBits_one_f32_real
  · intro i
    rw [Cert.ReferenceIdeal.ReadP.val_main_v11_apply, Cert.ReferenceIdeal.ReadP.val_main_cst_1_apply]
    exact Ideal.ofBits_zero_f32
  · intro i
    rw [Cert.ReferenceIdeal.ReadP.val_main_call0_v1_apply, Cert.ReferenceIdeal.ReadP.val_main_call0_v0_apply,
      Cert.ReferenceIdeal.ReadP.val_main_cst_2_apply]
    exact Ideal.ofBits_zero_f32

/-! ## The kernel's result is the reference's last stage -/

section
open Cert.KernelIdeal Cert.KernelIdeal.Gen

variable [Cert.Pre_finite_inputs.Facts]

/-- On a core whose float inputs are all finite, the idealized kernel's result array is the reference's last stage of the
    same eight arguments. -/
theorem value_eq (m : (ℓ : Loc nD τ sig) → Buf (Elt Ideal) ℓ) (ρ : Dev nD → PrngReg) (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      = fun _ => 1#1) :
    (W10 m ρ c (Proc.devRef .tc main_v52) : S50000x64.Idx → EReal)
      = Cert.ReferenceIdeal.ReadP.val_main_v83 (F := Ideal) (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7)) := by
  obtain ⟨r0, r1, r2, r3, r4, r5, r6⟩ := Cert.FiniteInputs.real_inputs _ _ _ _ _ _ _ _ hpre
  rw [Cert.ReferenceIdeal.RefValue.ref_value]
  rw [GcnNet.result_value m ρ c _ _ _ (GcnBridge.src_words m ρ c) (GcnBridge.dst_words m ρ c) (GcnBridge.scale_col m ρ c)]
  have hdis : (fun n : Fin 50000 => shapeCast S50000x1 (Cert.ReferenceIdeal.ReadP.val_main_v14 (F := Ideal) (GcnBridge.edges m c))
        shapeCasts_S50000_S50000x1 (ix2 n (0 : Fin 1)))
      = fun n : Fin 50000 => Cert.ReferenceIdeal.ReadP.val_main_v14 (F := Ideal) (GcnBridge.edges m c) (ix1 n) :=
    funext fun n => GcnBridge.col_apply _ _ n
  rw [hdis]
  exact GcnSpec.outK_eq_outR _ _ _ _ _
    (fun e n h => GcnEdges.nodeW_of_rowW _ _ _ n h)
    ((isReal_scale (GcnBridge.edges m c)).comp fun n : Fin 50000 => ix1 n) r0 r1 (r2.comp fun q : Fin 128 => ix1 q) r3
    (r4.comp fun q : Fin 128 => ix1 q) r5

end

end Cert.GcnAlgebraic

end
-- ==== Proof.lean ====
/-
  The certificate of a three-layer graph convolution (GCN) kernel against its jnp reference.

  The kernel's @main is four launched regions among host operations. Per layer the dense work is done in a region —
  `(X W) · dis` row by row, and, fused with it in the later regions, the previous layer's epilogue
  `max (agg · dis + b, 0)`; the last region is `log_softmax (agg · dis + b)` — and the irregular work on the host: the rows
  of the region's output are gathered at the source node of every edge and scatter-added at its destination node. The
  reference scales every gathered row by the edge weight `dis[src] · dis[dst]` instead and adds the bias after the
  scatter-add. At the ideal values both are the same function of the inputs when every input is finite: the destination's
  scale is a common factor of the weights of the edges that land on a node, and a product distributes over a finite sum
  of real numbers (`GcnSpec.layK_eq_layR`). The idealization pass rewrote nothing, so `preserves` is trivial.

  The three frames: the kernel programs' are the generated frame certificates; the reference's is its run with the
  result dropped. The value claim: the kernel's run with its result buffer named (`GcnRun.run_result`) and the
  reference's run (`RefRun.run`) end at one array (`GcnAlgebraic.value_eq`).
-/
import proofs.«157919_j21165598834728_2_alg».proof.Defs
import proofs.«157919_j21165598834728_2_alg».proof.Proof.Gen.Kernel
import proofs.«157919_j21165598834728_2_alg».proof.Proof.Gen.Kernel.Skeleton
import proofs.«157919_j21165598834728_2_alg».proof.Proof.Gen.Kernel.Launch
import proofs.«157919_j21165598834728_2_alg».proof.Proof.Gen.Kernel.Points
import proofs.«157919_j21165598834728_2_alg».proof.Proof.Gen.Kernel.Frame
import proofs.«157919_j21165598834728_2_alg».proof.Proof.Gen.KernelIdeal
import proofs.«157919_j21165598834728_2_alg».proof.Proof.Gen.KernelIdeal.Skeleton
import proofs.«157919_j21165598834728_2_alg».proof.Proof.Gen.KernelIdeal.Launch
import proofs.«157919_j21165598834728_2_alg».proof.Proof.Gen.KernelIdeal.Points
import proofs.«157919_j21165598834728_2_alg».proof.Proof.Gen.KernelIdeal.Frame
import proofs.«157919_j21165598834728_2_alg».proof.Proof.Gen.ReferenceIdeal
import proofs.«157919_j21165598834728_2_alg».proof.Proof.Gen.Pre_finite_inputs
import proofs.«157919_j21165598834728_2_alg».proof.Proof.KernelRun
import proofs.«157919_j21165598834728_2_alg».proof.Proof.RefRun
import proofs.«157919_j21165598834728_2_alg».proof.Proof.Algebraic
import Idealize.ShloMosaic.Adequacy
import Idealize.ShloMosaic.Init

noncomputable section

namespace Cert.Proof

open Idealize.ShloMosaic Idealize.SL.Sem

/-- The kernel as printed runs and keeps its arguments: the generated frame certificate. -/
theorem frame_k : Cert.frame_Kernel := fun m ρ _ => Cert.Kernel.Gen.frame m ρ

/-- The idealized kernel runs and keeps its arguments: the generated frame certificate. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization pass rewrote no operation. -/
theorem preserves : Cert.preserves_Kernel_KernelIdeal := trivial

/-- From memories agreeing on the arguments, with every float input finite, the two idealized programs end with the
    same result array: the kernel's last boundary contents at its result buffer. -/
theorem algebraic : Cert.algebraic_KernelIdeal_ReferenceIdeal := by
  intro m ρ m' ρ' hpre hagree
  refine ⟨fun c => Cert.KernelIdeal.Gen.W10 m ρ c (Proc.devRef .tc Cert.KernelIdeal.main_v52),
    Cert.KernelIdeal.GcnRun.run_result (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact (Cert.GcnAlgebraic.value_eq m ρ c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
